-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S100000 : Shape := ⟨1, ![100000]⟩
abbrev S512x256 : Shape := ⟨2, ![512, 256]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S512x256 : S_.BroadcastsInDim S512x256 (![] : Fin 0 → Fin S512x256.rank)
  reducesTo_S512x256_S_d0_1 : S512x256.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  reducesTo_S100000_S_d0 : S100000.ReducesTo [0] S_

variable [Facts]

def fn_part5 {F : FTy → Type} [FloatOps F] (main_arg3 : IVec S100000 32) (main_v78 : IVec S_ 1) (main_v82 : IVec S1600000 1) (main_v84 : IVec S1600000 32) (main_v85 : IVec S1600000 32) : IVec S_ 1 :=
  let main_v86 : IVec S1600000 1 := cmpi .slt main_v84 main_v85
  let main_v87 : IVec S1600000 1 := andi main_v82 main_v86
  let main_c_32 : IVec S_ 1 := constantI S_ 1 1#1
  let main_v88 : IVec S_ 1 := (fun x v => Host.reduce IntOp.andi x v reducesTo_S1600000_S_d0 h_S_) main_v87 main_c_32
  let main_v89 : IVec S_ 1 := andi main_v78 main_v88
  let main_c_33 : IVec S_ 32 := constantI S_ 32 0#32
  let main_v90 : IVec S100000 32 := broadcastInDim S100000 ![] bcast_S_S100000 main_c_33
  let main_v91 : IVec S100000 1 := cmpi .sge main_arg3 main_v90
  let main_c_34 : IVec S_ 32 := constantI S_ 32 512#32
  let main_v92 : IVec S100000 32 := broadcastInDim S100000 ![] bcast_S_S100000 main_c_34
  let main_v93 : IVec S100000 1 := cmpi .slt main_arg3 main_v92
  let main_v94 : IVec S100000 1 := andi main_v91 main_v93
  let main_c_35 : IVec S_ 1 := constantI S_ 1 1#1
  let main_v95 : IVec S_ 1 := (fun x v => Host.reduce IntOp.andi x v reducesTo_S100000_S_d0 h_S_) main_v94 main_c_35
  let main_v96 : IVec S_ 1 := andi main_v89 main_v95
  main_v96

def fn_part4 {F : FTy → Type} [FloatOps F] (main_arg1 : IVec S2x1600000 32) (main_arg3 : IVec S100000 32) (main_arg16 : FVec F S256x128 .f32) (main_arg17 : FVec F S128 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : IVec S1x1600000 32 := (extractStridedSlice S1x1600000 ![0, 0] · slices_S2x1600000_S1x1600000_0_0) main_arg1
  let main_v80 : IVec S1600000 32 := shapeCast S1600000 main_v79 shapeCasts_S1x1600000_S1600000
  let main_c_30 : IVec S_ 32 := constantI S_ 32 0#32
  let main_v81 : IVec S1600000 32 := broadcastInDim S1600000 ![] bcast_S_S1600000 main_c_30
  let main_v82 : IVec S1600000 1 := cmpi .sge main_v80 main_v81
  let main_v83 : IVec S1x1600000 32 := (extractStridedSlice S1x1600000 ![0, 0] · slices_S2x1600000_S1x1600000_0_0) main_arg1
  let main_v84 : IVec S1600000 32 := shapeCast S1600000 main_v83 shapeCasts_S1x1600000_S1600000
  let main_c_31 : IVec S_ 32 := constantI S_ 32 100000#32
  let main_v85 : IVec S1600000 32 := broadcastInDim S1600000 ![] bcast_S_S1600000 main_c_31
  fn_part5 (F := F) main_arg3 main_v78 main_v82 main_v84 main_v85

def fn_part3 {F : FTy → Type} [FloatOps F] (main_arg1 : IVec S2x1600000 32) (main_arg3 : IVec S100000 32) (main_arg13 : FVec F S128 .f32) (main_arg14 : FVec F S256x128 .f32) (main_arg15 : FVec F S128 .f32) (main_arg16 : FVec F S256x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg3 main_arg16 main_arg17 main_v63 main_v67

def fn_part2 {F : FTy → Type} [FloatOps F] (main_arg1 : IVec S2x1600000 32) (main_arg3 : IVec S100000 32) (main_arg9 : FVec F S128x128 .f32) (main_arg10 : FVec F S128 .f32) (main_arg11 : FVec F S128 .f32) (main_arg12 : FVec F S128 .f32) (main_arg13 : FVec F S128 .f32) (main_arg14 : FVec F S256x128 .f32) (main_arg15 : FVec F S128 .f32) (main_arg16 : FVec F S256x128 .f32) (main_arg17 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg3 main_arg13 main_arg14 main_arg15 main_arg16 main_arg17 main_v48 main_v49 main_v50

def fn_part1 {F : FTy → Type} [FloatOps F] (main_arg1 : IVec S2x1600000 32) (main_arg3 : IVec S100000 32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S256x128 .f32) (main_arg15 : FVec F S128 .f32) (main_arg16 : FVec F S256x128 .f32) (main_arg17 : FVec F S128 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg3 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S1600000x32 .f32) (main_arg3 : IVec S100000 32) (main_arg4 : FVec F S512x256 .f32) (main_arg5 : FVec F S32x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S256x128 .f32) (main_arg15 : FVec F S128 .f32) (main_arg16 : FVec F S256x128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg1 main_arg3 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S100000 : Shape := ⟨1, ![100000]⟩
abbrev S512x256 : Shape := ⟨2, ![512, 256]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S6400x128 : Shape := ⟨2, ![6400, 128]⟩
abbrev S6400x32 : Shape := ⟨2, ![6400, 32]⟩
abbrev S1x128 : Shape := ⟨2, ![1, 128]⟩
abbrev S4000x128 : Shape := ⟨2, ![4000, 128]⟩
abbrev S100000x1 : Shape := ⟨2, ![100000, 1]⟩
abbrev S512x1 : Shape := ⟨2, ![512, 1]⟩
abbrev S512x128 : Shape := ⟨2, ![512, 128]⟩

abbrev nBuf : Space → Nat
  | .hbm => 178
  | .vmem => 41
  | .smem => 0
  | _ => 0

abbrev hbmTy0_0 (i : Nat) : BufTy := match i % 128 with
  | 0 => ⟨S100000x128, .f32⟩
  | 1 => ⟨S2x1600000, .i32⟩
  | 2 => ⟨S1600000x32, .f32⟩
  | 3 => ⟨S100000, .i32⟩
  | 4 => ⟨S512x256, .f32⟩
  | 5 => ⟨S32x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S256x128, .f32⟩
  | 15 => ⟨S128, .f32⟩
  | 16 => ⟨S256x128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1, .i32⟩
  | 31 => ⟨S_, .i32⟩
  | 32 => ⟨S1600000x1, .i32⟩
  | 33 => ⟨S1600000x1, .i1⟩
  | 34 => ⟨S1x1, .i32⟩
  | 35 => ⟨S1600000x1, .i32⟩
  | 36 => ⟨S1600000x1, .i1⟩
  | 37 => ⟨S1600000x1, .i1⟩
  | 38 => ⟨S_, .i1⟩
  | 39 => ⟨S1600000, .i1⟩
  | 40 => ⟨S1600000x128, .f32⟩
  | 41 => ⟨S1600000x128, .i1⟩
  | 42 => ⟨S_, .f32⟩
  | 43 => ⟨S1600000x128, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S100000x128, .f32⟩
  | 51 => ⟨S_, .f32⟩
  | 52 => ⟨S100000x1, .f32⟩
  | 53 => ⟨S_, .f32⟩
  | 54 => ⟨S512x1, .f32⟩
  | 55 => ⟨S100000x1, .i32⟩
  | 56 => ⟨S512x1, .f32⟩
  | 57 => ⟨S_, .f32⟩
  | 58 => ⟨S512x1, .f32⟩
  | 59 => ⟨S512x1, .f32⟩
  | 60 => ⟨S_, .f32⟩
  | 61 => ⟨S512x128, .f32⟩
  | 62 => ⟨S100000x1, .i32⟩
  | 63 => ⟨S512x128, .f32⟩
  | 64 => ⟨S512x128, .f32⟩
  | 65 => ⟨S512x128, .f32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S1, .i32⟩
  | 75 => ⟨S_, .i32⟩
  | 76 => ⟨S100000x1, .i32⟩
  | 77 => ⟨S100000x1, .i1⟩
  | 78 => ⟨S1x1, .i32⟩
  | 79 => ⟨S100000x1, .i32⟩
  | 80 => ⟨S100000x1, .i1⟩
  | 81 => ⟨S100000x1, .i1⟩
  | 82 => ⟨S_, .i1⟩
  | 83 => ⟨S100000, .i1⟩
  | 84 => ⟨S100000x128, .f32⟩
  | 85 => ⟨S100000x128, .i1⟩
  | 86 => ⟨S_, .f32⟩
  | 87 => ⟨S100000x128, .f32⟩
  | 88 => ⟨S100000x128, .f32⟩
  | 89 => ⟨S100000x128, .f32⟩
  | 90 => ⟨S100000x128, .f32⟩
  | 91 => ⟨S_, .f32⟩
  | 92 => ⟨S512x128, .f32⟩
  | 93 => ⟨S100000x1, .i32⟩
  | 94 => ⟨S512x128, .f32⟩
  | 95 => ⟨S512x128, .f32⟩
  | 96 => ⟨S512x128, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S1, .i32⟩
  | 106 => ⟨S_, .i32⟩
  | 107 => ⟨S100000x1, .i32⟩
  | 108 => ⟨S100000x1, .i1⟩
  | 109 => ⟨S1x1, .i32⟩
  | 110 => ⟨S100000x1, .i32⟩
  | 111 => ⟨S100000x1, .i1⟩
  | 112 => ⟨S100000x1, .i1⟩
  | 113 => ⟨S_, .i1⟩
  | 114 => ⟨S100000, .i1⟩
  | 115 => ⟨S100000x128, .f32⟩
  | 116 => ⟨S100000x128, .i1⟩
  | 117 => ⟨S_, .f32⟩
  | 118 => ⟨S100000x128, .f32⟩
  | 119 => ⟨S100000x128, .f32⟩
  | 120 => ⟨S512x128, .f32⟩
  | 121 => ⟨S1x128, .f32⟩
  | 122 => ⟨S512x128, .f32⟩
  | 123 => ⟨S512x128, .f32⟩
  | 124 => ⟨S_, .f32⟩
  | 125 => ⟨S512x128, .f32⟩
  | 126 => ⟨S512x128, .f32⟩
  | 127 => ⟨S512x128, .f32⟩
  | _ => ⟨S100000x128, .f32⟩

abbrev hbmTy0_1 (i : Nat) : BufTy := match i % 128 with
  | 0 => ⟨S1x128, .f32⟩
  | 1 => ⟨S512x128, .f32⟩
  | 2 => ⟨S512x128, .f32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S1, .i32⟩
  | 12 => ⟨S_, .i32⟩
  | 13 => ⟨S100000x1, .i32⟩
  | 14 => ⟨S100000x1, .i1⟩
  | 15 => ⟨S1x1, .i32⟩
  | 16 => ⟨S100000x1, .i32⟩
  | 17 => ⟨S100000x1, .i1⟩
  | 18 => ⟨S100000x1, .i1⟩
  | 19 => ⟨S_, .i1⟩
  | 20 => ⟨S100000, .i1⟩
  | 21 => ⟨S100000x128, .f32⟩
  | 22 => ⟨S100000x128, .i1⟩
  | 23 => ⟨S_, .f32⟩
  | 24 => ⟨S100000x128, .f32⟩
  | 25 => ⟨S100000x128, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S1, .i32⟩
  | 35 => ⟨S_, .i32⟩
  | 36 => ⟨S100000x1, .i32⟩
  | 37 => ⟨S100000x1, .i1⟩
  | 38 => ⟨S1x1, .i32⟩
  | 39 => ⟨S100000x1, .i32⟩
  | 40 => ⟨S100000x1, .i1⟩
  | 41 => ⟨S100000x1, .i1⟩
  | 42 => ⟨S_, .i1⟩
  | 43 => ⟨S100000, .i1⟩
  | 44 => ⟨S100000x128, .f32⟩
  | 45 => ⟨S100000x128, .i1⟩
  | 46 => ⟨S_, .f32⟩
  | 47 => ⟨S100000x128, .f32⟩
  | 48 => ⟨S100000x128, .f32⟩
  | 49 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S6400x128, .f32⟩
  | .local _ .vmem, ⟨1, _⟩ => ⟨S6400x128, .f32⟩
  | .local _ .vmem, ⟨2, _⟩ => ⟨S6400x32, .f32⟩
  | .local _ .vmem, ⟨3, _⟩ => ⟨S6400x32, .f32⟩
  | .local _ .vmem, ⟨4, _⟩ => ⟨S32x128, .f32⟩
  | .local _ .vmem, ⟨5, _⟩ => ⟨S128, .f32⟩
  | .local _ .vmem, ⟨6, _⟩ => ⟨S6400x128, .f32⟩
  | .local _ .vmem, ⟨7, _⟩ => ⟨S6400x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S128, .f32⟩
  | .local _ .vmem, ⟨34, _⟩ => ⟨S128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v4 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_0 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_cst_2 : Ref sig .tc := ⟨.hbm, 57, rfl⟩
abbrev main_v14 : Ref sig .tc := ⟨.hbm, 58, rfl⟩
abbrev main_v15 : Ref sig .tc := ⟨.hbm, 59, rfl⟩
abbrev main_cst_3 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v21 : Ref sig .tc := ⟨.hbm, 88, rfl⟩
abbrev main_v22_0 : Ref sig .tc := ⟨.hbm, 89, rfl⟩
abbrev main_v22_1 : Ref sig .tc := ⟨.hbm, 90, rfl⟩
abbrev main_cst_4 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_cst_5 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_call3_c : Ref sig .tc := ⟨.hbm, 131, rfl⟩
abbrev main_call3_v0 : Ref sig .tc := ⟨.hbm, 132, rfl⟩
abbrev main_call3_v1 : Ref sig .tc := ⟨.hbm, 133, rfl⟩
abbrev main_call3_c_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_c_1 : Ref sig .tc := ⟨.hbm, 139, rfl⟩
abbrev main_call3_c_2 : Ref sig .tc := ⟨.hbm, 140, rfl⟩
abbrev main_call3_v6 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_c_3 : Ref sig .tc := ⟨.hbm, 147, rfl⟩
abbrev main_call3_v12 : Ref sig .tc := ⟨.hbm, 148, rfl⟩
abbrev main_call3_v13 : Ref sig .tc := ⟨.hbm, 149, rfl⟩
abbrev main_call3_v14 : Ref sig .tc := ⟨.hbm, 150, rfl⟩
abbrev main_call3_cst : Ref sig .tc := ⟨.hbm, 151, rfl⟩
abbrev main_call3_v15 : Ref sig .tc := ⟨.hbm, 152, rfl⟩
abbrev main_v39 : Ref sig .tc := ⟨.hbm, 153, rfl⟩
abbrev main_call4_c : Ref sig .tc := ⟨.hbm, 154, rfl⟩
abbrev main_call4_v0 : Ref sig .tc := ⟨.hbm, 155, rfl⟩
abbrev main_call4_v1 : Ref sig .tc := ⟨.hbm, 156, rfl⟩
abbrev main_call4_c_0 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_c_1 : Ref sig .tc := ⟨.hbm, 162, rfl⟩
abbrev main_call4_c_2 : Ref sig .tc := ⟨.hbm, 163, rfl⟩
abbrev main_call4_v6 : Ref sig .tc := ⟨.hbm, 164, rfl⟩
abbrev main_call4_v7 : Ref sig .tc := ⟨.hbm, 165, rfl⟩
abbrev main_call4_v8 : Ref sig .tc := ⟨.hbm, 166, rfl⟩
abbrev main_call4_v9 : Ref sig .tc := ⟨.hbm, 167, rfl⟩
abbrev main_call4_v10 : Ref sig .tc := ⟨.hbm, 168, rfl⟩
abbrev main_call4_v11 : Ref sig .tc := ⟨.hbm, 169, rfl⟩
abbrev main_call4_c_3 : Ref sig .tc := ⟨.hbm, 170, rfl⟩
abbrev main_call4_v12 : Ref sig .tc := ⟨.hbm, 171, rfl⟩
abbrev main_call4_v13 : Ref sig .tc := ⟨.hbm, 172, rfl⟩
abbrev main_call4_v14 : Ref sig .tc := ⟨.hbm, 173, rfl⟩
abbrev main_call4_cst : Ref sig .tc := ⟨.hbm, 174, rfl⟩
abbrev main_call4_v15 : Ref sig .tc := ⟨.hbm, 175, rfl⟩
abbrev main_v40 : Ref sig .tc := ⟨.hbm, 176, rfl⟩
abbrev main_v41 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc3_stg7_0 : Ref sig .tc := ⟨.vmem, 39, rfl⟩
abbrev cc3_stg7_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem6_1 : DmaSem sig := 38
abbrev cc3_sem7_0 : DmaSem sig := 39
abbrev cc3_sem7_1 : DmaSem sig := 40

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S6400x32_S6400x32_0_0 : ∀ a, (![0, 0] : Fin 2 → Nat) a + S6400x32.size a ≤ S6400x32.size a
  h_S6400x32 : 0 < S6400x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  broadcasts_S1x128_S4000x128 : S1x128.Broadcasts S4000x128
  bcast_S_S100000x1 : S_.BroadcastsInDim S100000x1 (![] : Fin 0 → Fin S100000x1.rank)
  bcast_S_S512x1 : S_.BroadcastsInDim S512x1 (![] : Fin 0 → Fin S512x1.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S_S100000 : S_.BroadcastsInDim S100000 (![] : Fin 0 → Fin S100000.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x128_0 : S100000.BroadcastsInDim S100000x128 (![0] : Fin 1 → Fin S100000x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S100000x128_S1600000x1_S1600000x128_1_0_n_n_0_1_1128_wf : GatherDims.WF S100000x128 S1600000x1 S1600000x128 [1] [0] [] [0] [] 1 ![1, 128]
  dot_S6400x32_S32x128_S6400x128_1_0_0_1_n_n_wf : DotDims.WF S6400x32 S32x128 S6400x128 [1] [0] [0] [1] [] []
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S512x1_S100000x1_S100000x1_1_0_0_1_wf : ScatterDims.WF S512x1 S100000x1 S100000x1 [1] [0] [0] 1
  scatter_S512x128_S100000x1_S100000x128_1_0_0_1_wf : ScatterDims.WF S512x128 S100000x1 S100000x128 [1] [0] [0] 1
  gather_S512x128_S100000x1_S100000x128_1_0_n_n_0_1_1128_wf : GatherDims.WF S512x128 S100000x1 S100000x128 [1] [0] [] [0] [] 1 ![1, 128]
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S1600000x32.size a
  hwx0_1 : ∀ i : grid0.Coords, EltTy.bits .f32 = 32 ∨ (Rect.block (s := S1600000x32) S6400x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S1600000x128.size a
  hwx0_4 : ∀ i : grid0.Coords, EltTy.bits .f32 = 32 ∨ (Rect.block (s := S1600000x128) S6400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .f32 = 32 ∨ (Rect.block (s := S100000x128) S4000x128.size (cc3_transform_7 i) (hinb3_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v4) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v9) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22_0) S4000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22_1) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22_0) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S4000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v40) S4000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v41) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S100000 : Shape := ⟨1, ![100000]⟩
abbrev S512x256 : Shape := ⟨2, ![512, 256]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S512x1 : Shape := ⟨2, ![512, 1]⟩
abbrev S512x128 : Shape := ⟨2, ![512, 128]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S1600000x32, .f32⟩
  | 3 => ⟨S100000, .i32⟩
  | 4 => ⟨S512x256, .f32⟩
  | 5 => ⟨S32x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S256x128, .f32⟩
  | 15 => ⟨S128, .f32⟩
  | 16 => ⟨S256x128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S1600000x128, .f32⟩
  | 32 => ⟨S1600000x128, .f32⟩
  | 33 => ⟨S1x128, .f32⟩
  | 34 => ⟨S1600000x128, .f32⟩
  | 35 => ⟨S1600000x128, .f32⟩
  | 36 => ⟨S_, .f32⟩
  | 37 => ⟨S1600000x128, .f32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x1, .f32⟩
  | 63 => ⟨S_, .f32⟩
  | 64 => ⟨S512x1, .f32⟩
  | 65 => ⟨S100000x1, .i32⟩
  | 66 => ⟨S512x1, .f32⟩
  | 67 => ⟨S_, .f32⟩
  | 68 => ⟨S512x1, .f32⟩
  | 69 => ⟨S512x1, .f32⟩
  | 70 => ⟨S_, .f32⟩
  | 71 => ⟨S512x128, .f32⟩
  | 72 => ⟨S100000x1, .i32⟩
  | 73 => ⟨S512x128, .f32⟩
  | 74 => ⟨S512x128, .f32⟩
  | 75 => ⟨S512x128, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000x128, .f32⟩
  | 85 => ⟨S1x128, .f32⟩
  | 86 => ⟨S100000x128, .f32⟩
  | 87 => ⟨S100000x128, .f32⟩
  | 88 => ⟨S100000x128, .f32⟩
  | 89 => ⟨S100000x128, .f32⟩
  | 90 => ⟨S_, .f32⟩
  | 91 => ⟨S512x128, .f32⟩
  | 92 => ⟨S100000x1, .i32⟩
  | 93 => ⟨S512x128, .f32⟩
  | 94 => ⟨S512x128, .f32⟩
  | 95 => ⟨S512x128, .f32⟩
  | 96 => ⟨S_, .f32⟩
  | 97 => ⟨S512x128, .f32⟩
  | 98 => ⟨S512x128, .f32⟩
  | 99 => ⟨S512x128, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S512x128, .f32⟩
  | 117 => ⟨S1x128, .f32⟩
  | 118 => ⟨S512x128, .f32⟩
  | 119 => ⟨S512x128, .f32⟩
  | 120 => ⟨S_, .f32⟩
  | 121 => ⟨S512x128, .f32⟩
  | 122 => ⟨S512x128, .f32⟩
  | 123 => ⟨S512x128, .f32⟩
  | 124 => ⟨S1x128, .f32⟩
  | 125 => ⟨S512x128, .f32⟩
  | 126 => ⟨S512x128, .f32⟩
  | 127 => ⟨S_, .i32⟩
  | _ => ⟨S100000x128, .f32⟩

abbrev hbmTy0_1 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S100000x128, .f32⟩
  | 8 => ⟨S100000x128, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x128, .f32⟩
  | 18 => ⟨S100000x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S100000x128, .f32⟩
  | 28 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_1 : Ref sig .tc := ⟨.hbm, 61, rfl⟩
abbrev main_v30 : Ref sig .tc := ⟨.hbm, 62, rfl⟩
abbrev main_cst_2 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_3 : Ref sig .tc := ⟨.hbm, 67, rfl⟩
abbrev main_v34 : Ref sig .tc := ⟨.hbm, 68, rfl⟩
abbrev main_v35 : Ref sig .tc := ⟨.hbm, 69, rfl⟩
abbrev main_cst_4 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_5 : Ref sig .tc := ⟨.hbm, 76, rfl⟩
abbrev main_v41 : Ref sig .tc := ⟨.hbm, 77, rfl⟩
abbrev main_v42 : Ref sig .tc := ⟨.hbm, 78, rfl⟩
abbrev main_c_6 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_7 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_8 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_9 : Ref sig .tc := ⟨.hbm, 100, rfl⟩
abbrev main_v61 : Ref sig .tc := ⟨.hbm, 101, rfl⟩
abbrev main_v62 : Ref sig .tc := ⟨.hbm, 102, rfl⟩
abbrev main_c_10 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_11 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_12 : Ref sig .tc := ⟨.hbm, 127, rfl⟩
abbrev main_v85 : Ref sig .tc := ⟨.hbm, 128, rfl⟩
abbrev main_v86 : Ref sig .tc := ⟨.hbm, 129, rfl⟩
abbrev main_c_13 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_14 : Ref sig .tc := ⟨.hbm, 137, rfl⟩
abbrev main_v93 : Ref sig .tc := ⟨.hbm, 138, rfl⟩
abbrev main_v94 : Ref sig .tc := ⟨.hbm, 139, rfl⟩
abbrev main_c_15 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call2_v0 : Ref sig .tc := ⟨.hbm, 147, rfl⟩
abbrev main_call2_v1 : Ref sig .tc := ⟨.hbm, 148, rfl⟩
abbrev main_call2_cst : Ref sig .tc := ⟨.hbm, 149, rfl⟩
abbrev main_call2_v2 : Ref sig .tc := ⟨.hbm, 150, rfl⟩
abbrev main_call2_v3 : Ref sig .tc := ⟨.hbm, 151, rfl⟩
abbrev main_call2_cst_0 : Ref sig .tc := ⟨.hbm, 152, rfl⟩
abbrev main_call2_v4 : Ref sig .tc := ⟨.hbm, 153, rfl⟩
abbrev main_call2_v5 : Ref sig .tc := ⟨.hbm, 154, rfl⟩
abbrev main_v101 : Ref sig .tc := ⟨.hbm, 155, rfl⟩
abbrev main_v102 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S_S512x1 : S_.BroadcastsInDim S512x1 (![] : Fin 0 → Fin S512x1.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S_S100000 : S_.BroadcastsInDim S100000 (![] : Fin 0 → Fin S100000.rank)
  bcast_S1x128_S512x128_0_1 : S1x128.BroadcastsInDim S512x128 (![0, 1] : Fin 2 → Fin S512x128.rank)
  gather_S100000x128_S1600000x1_S1600000x128_1_0_n_n_0_1_1128_wf : GatherDims.WF S100000x128 S1600000x1 S1600000x128 [1] [0] [] [0] [] 1 ![1, 128]
  dot_S1600000x32_S32x128_S1600000x128_1_0_0_1_n_n_wf : DotDims.WF S1600000x32 S32x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x1_S100000x1_S100000x1_1_0_0_1_wf : ScatterDims.WF S512x1 S100000x1 S100000x1 [1] [0] [0] 1
  scatter_S512x128_S100000x1_S100000x128_1_0_0_1_wf : ScatterDims.WF S512x128 S100000x1 S100000x128 [1] [0] [0] 1
  gather_S512x128_S100000x1_S100000x128_1_0_n_n_0_1_1128_wf : GatherDims.WF S512x128 S100000x1 S100000x128 [1] [0] [] [0] [] 1 ![1, 128]
  dot_S512x256_S256x128_S512x128_1_0_0_1_n_n_wf : DotDims.WF S512x256 S256x128 S512x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x32_S32x128_S1600000x128_1_0_0_1_n_n : DotDims S1600000x32 S32x128 S1600000x128 where
  lhsContracting := [1]
  rhsContracting := [0]
  lhsNonContracting := [0]
  rhsNonContracting := [1]
  lhsBatch := []
  rhsBatch := []
  wf := dot_S1600000x32_S32x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.KernelRun.lean ====
/-
  The kernel's run, read over the extended reals, with its final memory NAMED.  @main is fourteen segments — host stretches and four
  pipelined regions — and the buffer contents at each segment boundary are a fold from the launch memory (the
  generated `Gen.W0` … `Gen.W14`).  Every weakly fair execution from a memory with zero counters terminates
  without a fault, and every buffer that no kernel scopes ends at the last boundary's contents `Gen.W14`: in
  particular the result buffer and the eighteen argument buffers.  The launch is the library's theorem for a list of
  segments, over the generated segments and their chaining; what this module adds is only that the reading of the last
  thread state against the final memory is kept as the statement's post instead of being specialised to the arguments.
-/
import proofs.«160231_j53077205844804_1_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final memory each buffer no kernel
    scopes holds the last segment boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The result buffer is not scoped by any kernel: its final contents are the last boundary's. -/
theorem result_mem : Proc.devRef .tc main_v41 ∈ Pipeline.ucRefs τ sig := mem_uc main_v41 (by decide)

end Cert.KernelIdeal.KernelRun

end
-- ==== Proof.HostStages.lean ====
/-
  The host stages between the kernel's four pipelined regions, each as ONE closed function of the arrays it reads.
  Row 0 / row 1 of the edge list are the source / target node of every edge.  A row lookup `take` of a table by a vector
  of signed row numbers wraps a negative number once by the table's height, tests the wrapped number against
  `[0, height - 1]`, gathers the (clamped) row, and keeps it where the test holds (elsewhere it writes the NaN word): the
  three pieces are `wrap…`, `mask…` and `take…`, once for the 1600000 edges into the 100000 node rows and once for the
  100000 nodes into the 512 per-graph rows.  `aggOf` sums the edge messages into their target nodes; `cntOf` counts the
  nodes of each graph (at least 1); `segDiv` is a per-graph sum of node rows divided by a per-graph column, and
  `segMean` that quotient by the graph's node count; `film1` / `film0` are the two per-graph affine tables
  (embedding · W + b, the first with 1 added).
-/
import proofs.«160231_j53077205844804_1_alg».proof.Proof.Gen.KernelIdeal

noncomputable section

namespace Cert.KernelIdeal.HostStages

open Idealize.ShloMosaic Cert.KernelIdeal Cert.KernelIdeal.Gen

variable {F : FTy → Type} [FloatOps F]

/-- Row 0 of the edge list, flattened: the source node of every edge. -/
abbrev rowOf0 (ei : IVec S2x1600000 32) : IVec S1600000 32 :=
  shapeCast S1600000 (extractStridedSlice S1x1600000 ![0, 0] ei slices_S2x1600000_S1x1600000_0_0) shapeCasts_S1x1600000_S1600000

/-- Row 1 of the edge list, flattened: the target node of every edge. -/
abbrev rowOf1 (ei : IVec S2x1600000 32) : IVec S1600000 32 :=
  shapeCast S1600000 (extractStridedSlice S1x1600000 ![1, 0] ei slices_S2x1600000_S1x1600000_1_0) shapeCasts_S1x1600000_S1600000

/-- The edges' source numbers, a negative one wrapped once by 100000, as a column. -/
abbrev wrapSrc (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge and feature: is the wrapped source number in `[0, 99999]`? -/
abbrev maskSrc (src : IVec S1600000 32) : IVec S1600000x128 1 :=
  broadcastInDim S1600000x128 ![0] bcast_S1600000_S1600000x128_0
    (Host.reduce IntOp.andi
      (andi (cmpi .sge (wrapSrc src) (broadcastInDim S1600000x1 ![] bcast_S_S1600000x1 (constantI S_ 32 0#32)))
        (cmpi .sle (wrapSrc src) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The node rows looked up by the edges' source numbers: the gathered row where the number is in range, the NaN word elsewhere. -/
abbrev takeSrc (x : FVec F S100000x128 .f32) (src : IVec S1600000 32) : FVec F S1600000x128 .f32 :=
  select (maskSrc src) (Host.gather gather_S100000x128_S1600000x1_S1600000x128_1_0_n_n_0_1_1128 x (wrapSrc src))
    (broadcastInDim S1600000x128 ![] bcast_S_S1600000x128 (constant S_ .f32 0x7FC00000#32))

/-- The nodes' graph numbers, a negative one wrapped once by 512, as a column. -/
abbrev wrapB (b : IVec S100000 32) : IVec S100000x1 32 :=
  broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 512#32))) b)

/-- Per node and feature: is the wrapped graph number in `[0, 511]`? -/
abbrev maskB (b : IVec S100000 32) : IVec S100000x128 1 :=
  broadcastInDim S100000x128 ![0] bcast_S100000_S100000x128_0
    (Host.reduce IntOp.andi
      (andi (cmpi .sge (wrapB b) (broadcastInDim S100000x1 ![] bcast_S_S100000x1 (constantI S_ 32 0#32)))
        (cmpi .sle (wrapB b) (broadcastInDim S100000x1 ![0, 1] bcast_S1x1_S100000x1_0_1
          (broadcastInDim S1x1 ![1] bcast_S1_S1x1_1 (constantI S1 32 511#32)))))
      (constantI S_ 1 1#1) reducesTo_S100000x1_S100000_d1 h_S_)

/-- A per-graph table looked up by the nodes' graph numbers: the gathered row where the number is in range, the NaN word elsewhere. -/
abbrev takeB (t : FVec F S512x128 .f32) (b : IVec S100000 32) : FVec F S100000x128 .f32 :=
  select (maskB b) (Host.gather gather_S512x128_S100000x1_S100000x128_1_0_n_n_0_1_1128 t (wrapB b))
    (broadcastInDim S100000x128 ![] bcast_S_S100000x128 (constant S_ .f32 0x7FC00000#32))

/-- The edge messages summed into their target nodes. -/
abbrev aggOf (dst : IVec S1600000 32) (msg : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) msg

/-- The number of nodes of each graph, at least 1. -/
abbrev cntOf (b : IVec S100000 32) : FVec F S512x1 .f32 :=
  maximumf
    (Host.scatterAdd scatter_S512x1_S100000x1_S100000x1_1_0_0_1
      (broadcastInDim S512x1 ![] bcast_S_S512x1 (constant S_ .f32 0x00000000#32))
      (broadcastInDim S100000x1 ![0] bcast_S100000_S100000x1_0 b)
      (broadcastInDim S100000x1 ![] bcast_S_S100000x1 (constant S_ .f32 0x3F800000#32)))
    (broadcastInDim S512x1 ![] bcast_S_S512x1 (constant S_ .f32 0x3F800000#32))

/-- The node rows summed per graph, divided by a per-graph column. -/
abbrev segDiv (b : IVec S100000 32) (h : FVec F S100000x128 .f32) (cnt : FVec F S512x1 .f32) : FVec F S512x128 .f32 :=
  Host.divf
    (Host.scatterAdd scatter_S512x128_S100000x1_S100000x128_1_0_0_1
      (broadcastInDim S512x128 ![] bcast_S_S512x128 (constant S_ .f32 0x00000000#32))
      (broadcastInDim S100000x1 ![0] bcast_S100000_S100000x1_0 b) h)
    (broadcastInDim S512x128 ![0, 1] bcast_S512x1_S512x128_0_1 cnt)

/-- The per-graph mean of the node rows. -/
abbrev segMean (b : IVec S100000 32) (h : FVec F S100000x128 .f32) : FVec F S512x128 .f32 := segDiv b h (cntOf b)

/-- The per-graph scale table: embedding · Wg + bg + 1. -/
abbrev film1 (te : FVec F S512x256 .f32) (Wg : FVec F S256x128 .f32) (bg : FVec F S128 .f32) : FVec F S512x128 .f32 :=
  addf
    (addf (Host.dotGeneral dot_S512x256_S256x128_S512x128_1_0_0_1_n_n none te Wg)
      (broadcastInDim S512x128 ![0, 1] bcast_S1x128_S512x128_0_1 (broadcastInDim S1x128 ![1] bcast_S128_S1x128_1 bg)))
    (broadcastInDim S512x128 ![] bcast_S_S512x128 (constant S_ .f32 0x3F800000#32))

/-- The per-graph shift table: embedding · Wb + bb. -/
abbrev film0 (te : FVec F S512x256 .f32) (Wb : FVec F S256x128 .f32) (bb : FVec F S128 .f32) : FVec F S512x128 .f32 :=
  addf (Host.dotGeneral dot_S512x256_S256x128_S512x128_1_0_0_1_n_n none te Wb)
    (broadcastInDim S512x128 ![0, 1] bcast_S1x128_S512x128_0_1 (broadcastInDim S1x128 ![1] bcast_S128_S1x128_1 bb))

end Cert.KernelIdeal.HostStages

end
-- ==== Proof.HostStretches.lean ====
/-
  Each host stretch of the kernel's @main, run from ANY buffer contents `V`, leaves in the buffer it is read for the
  closed function (HostStages) of the contents `V` of the buffers it reads.  A buffer written by a called function's
  operation holds its value carried to the buffer's own type; for a literal buffer that carrying is the identity, which
  the small lemmas `toBuf_…` / `ofBuf_…` state once per buffer.
-/
import proofs.«160231_j53077205844804_1_alg».proof.Proof.Gen.KernelIdeal.Launch
import proofs.«160231_j53077205844804_1_alg».proof.Proof.HostStages
import Idealize.ShloMosaic.Lib.StableHlo.Run

set_option maxRecDepth 16384

noncomputable section

namespace Cert.KernelIdeal.HostStretches

open Idealize.ShloMosaic Idealize.ShloMosaic.TcCoe Idealize.ShloMosaic.StableHlo
open Cert.KernelIdeal Cert.KernelIdeal.Gen Cert.KernelIdeal.HostStages

variable {F : FTy → Type} [FloatOps F]
variable (V : Valuation τ sig (Elt F))

/-- Contents carried to a buffer's own type and back are unchanged. -/
theorem ofBuf_toBuf {T : BufTy} (x : StableHlo.TRef sig T) (v : T.Contents (Elt F)) : x.ofBuf (x.toBuf v) = v := by
  obtain ⟨r, h, _, _⟩ := x
  subst h
  rfl

/-! ## The literal buffers: carrying contents to or from the buffer's own type is the identity -/

theorem toBuf_v4 (h1 h2 h3) (X : FVec F S1600000x128 .f32) : (StableHlo.TRef.of (T := ⟨S1600000x128, .f32⟩) main_v4 h1 h2 h3).toBuf (Val := Elt F) X = X := rfl
theorem ofBuf_v1 (h1 h2 h3) (X : main_v1.ty.Contents (Elt F)) : (StableHlo.TRef.of (T := ⟨S1600000, .i32⟩) main_v1 h1 h2 h3).ofBuf (Val := Elt F) X = X := rfl
theorem ofBuf_arg0 (h1 h2 h3) (X : main_arg0.ty.Contents (Elt F)) : (StableHlo.TRef.of (T := ⟨S100000x128, .f32⟩) main_arg0 h1 h2 h3).ofBuf (Val := Elt F) X = X := rfl
theorem ofBuf_arg3 (h1 h2 h3) (X : main_arg3.ty.Contents (Elt F)) : (StableHlo.TRef.of (T := ⟨S100000, .i32⟩) main_arg3 h1 h2 h3).ofBuf (Val := Elt F) X = X := rfl
theorem toBuf_v21 (h1 h2 h3) (X : FVec F S100000x128 .f32) : (StableHlo.TRef.of (T := ⟨S100000x128, .f32⟩) main_v21 h1 h2 h3).toBuf (Val := Elt F) X = X := rfl
theorem ofBuf_v20 (h1 h2 h3) (X : main_v20.ty.Contents (Elt F)) : (StableHlo.TRef.of (T := ⟨S512x128, .f32⟩) main_v20 h1 h2 h3).ofBuf (Val := Elt F) X = X := rfl
theorem toBuf_v28 (h1 h2 h3) (X : FVec F S100000x128 .f32) : (StableHlo.TRef.of (T := ⟨S100000x128, .f32⟩) main_v28 h1 h2 h3).toBuf (Val := Elt F) X = X := rfl
theorem ofBuf_v27 (h1 h2 h3) (X : main_v27.ty.Contents (Elt F)) : (StableHlo.TRef.of (T := ⟨S512x128, .f32⟩) main_v27 h1 h2 h3).ofBuf (Val := Elt F) X = X := rfl
theorem toBuf_v39 (h1 h2 h3) (X : FVec F S100000x128 .f32) : (StableHlo.TRef.of (T := ⟨S100000x128, .f32⟩) main_v39 h1 h2 h3).toBuf (Val := Elt F) X = X := rfl
theorem ofBuf_v34 (h1 h2 h3) (X : main_v34.ty.Contents (Elt F)) : (StableHlo.TRef.of (T := ⟨S512x128, .f32⟩) main_v34 h1 h2 h3).ofBuf (Val := Elt F) X = X := rfl
theorem toBuf_v40 (h1 h2 h3) (X : FVec F S100000x128 .f32) : (StableHlo.TRef.of (T := ⟨S100000x128, .f32⟩) main_v40 h1 h2 h3).toBuf (Val := Elt F) X = X := rfl
theorem ofBuf_v38 (h1 h2 h3) (X : main_v38.ty.Contents (Elt F)) : (StableHlo.TRef.of (T := ⟨S512x128, .f32⟩) main_v38 h1 h2 h3).ofBuf (Val := Elt F) X = X := rfl

/-! ## The stretches -/

/-- The first stretch flattens row 0 of the edge list into the source numbers … -/
theorem hostOps0_v1 : StableHlo.after hostOps0 V (Proc.devRef .tc main_v1) = rowOf0 (V (Proc.devRef .tc main_arg1)) := by
  after_results
  rfl

/-- … and row 1 into the target numbers. -/
theorem hostOps0_v3 : StableHlo.after hostOps0 V (Proc.devRef .tc main_v3) = rowOf1 (V (Proc.devRef .tc main_arg1)) := by
  after_results
  rfl

set_option maxHeartbeats 4000000 in
/-- The lookup of the node rows by the edges' source numbers. -/
theorem hostOps0_1_v4 : StableHlo.after hostOps0_1 V (Proc.devRef .tc main_v4)
    = takeSrc (V (Proc.devRef .tc main_arg0)) (V (Proc.devRef .tc main_v1)) := by
  after_results_simp
  simp only [ofBuf_toBuf, toBuf_v4, ofBuf_v1, ofBuf_arg0]

/-- The edge messages summed into their target nodes. -/
theorem hostOps1_v8 : StableHlo.after hostOps1 V (Proc.devRef .tc main_v8)
    = aggOf (V (Proc.devRef .tc main_v3)) (V (Proc.devRef .tc main_v5)) := by
  after_results

/-- The number of nodes of each graph, at least 1. -/
theorem hostOps2_v15 : StableHlo.after hostOps2 V (Proc.devRef .tc main_v15) = cntOf (V (Proc.devRef .tc main_arg3)) := by
  after_results

/-- The per-graph mean of the node rows. -/
theorem hostOps2_v20 : StableHlo.after hostOps2 V (Proc.devRef .tc main_v20)
    = segMean (V (Proc.devRef .tc main_arg3)) (V (Proc.devRef .tc main_v9)) := by
  after_results

set_option maxHeartbeats 4000000 in
/-- The lookup of the per-graph mean rows by the nodes' graph numbers. -/
theorem hostOps2_1_v21 : StableHlo.after hostOps2_1 V (Proc.devRef .tc main_v21)
    = takeB (V (Proc.devRef .tc main_v20)) (V (Proc.devRef .tc main_arg3)) := by
  after_results_simp
  simp only [ofBuf_toBuf, toBuf_v21, ofBuf_v20, ofBuf_arg3]

/-- The squared centred rows summed per graph, divided by the graph's node count. -/
theorem hostOps3_v27 : StableHlo.after hostOps3 V (Proc.devRef .tc main_v27)
    = segDiv (V (Proc.devRef .tc main_arg3)) (V (Proc.devRef .tc main_v22_1)) (V (Proc.devRef .tc main_v15)) := by
  after_results

set_option maxHeartbeats 4000000 in
/-- The lookup of the per-graph variance rows by the nodes' graph numbers. -/
theorem hostOps3_1_v28 : StableHlo.after hostOps3_1 V (Proc.devRef .tc main_v28)
    = takeB (V (Proc.devRef .tc main_v27)) (V (Proc.devRef .tc main_arg3)) := by
  after_results_simp
  simp only [ofBuf_toBuf, toBuf_v28, ofBuf_v27, ofBuf_arg3]

/-- The per-graph scale table … -/
theorem hostOps3_2_v34 : StableHlo.after hostOps3_2 V (Proc.devRef .tc main_v34)
    = film1 (V (Proc.devRef .tc main_arg4)) (V (Proc.devRef .tc main_arg14)) (V (Proc.devRef .tc main_arg15)) := by
  after_results

/-- … and the per-graph shift table, of the same stretch. -/
theorem hostOps3_2_v38 : StableHlo.after hostOps3_2 V (Proc.devRef .tc main_v38)
    = film0 (V (Proc.devRef .tc main_arg4)) (V (Proc.devRef .tc main_arg16)) (V (Proc.devRef .tc main_arg17)) := by
  after_results

set_option maxHeartbeats 4000000 in
/-- The lookup of the scale table's rows by the nodes' graph numbers. -/
theorem hostOps3_3_v39 : StableHlo.after hostOps3_3 V (Proc.devRef .tc main_v39)
    = takeB (V (Proc.devRef .tc main_v34)) (V (Proc.devRef .tc main_arg3)) := by
  after_results_simp
  simp only [ofBuf_toBuf, toBuf_v39, ofBuf_v34, ofBuf_arg3]

set_option maxHeartbeats 4000000 in
/-- The lookup of the shift table's rows by the nodes' graph numbers. -/
theorem hostOps3_4_v40 : StableHlo.after hostOps3_4 V (Proc.devRef .tc main_v40)
    = takeB (V (Proc.devRef .tc main_v38)) (V (Proc.devRef .tc main_arg3)) := by
  after_results_simp
  simp only [ofBuf_toBuf, toBuf_v40, ofBuf_v38, ofBuf_arg3]

end Cert.KernelIdeal.HostStretches

end
-- ==== Proof.HostKeeps.lean ====
/-
  What a host stretch does not write it leaves alone: run from any buffer contents `V`, a stretch of @main leaves every
  buffer outside its operations' result buffers at its contents in `V`.  One statement per stretch and per buffer a
  later stage still reads: the argument arrays (which nothing ever writes) and the intermediate arrays between the
  stretch that wrote them and the stage that reads them.  Each is the library's fact that a buffer no operation of a
  line writes keeps its contents, the operations' result buffers compared one by one.
-/
import proofs.«160231_j53077205844804_1_alg».proof.Proof.Gen.KernelIdeal.Launch
import Idealize.ShloMosaic.Lib.StableHlo.Run

set_option maxRecDepth 16384

noncomputable section

namespace Cert.KernelIdeal.HostKeeps

open Idealize.ShloMosaic Idealize.ShloMosaic.TcCoe Idealize.ShloMosaic.StableHlo
open Cert.KernelIdeal Cert.KernelIdeal.Gen

variable {F : FTy → Type} [FloatOps F]
variable (V : Valuation τ sig (Elt F))

/-- No operation of the named stretch writes the buffer in the goal: each operation's result buffer differs from it. -/
macro "keep_tac" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

theorem hostOps0_1_keep_main_arg0 : StableHlo.after hostOps0_1 V (Proc.devRef .tc main_arg0) = V (Proc.devRef .tc main_arg0) := by keep_tac hostOps0_1
theorem hostOps0_1_keep_main_arg10 : StableHlo.after hostOps0_1 V (Proc.devRef .tc main_arg10) = V (Proc.devRef .tc main_arg10) := by keep_tac hostOps0_1
theorem hostOps0_1_keep_main_arg11 : StableHlo.after hostOps0_1 V (Proc.devRef .tc main_arg11) = V (Proc.devRef .tc main_arg11) := by keep_tac hostOps0_1
theorem hostOps0_1_keep_main_arg12 : StableHlo.after hostOps0_1 V (Proc.devRef .tc main_arg12) = V (Proc.devRef .tc main_arg12) := by keep_tac hostOps0_1
theorem hostOps0_1_keep_main_arg13 : StableHlo.after hostOps0_1 V (Proc.devRef .tc main_arg13) = V (Proc.devRef .tc main_arg13) := by keep_tac hostOps0_1
theorem hostOps0_1_keep_main_arg14 : StableHlo.after hostOps0_1 V (Proc.devRef .tc main_arg14) = V (Proc.devRef .tc main_arg14) := by keep_tac hostOps0_1
theorem hostOps0_1_keep_main_arg15 : StableHlo.after hostOps0_1 V (Proc.devRef .tc main_arg15) = V (Proc.devRef .tc main_arg15) := by keep_tac hostOps0_1
theorem hostOps0_1_keep_main_arg16 : StableHlo.after hostOps0_1 V (Proc.devRef .tc main_arg16) = V (Proc.devRef .tc main_arg16) := by keep_tac hostOps0_1
theorem hostOps0_1_keep_main_arg17 : StableHlo.after hostOps0_1 V (Proc.devRef .tc main_arg17) = V (Proc.devRef .tc main_arg17) := by keep_tac hostOps0_1
theorem hostOps0_1_keep_main_arg2 : StableHlo.after hostOps0_1 V (Proc.devRef .tc main_arg2) = V (Proc.devRef .tc main_arg2) := by keep_tac hostOps0_1
theorem hostOps0_1_keep_main_arg3 : StableHlo.after hostOps0_1 V (Proc.devRef .tc main_arg3) = V (Proc.devRef .tc main_arg3) := by keep_tac hostOps0_1
theorem hostOps0_1_keep_main_arg4 : StableHlo.after hostOps0_1 V (Proc.devRef .tc main_arg4) = V (Proc.devRef .tc main_arg4) := by keep_tac hostOps0_1
theorem hostOps0_1_keep_main_arg5 : StableHlo.after hostOps0_1 V (Proc.devRef .tc main_arg5) = V (Proc.devRef .tc main_arg5) := by keep_tac hostOps0_1
theorem hostOps0_1_keep_main_arg6 : StableHlo.after hostOps0_1 V (Proc.devRef .tc main_arg6) = V (Proc.devRef .tc main_arg6) := by keep_tac hostOps0_1
theorem hostOps0_1_keep_main_arg7 : StableHlo.after hostOps0_1 V (Proc.devRef .tc main_arg7) = V (Proc.devRef .tc main_arg7) := by keep_tac hostOps0_1
theorem hostOps0_1_keep_main_arg8 : StableHlo.after hostOps0_1 V (Proc.devRef .tc main_arg8) = V (Proc.devRef .tc main_arg8) := by keep_tac hostOps0_1
theorem hostOps0_1_keep_main_arg9 : StableHlo.after hostOps0_1 V (Proc.devRef .tc main_arg9) = V (Proc.devRef .tc main_arg9) := by keep_tac hostOps0_1
theorem hostOps0_1_keep_main_v3 : StableHlo.after hostOps0_1 V (Proc.devRef .tc main_v3) = V (Proc.devRef .tc main_v3) := by keep_tac hostOps0_1
theorem hostOps0_keep_main_arg0 : StableHlo.after hostOps0 V (Proc.devRef .tc main_arg0) = V (Proc.devRef .tc main_arg0) := by keep_tac hostOps0
theorem hostOps0_keep_main_arg10 : StableHlo.after hostOps0 V (Proc.devRef .tc main_arg10) = V (Proc.devRef .tc main_arg10) := by keep_tac hostOps0
theorem hostOps0_keep_main_arg11 : StableHlo.after hostOps0 V (Proc.devRef .tc main_arg11) = V (Proc.devRef .tc main_arg11) := by keep_tac hostOps0
theorem hostOps0_keep_main_arg12 : StableHlo.after hostOps0 V (Proc.devRef .tc main_arg12) = V (Proc.devRef .tc main_arg12) := by keep_tac hostOps0
theorem hostOps0_keep_main_arg13 : StableHlo.after hostOps0 V (Proc.devRef .tc main_arg13) = V (Proc.devRef .tc main_arg13) := by keep_tac hostOps0
theorem hostOps0_keep_main_arg14 : StableHlo.after hostOps0 V (Proc.devRef .tc main_arg14) = V (Proc.devRef .tc main_arg14) := by keep_tac hostOps0
theorem hostOps0_keep_main_arg15 : StableHlo.after hostOps0 V (Proc.devRef .tc main_arg15) = V (Proc.devRef .tc main_arg15) := by keep_tac hostOps0
theorem hostOps0_keep_main_arg16 : StableHlo.after hostOps0 V (Proc.devRef .tc main_arg16) = V (Proc.devRef .tc main_arg16) := by keep_tac hostOps0
theorem hostOps0_keep_main_arg17 : StableHlo.after hostOps0 V (Proc.devRef .tc main_arg17) = V (Proc.devRef .tc main_arg17) := by keep_tac hostOps0
theorem hostOps0_keep_main_arg2 : StableHlo.after hostOps0 V (Proc.devRef .tc main_arg2) = V (Proc.devRef .tc main_arg2) := by keep_tac hostOps0
theorem hostOps0_keep_main_arg3 : StableHlo.after hostOps0 V (Proc.devRef .tc main_arg3) = V (Proc.devRef .tc main_arg3) := by keep_tac hostOps0
theorem hostOps0_keep_main_arg4 : StableHlo.after hostOps0 V (Proc.devRef .tc main_arg4) = V (Proc.devRef .tc main_arg4) := by keep_tac hostOps0
theorem hostOps0_keep_main_arg5 : StableHlo.after hostOps0 V (Proc.devRef .tc main_arg5) = V (Proc.devRef .tc main_arg5) := by keep_tac hostOps0
theorem hostOps0_keep_main_arg6 : StableHlo.after hostOps0 V (Proc.devRef .tc main_arg6) = V (Proc.devRef .tc main_arg6) := by keep_tac hostOps0
theorem hostOps0_keep_main_arg7 : StableHlo.after hostOps0 V (Proc.devRef .tc main_arg7) = V (Proc.devRef .tc main_arg7) := by keep_tac hostOps0
theorem hostOps0_keep_main_arg8 : StableHlo.after hostOps0 V (Proc.devRef .tc main_arg8) = V (Proc.devRef .tc main_arg8) := by keep_tac hostOps0
theorem hostOps0_keep_main_arg9 : StableHlo.after hostOps0 V (Proc.devRef .tc main_arg9) = V (Proc.devRef .tc main_arg9) := by keep_tac hostOps0
theorem hostOps1_keep_main_arg0 : StableHlo.after hostOps1 V (Proc.devRef .tc main_arg0) = V (Proc.devRef .tc main_arg0) := by keep_tac hostOps1
theorem hostOps1_keep_main_arg10 : StableHlo.after hostOps1 V (Proc.devRef .tc main_arg10) = V (Proc.devRef .tc main_arg10) := by keep_tac hostOps1
theorem hostOps1_keep_main_arg11 : StableHlo.after hostOps1 V (Proc.devRef .tc main_arg11) = V (Proc.devRef .tc main_arg11) := by keep_tac hostOps1
theorem hostOps1_keep_main_arg12 : StableHlo.after hostOps1 V (Proc.devRef .tc main_arg12) = V (Proc.devRef .tc main_arg12) := by keep_tac hostOps1
theorem hostOps1_keep_main_arg13 : StableHlo.after hostOps1 V (Proc.devRef .tc main_arg13) = V (Proc.devRef .tc main_arg13) := by keep_tac hostOps1
theorem hostOps1_keep_main_arg14 : StableHlo.after hostOps1 V (Proc.devRef .tc main_arg14) = V (Proc.devRef .tc main_arg14) := by keep_tac hostOps1
theorem hostOps1_keep_main_arg15 : StableHlo.after hostOps1 V (Proc.devRef .tc main_arg15) = V (Proc.devRef .tc main_arg15) := by keep_tac hostOps1
theorem hostOps1_keep_main_arg16 : StableHlo.after hostOps1 V (Proc.devRef .tc main_arg16) = V (Proc.devRef .tc main_arg16) := by keep_tac hostOps1
theorem hostOps1_keep_main_arg17 : StableHlo.after hostOps1 V (Proc.devRef .tc main_arg17) = V (Proc.devRef .tc main_arg17) := by keep_tac hostOps1
theorem hostOps1_keep_main_arg3 : StableHlo.after hostOps1 V (Proc.devRef .tc main_arg3) = V (Proc.devRef .tc main_arg3) := by keep_tac hostOps1
theorem hostOps1_keep_main_arg4 : StableHlo.after hostOps1 V (Proc.devRef .tc main_arg4) = V (Proc.devRef .tc main_arg4) := by keep_tac hostOps1
theorem hostOps1_keep_main_arg7 : StableHlo.after hostOps1 V (Proc.devRef .tc main_arg7) = V (Proc.devRef .tc main_arg7) := by keep_tac hostOps1
theorem hostOps1_keep_main_arg8 : StableHlo.after hostOps1 V (Proc.devRef .tc main_arg8) = V (Proc.devRef .tc main_arg8) := by keep_tac hostOps1
theorem hostOps1_keep_main_arg9 : StableHlo.after hostOps1 V (Proc.devRef .tc main_arg9) = V (Proc.devRef .tc main_arg9) := by keep_tac hostOps1
theorem hostOps2_1_keep_main_arg0 : StableHlo.after hostOps2_1 V (Proc.devRef .tc main_arg0) = V (Proc.devRef .tc main_arg0) := by keep_tac hostOps2_1
theorem hostOps2_1_keep_main_arg11 : StableHlo.after hostOps2_1 V (Proc.devRef .tc main_arg11) = V (Proc.devRef .tc main_arg11) := by keep_tac hostOps2_1
theorem hostOps2_1_keep_main_arg12 : StableHlo.after hostOps2_1 V (Proc.devRef .tc main_arg12) = V (Proc.devRef .tc main_arg12) := by keep_tac hostOps2_1
theorem hostOps2_1_keep_main_arg13 : StableHlo.after hostOps2_1 V (Proc.devRef .tc main_arg13) = V (Proc.devRef .tc main_arg13) := by keep_tac hostOps2_1
theorem hostOps2_1_keep_main_arg14 : StableHlo.after hostOps2_1 V (Proc.devRef .tc main_arg14) = V (Proc.devRef .tc main_arg14) := by keep_tac hostOps2_1
theorem hostOps2_1_keep_main_arg15 : StableHlo.after hostOps2_1 V (Proc.devRef .tc main_arg15) = V (Proc.devRef .tc main_arg15) := by keep_tac hostOps2_1
theorem hostOps2_1_keep_main_arg16 : StableHlo.after hostOps2_1 V (Proc.devRef .tc main_arg16) = V (Proc.devRef .tc main_arg16) := by keep_tac hostOps2_1
theorem hostOps2_1_keep_main_arg17 : StableHlo.after hostOps2_1 V (Proc.devRef .tc main_arg17) = V (Proc.devRef .tc main_arg17) := by keep_tac hostOps2_1
theorem hostOps2_1_keep_main_arg3 : StableHlo.after hostOps2_1 V (Proc.devRef .tc main_arg3) = V (Proc.devRef .tc main_arg3) := by keep_tac hostOps2_1
theorem hostOps2_1_keep_main_arg4 : StableHlo.after hostOps2_1 V (Proc.devRef .tc main_arg4) = V (Proc.devRef .tc main_arg4) := by keep_tac hostOps2_1
theorem hostOps2_1_keep_main_v15 : StableHlo.after hostOps2_1 V (Proc.devRef .tc main_v15) = V (Proc.devRef .tc main_v15) := by keep_tac hostOps2_1
theorem hostOps2_1_keep_main_v9 : StableHlo.after hostOps2_1 V (Proc.devRef .tc main_v9) = V (Proc.devRef .tc main_v9) := by keep_tac hostOps2_1
theorem hostOps2_keep_main_arg0 : StableHlo.after hostOps2 V (Proc.devRef .tc main_arg0) = V (Proc.devRef .tc main_arg0) := by keep_tac hostOps2
theorem hostOps2_keep_main_arg11 : StableHlo.after hostOps2 V (Proc.devRef .tc main_arg11) = V (Proc.devRef .tc main_arg11) := by keep_tac hostOps2
theorem hostOps2_keep_main_arg12 : StableHlo.after hostOps2 V (Proc.devRef .tc main_arg12) = V (Proc.devRef .tc main_arg12) := by keep_tac hostOps2
theorem hostOps2_keep_main_arg13 : StableHlo.after hostOps2 V (Proc.devRef .tc main_arg13) = V (Proc.devRef .tc main_arg13) := by keep_tac hostOps2
theorem hostOps2_keep_main_arg14 : StableHlo.after hostOps2 V (Proc.devRef .tc main_arg14) = V (Proc.devRef .tc main_arg14) := by keep_tac hostOps2
theorem hostOps2_keep_main_arg15 : StableHlo.after hostOps2 V (Proc.devRef .tc main_arg15) = V (Proc.devRef .tc main_arg15) := by keep_tac hostOps2
theorem hostOps2_keep_main_arg16 : StableHlo.after hostOps2 V (Proc.devRef .tc main_arg16) = V (Proc.devRef .tc main_arg16) := by keep_tac hostOps2
theorem hostOps2_keep_main_arg17 : StableHlo.after hostOps2 V (Proc.devRef .tc main_arg17) = V (Proc.devRef .tc main_arg17) := by keep_tac hostOps2
theorem hostOps2_keep_main_arg3 : StableHlo.after hostOps2 V (Proc.devRef .tc main_arg3) = V (Proc.devRef .tc main_arg3) := by keep_tac hostOps2
theorem hostOps2_keep_main_arg4 : StableHlo.after hostOps2 V (Proc.devRef .tc main_arg4) = V (Proc.devRef .tc main_arg4) := by keep_tac hostOps2
theorem hostOps2_keep_main_v9 : StableHlo.after hostOps2 V (Proc.devRef .tc main_v9) = V (Proc.devRef .tc main_v9) := by keep_tac hostOps2
theorem hostOps3_1_keep_main_arg0 : StableHlo.after hostOps3_1 V (Proc.devRef .tc main_arg0) = V (Proc.devRef .tc main_arg0) := by keep_tac hostOps3_1
theorem hostOps3_1_keep_main_arg11 : StableHlo.after hostOps3_1 V (Proc.devRef .tc main_arg11) = V (Proc.devRef .tc main_arg11) := by keep_tac hostOps3_1
theorem hostOps3_1_keep_main_arg12 : StableHlo.after hostOps3_1 V (Proc.devRef .tc main_arg12) = V (Proc.devRef .tc main_arg12) := by keep_tac hostOps3_1
theorem hostOps3_1_keep_main_arg14 : StableHlo.after hostOps3_1 V (Proc.devRef .tc main_arg14) = V (Proc.devRef .tc main_arg14) := by keep_tac hostOps3_1
theorem hostOps3_1_keep_main_arg15 : StableHlo.after hostOps3_1 V (Proc.devRef .tc main_arg15) = V (Proc.devRef .tc main_arg15) := by keep_tac hostOps3_1
theorem hostOps3_1_keep_main_arg16 : StableHlo.after hostOps3_1 V (Proc.devRef .tc main_arg16) = V (Proc.devRef .tc main_arg16) := by keep_tac hostOps3_1
theorem hostOps3_1_keep_main_arg17 : StableHlo.after hostOps3_1 V (Proc.devRef .tc main_arg17) = V (Proc.devRef .tc main_arg17) := by keep_tac hostOps3_1
theorem hostOps3_1_keep_main_arg3 : StableHlo.after hostOps3_1 V (Proc.devRef .tc main_arg3) = V (Proc.devRef .tc main_arg3) := by keep_tac hostOps3_1
theorem hostOps3_1_keep_main_arg4 : StableHlo.after hostOps3_1 V (Proc.devRef .tc main_arg4) = V (Proc.devRef .tc main_arg4) := by keep_tac hostOps3_1
theorem hostOps3_1_keep_main_v22_0 : StableHlo.after hostOps3_1 V (Proc.devRef .tc main_v22_0) = V (Proc.devRef .tc main_v22_0) := by keep_tac hostOps3_1
theorem hostOps3_2_keep_main_arg0 : StableHlo.after hostOps3_2 V (Proc.devRef .tc main_arg0) = V (Proc.devRef .tc main_arg0) := by keep_tac hostOps3_2
theorem hostOps3_2_keep_main_arg11 : StableHlo.after hostOps3_2 V (Proc.devRef .tc main_arg11) = V (Proc.devRef .tc main_arg11) := by keep_tac hostOps3_2
theorem hostOps3_2_keep_main_arg12 : StableHlo.after hostOps3_2 V (Proc.devRef .tc main_arg12) = V (Proc.devRef .tc main_arg12) := by keep_tac hostOps3_2
theorem hostOps3_2_keep_main_arg3 : StableHlo.after hostOps3_2 V (Proc.devRef .tc main_arg3) = V (Proc.devRef .tc main_arg3) := by keep_tac hostOps3_2
theorem hostOps3_2_keep_main_v22_0 : StableHlo.after hostOps3_2 V (Proc.devRef .tc main_v22_0) = V (Proc.devRef .tc main_v22_0) := by keep_tac hostOps3_2
theorem hostOps3_2_keep_main_v28 : StableHlo.after hostOps3_2 V (Proc.devRef .tc main_v28) = V (Proc.devRef .tc main_v28) := by keep_tac hostOps3_2
theorem hostOps3_3_keep_main_arg0 : StableHlo.after hostOps3_3 V (Proc.devRef .tc main_arg0) = V (Proc.devRef .tc main_arg0) := by keep_tac hostOps3_3
theorem hostOps3_3_keep_main_arg11 : StableHlo.after hostOps3_3 V (Proc.devRef .tc main_arg11) = V (Proc.devRef .tc main_arg11) := by keep_tac hostOps3_3
theorem hostOps3_3_keep_main_arg12 : StableHlo.after hostOps3_3 V (Proc.devRef .tc main_arg12) = V (Proc.devRef .tc main_arg12) := by keep_tac hostOps3_3
theorem hostOps3_3_keep_main_arg3 : StableHlo.after hostOps3_3 V (Proc.devRef .tc main_arg3) = V (Proc.devRef .tc main_arg3) := by keep_tac hostOps3_3
theorem hostOps3_3_keep_main_v22_0 : StableHlo.after hostOps3_3 V (Proc.devRef .tc main_v22_0) = V (Proc.devRef .tc main_v22_0) := by keep_tac hostOps3_3
theorem hostOps3_3_keep_main_v28 : StableHlo.after hostOps3_3 V (Proc.devRef .tc main_v28) = V (Proc.devRef .tc main_v28) := by keep_tac hostOps3_3
theorem hostOps3_3_keep_main_v38 : StableHlo.after hostOps3_3 V (Proc.devRef .tc main_v38) = V (Proc.devRef .tc main_v38) := by keep_tac hostOps3_3
theorem hostOps3_4_keep_main_arg0 : StableHlo.after hostOps3_4 V (Proc.devRef .tc main_arg0) = V (Proc.devRef .tc main_arg0) := by keep_tac hostOps3_4
theorem hostOps3_4_keep_main_arg11 : StableHlo.after hostOps3_4 V (Proc.devRef .tc main_arg11) = V (Proc.devRef .tc main_arg11) := by keep_tac hostOps3_4
theorem hostOps3_4_keep_main_arg12 : StableHlo.after hostOps3_4 V (Proc.devRef .tc main_arg12) = V (Proc.devRef .tc main_arg12) := by keep_tac hostOps3_4
theorem hostOps3_4_keep_main_v22_0 : StableHlo.after hostOps3_4 V (Proc.devRef .tc main_v22_0) = V (Proc.devRef .tc main_v22_0) := by keep_tac hostOps3_4
theorem hostOps3_4_keep_main_v28 : StableHlo.after hostOps3_4 V (Proc.devRef .tc main_v28) = V (Proc.devRef .tc main_v28) := by keep_tac hostOps3_4
theorem hostOps3_4_keep_main_v39 : StableHlo.after hostOps3_4 V (Proc.devRef .tc main_v39) = V (Proc.devRef .tc main_v39) := by keep_tac hostOps3_4
theorem hostOps3_keep_main_arg0 : StableHlo.after hostOps3 V (Proc.devRef .tc main_arg0) = V (Proc.devRef .tc main_arg0) := by keep_tac hostOps3
theorem hostOps3_keep_main_arg11 : StableHlo.after hostOps3 V (Proc.devRef .tc main_arg11) = V (Proc.devRef .tc main_arg11) := by keep_tac hostOps3
theorem hostOps3_keep_main_arg12 : StableHlo.after hostOps3 V (Proc.devRef .tc main_arg12) = V (Proc.devRef .tc main_arg12) := by keep_tac hostOps3
theorem hostOps3_keep_main_arg14 : StableHlo.after hostOps3 V (Proc.devRef .tc main_arg14) = V (Proc.devRef .tc main_arg14) := by keep_tac hostOps3
theorem hostOps3_keep_main_arg15 : StableHlo.after hostOps3 V (Proc.devRef .tc main_arg15) = V (Proc.devRef .tc main_arg15) := by keep_tac hostOps3
theorem hostOps3_keep_main_arg16 : StableHlo.after hostOps3 V (Proc.devRef .tc main_arg16) = V (Proc.devRef .tc main_arg16) := by keep_tac hostOps3
theorem hostOps3_keep_main_arg17 : StableHlo.after hostOps3 V (Proc.devRef .tc main_arg17) = V (Proc.devRef .tc main_arg17) := by keep_tac hostOps3
theorem hostOps3_keep_main_arg3 : StableHlo.after hostOps3 V (Proc.devRef .tc main_arg3) = V (Proc.devRef .tc main_arg3) := by keep_tac hostOps3
theorem hostOps3_keep_main_arg4 : StableHlo.after hostOps3 V (Proc.devRef .tc main_arg4) = V (Proc.devRef .tc main_arg4) := by keep_tac hostOps3
theorem hostOps3_keep_main_v22_0 : StableHlo.after hostOps3 V (Proc.devRef .tc main_v22_0) = V (Proc.devRef .tc main_v22_0) := by keep_tac hostOps3

end Cert.KernelIdeal.HostKeeps

end
-- ==== Proof.SpecEdgeMessage.lean ====
/- The edge-message map of a graph layer as ONE whole-array function of its four input arrays, index by index over the
   extended reals. Row r of the result is the source row r plus the edge-attribute row r times the weight matrix, plus the
   bias row, clamped below at zero. -/
import Idealize.ShloMosaic.PureOps.Ideal
import Idealize.ShloMosaic.Lib.ValueIdx

noncomputable section

open scoped BigOperators

namespace Cert.Spec

open Idealize.ShloMosaic Idealize.ShloMosaic.ValueIdx

/-- Entry (r, c) of the edge message. The matrix product is the plain sum over the 32 attribute channels of
    edge_attr (r, k) * We (k, c); the source entry x (r, c) is added to that product FIRST, the bias be (c) after, and the
    maximum with zero is taken last: the grouping is ((x + ea·We) + be), as the operations are applied. -/
def edgeMessage (x : (⟨2, ![1600000, 128]⟩ : Shape).Idx → EReal) (ea : (⟨2, ![1600000, 32]⟩ : Shape).Idx → EReal)
    (we : (⟨2, ![32, 128]⟩ : Shape).Idx → EReal) (be : (⟨1, ![128]⟩ : Shape).Idx → EReal) :
    (⟨2, ![1600000, 128]⟩ : Shape).Idx → EReal :=
  fun i => max ((x i + ∑ k : Fin 32, ea (ix2 (i 0) k) * we (ix2 k (i 1))) + be (ix1 (i 1))) 0

end Cert.Spec

end
-- ==== Proof.EdgeMessage.lean ====
/- The edge-message region read as a value. After its 250 grid points the region's output array is the whole-array
   function `Cert.Spec.edgeMessage` of the four input arrays as they are when the region is entered: grid point t
   computes rows 6400 t … 6400 t + 6399 of it from rows 6400 t … 6400 t + 6399 of the source and edge-attribute arrays and
   from the whole weight matrix and bias, and the 250 row blocks tile the 1600000 rows.
   In order: the matrix product at one entry of a block (a sum over the 32 attribute channels), the body's arithmetic at
   one entry, where each input block sits in its array, what one grid point writes back, the cover, the array. -/
import proofs.«160231_j53077205844804_1_alg».proof.Proof.Gen.KernelIdeal.Frame
import proofs.«160231_j53077205844804_1_alg».proof.Proof.SpecEdgeMessage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeMessage

open Cert.KernelIdeal Cert.KernelIdeal.Gen Cert.Spec Idealize.ShloMosaic Idealize.ShloMosaic.TcCoe Idealize.SL.Sem
open Idealize.ShloMosaic.Pipeline (Dat)
open Idealize.ShloMosaic.ValueIdx

/-! ## The matrix product at one entry of a block -/

/-- The left operand of the product is read at the output's row … -/
theorem lhs_row (j : S6400x128.Idx) (r : dot_S6400x32_S32x128_S6400x128_1_0_0_1_n_n.contr.Idx) :
    (dot_S6400x32_S32x128_S6400x128_1_0_0_1_n_n.lhsIdx j r 0).val = (j 0).val := by
  unfold DotDims.lhsIdx
  rw [dif_neg (show ¬(0 : Fin S6400x32.rank) ∈ dot_S6400x32_S32x128_S6400x128_1_0_0_1_n_n.lhsBatch by decide), dif_pos (show (0 : Fin S6400x32.rank) ∈ dot_S6400x32_S32x128_S6400x128_1_0_0_1_n_n.lhsNonContracting by decide)]
  rfl
/-- … and at the contracted channel; -/
theorem lhs_col (j : S6400x128.Idx) (r : dot_S6400x32_S32x128_S6400x128_1_0_0_1_n_n.contr.Idx) :
    (dot_S6400x32_S32x128_S6400x128_1_0_0_1_n_n.lhsIdx j r 1).val = (r ⟨0, by decide⟩).val :=
  dot_S6400x32_S32x128_S6400x128_1_0_0_1_n_n.lhsIdx_val_of_single rfl j r
/-- the right operand at the contracted channel … -/
theorem rhs_row (j : S6400x128.Idx) (r : dot_S6400x32_S32x128_S6400x128_1_0_0_1_n_n.contr.Idx) :
    (dot_S6400x32_S32x128_S6400x128_1_0_0_1_n_n.rhsIdx j r 0).val = (r ⟨0, by decide⟩).val :=
  dot_S6400x32_S32x128_S6400x128_1_0_0_1_n_n.rhsIdx_val_of_single rfl j r
/-- … and at the output's column. -/
theorem rhs_col (j : S6400x128.Idx) (r : dot_S6400x32_S32x128_S6400x128_1_0_0_1_n_n.contr.Idx) :
    (dot_S6400x32_S32x128_S6400x128_1_0_0_1_n_n.rhsIdx j r 1).val = (j 1).val := by
  unfold DotDims.rhsIdx
  rw [dif_neg (show ¬(1 : Fin S32x128.rank) ∈ dot_S6400x32_S32x128_S6400x128_1_0_0_1_n_n.rhsBatch by decide), dif_pos (show (1 : Fin S32x128.rank) ∈ dot_S6400x32_S32x128_S6400x128_1_0_0_1_n_n.rhsNonContracting by decide)]
  rfl

/-- Entry (p, q) of a [6400, 32] by [32, 128] product into the zero accumulator is the sum over the 32 channels k of
    a (p, k) * b (k, q): the contraction's one axis re-indexed by its coordinate. -/
theorem matmul_entry (a : FVec Ideal S6400x32 .bf16) (b : FVec Ideal S32x128 .bf16) (p : Fin 6400) (q : Fin 128) :
    matmul dot_S6400x32_S32x128_S6400x128_1_0_0_1_n_n none a b (constant (F := Ideal) S6400x128 .f32 0x00000000#32) (ix2 p q)
      = ∑ k : Fin 32, a (ix2 p k) * b (ix2 k q) := by
  simp only [matmul]
  rw [Ideal.matmul_constant_zero_apply, ← Equiv.sum_comp (contrEquiv1 dot_S6400x32_S32x128_S6400x128_1_0_0_1_n_n 32 rfl rfl).symm]
  refine Finset.sum_congr rfl fun k _ => ?_
  have hk := contrEquiv1_symm_val dot_S6400x32_S32x128_S6400x128_1_0_0_1_n_n 32 rfl rfl k
  have el : dot_S6400x32_S32x128_S6400x128_1_0_0_1_n_n.lhsIdx (ix2 p q) ((contrEquiv1 dot_S6400x32_S32x128_S6400x128_1_0_0_1_n_n 32 rfl rfl).symm k) = ix2 p k := funext fun d => Fin.ext (by
    match d with
    | ⟨0, _⟩ => exact lhs_row _ _
    | ⟨1, _⟩ => exact (lhs_col _ _).trans hk)
  have er : dot_S6400x32_S32x128_S6400x128_1_0_0_1_n_n.rhsIdx (ix2 p q) ((contrEquiv1 dot_S6400x32_S32x128_S6400x128_1_0_0_1_n_n 32 rfl rfl).symm k) = ix2 k q := funext fun d => Fin.ext (by
    match d with
    | ⟨0, _⟩ => exact (rhs_row _ _).trans hk
    | ⟨1, _⟩ => exact rhs_col _ _)
  rw [el, er]

/-! ## The body's arithmetic at one entry of a block -/

/-- Entry j = (p, q) of what the body stores, from the four loaded blocks: the source block's entry plus the product's
    entry (rows of the edge-attribute block against columns of the weight), then the bias at q, then the maximum with
    zero. The format changes in front of the product are the identity on extended reals, the bias row is read at its one
    row whatever p, and the zero word is the extended real 0. -/
theorem pay_entry (x0 : Vec Ideal S6400x32 .f32) (x2 : Vec Ideal S32x128 .f32) (x5 : Vec Ideal S6400x128 .f32) (x8 : Vec Ideal S128 .f32)
    (j : S6400x128.Idx) :
    k0_pay1 x0 x2 x5 x8 j = max ((x5 j + ∑ k : Fin 32, x0 (ix2 (j 0) k) * x2 (ix2 k (j 1))) + x8 (ix1 (j 1))) 0 := by
  obtain ⟨p, q, rfl⟩ : ∃ (p : Fin 6400) (q : Fin 128), j = ix2 p q := ⟨j 0, j 1, eq_ix2 j⟩
  unfold k0_pay1
  simp only [maximumf_apply, addf_apply, broadcast_apply, shapeCast_self]
  rw [matmul_entry, broadcastTo_1b_ab_apply, shapeCast_a_1a_apply]
  simp only [truncf_apply]
  show max _ (Ideal.ofBits .f32 0x00000000#32) = _
  rw [Ideal.ofBits_zero_f32]

/-! ## Where each block sits in its array -/

theorem hz : (![0, 0] : Fin 2 → Nat) = fun _ => 0 := funext fun a => by fin_cases a <;> rfl
theorem hz1 : (![0] : Fin 1 → Nat) = fun _ => 0 := funext fun a => by fin_cases a <;> rfl

/-- The index maps over the grid: the source, edge-attribute and output windows are at row block t at point t, in the
    one column block; the weight and the bias are whole at every point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The source block at point t is rows 6400 t … of the source array. -/
theorem blk_x (c : Dev nD) (t : Fin cfg0.N) (y : S6400x128.Idx) (i : S1600000x128.Idx)
    (h0 : (i 0).val = t.val * 6400 + (y 0).val) (h1 : (i 1).val = (y 1).val) :
    (iblk0 (F := Ideal) V c 0 t : Vec Ideal S6400x128 .f32) y = (V c (Pipeline.arrRef spec0 0) : S1600000x128.Idx → EReal) i := by
  obtain ⟨e00, e01, -⟩ := idx_facts t
  unfold iblk0
  rw [View.read_apply]
  show V c main_v4 _ = V c main_v4 _
  congr 1
  funext a
  apply Fin.ext
  match a with
  | ⟨0, _⟩ => show win0_0.index t (0 : Fin 2) * 6400 + 1 * (y 0).val = (i 0).val; omega
  | ⟨1, _⟩ => show win0_0.index t (1 : Fin 2) * 128 + 1 * (y 1).val = (i 1).val; omega

/-- The edge-attribute block at point t is rows 6400 t … of the edge-attribute array. -/
theorem blk_ea (c : Dev nD) (t : Fin cfg0.N) (y : S6400x32.Idx) (i : S1600000x32.Idx)
    (h0 : (i 0).val = t.val * 6400 + (y 0).val) (h1 : (i 1).val = (y 1).val) :
    (iblk0 (F := Ideal) V c 1 t : Vec Ideal S6400x32 .f32) y = (V c (Pipeline.arrRef spec0 1) : S1600000x32.Idx → EReal) i := by
  obtain ⟨-, -, e10, e11, -⟩ := idx_facts t
  unfold iblk0
  rw [View.read_apply]
  show V c main_arg2 _ = V c main_arg2 _
  congr 1
  funext a
  apply Fin.ext
  match a with
  | ⟨0, _⟩ => show win0_1.index t (0 : Fin 2) * 6400 + 1 * (y 0).val = (i 0).val; omega
  | ⟨1, _⟩ => show win0_1.index t (1 : Fin 2) * 32 + 1 * (y 1).val = (i 1).val; omega

/-- The weight block at every point is the whole weight matrix. -/
theorem blk_we (c : Dev nD) (t : Fin cfg0.N) (y : S32x128.Idx) :
    (iblk0 (F := Ideal) V c 2 t : Vec Ideal S32x128 .f32) y = (V c (Pipeline.arrRef spec0 2) : S32x128.Idx → EReal) y := by
  obtain ⟨-, -, -, -, e20, e21, -⟩ := idx_facts t
  unfold iblk0
  rw [View.read_apply]
  show V c main_arg5 _ = V c main_arg5 _
  congr 1
  funext a
  apply Fin.ext
  match a with
  | ⟨0, _⟩ => show win0_2.index t (0 : Fin 2) * 32 + 1 * (y 0).val = (y 0).val; omega
  | ⟨1, _⟩ => show win0_2.index t (1 : Fin 2) * 128 + 1 * (y 1).val = (y 1).val; omega

/-- The bias block at every point is the whole bias. -/
theorem blk_be (c : Dev nD) (t : Fin cfg0.N) (y : S128.Idx) :
    (iblk0 (F := Ideal) V c 3 t : Vec Ideal S128 .f32) y = (V c (Pipeline.arrRef spec0 3) : S128.Idx → EReal) y := by
  obtain ⟨-, -, -, -, -, -, e30, -⟩ := idx_facts t
  unfold iblk0
  rw [View.read_apply]
  show V c main_arg6 _ = V c main_arg6 _
  congr 1
  funext a
  apply Fin.ext
  match a with
  | ⟨0, _⟩ => show win0_3.index t (0 : Fin 1) * 128 + 1 * (y 0).val = (y 0).val; omega

/-! ## What one grid point writes back -/

/-- Point t writes back block t of the edge message of the arrays as the region finds them: the body's one store covers
    its staging buffer with the payload of the four loaded blocks, each entry of which is the edge message's entry at the
    block entry's place in the array. -/
theorem flushed_eq (c : Dev nD) (t : Fin cfg0.N) :
    (dat0 (F := Ideal) V c).flushed 4 t = ((cfg0.win 4).blk t).view.read (Elt Ideal)
      (edgeMessage (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S6400x32) hz, View.ld_unit_zero (S := S32x128) hz, View.ld_unit_zero (S := S6400x128) hz, View.ld_unit_zero (S := S128) hz1]
  obtain ⟨-, -, -, -, -, -, -, e40, e41⟩ := idx_facts t
  funext j
  show k0_pay1 (iblk0 V c 1 t) (iblk0 V c 2 t) (iblk0 V c 0 t) (iblk0 V c 3 t) j
    = edgeMessage (V c (Pipeline.arrRef spec0 0)) (V c (Pipeline.arrRef spec0 1)) (V c (Pipeline.arrRef spec0 2)) (V c (Pipeline.arrRef spec0 3)) (((cfg0.win 4).blk t).view.emb j)
  refine (pay_entry _ _ _ _ j).trans ?_
  have hr : ((((cfg0.win 4).blk t).view.emb j : S1600000x128.Idx) 0).val = t.val * 6400 + (j 0).val := by
    show win0_4.index t (0 : Fin 2) * 6400 + 1 * (j 0).val = _; omega
  have hc : ((((cfg0.win 4).blk t).view.emb j : S1600000x128.Idx) 1).val = (j 1).val := by
    show win0_4.index t (1 : Fin 2) * 128 + 1 * (j 1).val = _; omega
  unfold edgeMessage
  refine congrArg₂ max (congrArg₂ (· + ·) (congrArg₂ (· + ·) (blk_x V c t j _ hr hc) (Finset.sum_congr rfl fun k _ => congrArg₂ (· * ·) ?_ ?_)) ?_) rfl
  · exact blk_ea V c t (ix2 (j 0) k) (ix2 _ k) hr rfl
  · exact (blk_we V c t (ix2 k (j 1))).trans (congrArg _ (funext fun d => Fin.ext (by
      match d with
      | ⟨0, _⟩ => rfl
      | ⟨1, _⟩ => exact hc.symm)))
  · exact (blk_be V c t (ix1 (j 1))).trans (congrArg _ (funext fun d => Fin.ext (by
      match d with
      | ⟨0, _⟩ => exact hc.symm)))

/-! ## The blocks tile the array -/

/-- An index of the array is in point t's block iff each coordinate is in the block's range on its axis. -/
theorem mem_blk (t : Fin cfg0.N) (i : S1600000x128.Idx) :
    i ∈ ((cfg0.win 4).blk t).view.set ↔ ∀ a : Fin 2, win0_4.index t a * S6400x128.size a ≤ (i a).val ∧ (i a).val < win0_4.index t a * S6400x128.size a + S6400x128.size a := by
  show i ∈ ((View.whole main_v5).slice (win0_4.rect t)).set ↔ _
  rw [View.set_slice_whole, Rect.mem_set_unit]
  exact Iff.rfl

/-- Row r of the array is in the block of point r / 6400, which writes back. -/
theorem cover (i : S1600000x128.Idx) : ∃ t : Fin cfg0.N, (cfg0.win 4).flush t = true ∧ i ∈ ((cfg0.win 4).blk t).view.set := by
  have hN : cfg0.N = 250 := N_0
  have hi0 : (i 0).val < 1600000 := (i 0).isLt
  have hi1 : (i 1).val < 128 := (i 1).isLt
  have ht : (i 0).val / 6400 < cfg0.N := by rw [hN]; omega
  obtain ⟨-, -, -, -, -, -, -, e40, e41⟩ := idx_facts ⟨(i 0).val / 6400, ht⟩
  refine ⟨⟨(i 0).val / 6400, ht⟩, flush0_4 _, ?_⟩
  rw [mem_blk]
  intro a
  match a with
  | ⟨0, _⟩ =>
    show win0_4.index ⟨(i 0).val / 6400, ht⟩ (0 : Fin 2) * 6400 ≤ (i 0).val ∧ (i 0).val < win0_4.index ⟨(i 0).val / 6400, ht⟩ (0 : Fin 2) * 6400 + 6400
    rw [e40]
    show (i 0).val / 6400 * 6400 ≤ (i 0).val ∧ (i 0).val < (i 0).val / 6400 * 6400 + 6400
    omega
  | ⟨1, _⟩ =>
    show win0_4.index ⟨(i 0).val / 6400, ht⟩ (1 : Fin 2) * 128 ≤ (i 1).val ∧ (i 1).val < win0_4.index ⟨(i 0).val / 6400, ht⟩ (1 : Fin 2) * 128 + 128
    rw [e41]
    omega

/-! ## The array -/

/-- THE OUTPUT ARRAY after the region's grid is the edge message of the four input arrays as the region finds them. -/
theorem array (c : Dev nD) :
    (dat0 (F := Ideal) V c).arrAt 4 cfg0.N
      = edgeMessage (V c (Pipeline.arrRef spec0 0)) (V c (Pipeline.arrRef spec0 1)) (V c (Pipeline.arrRef spec0 2)) (V c (Pipeline.arrRef spec0 3)) :=
  (dat0 (F := Ideal) V c).arrAt_eq_of_cover 4 _ (fun t _ => flushed_eq V c t) cover

end Cert.KernelIdeal.EdgeMessage

end
-- ==== Proof.SpecGineMlp.lean ====
/- The two-layer perceptron applied to each node of a graph layer, as ONE whole-array function of its six input arrays,
   index by index over the extended reals: z1 = (x + agg)·W1 + b1, a1 = z1 * logistic z1, out = a1·W2 + b2. -/
import Idealize.ShloMosaic.PureOps.Ideal
import Idealize.ShloMosaic.Lib.ValueIdx

noncomputable section

open scoped BigOperators

namespace Cert.Spec

open Idealize.ShloMosaic Idealize.ShloMosaic.ValueIdx

/-- Entry (r, c) of the first layer before its activation: the plain sum over the 128 input channels of
    (x (r, k) + agg (r, k)) * W1 (k, c), then the bias b1 (c). The two node arrays are added entry by entry BEFORE the
    product, as the operations are applied. -/
def gineZ1 (x agg : (⟨2, ![100000, 128]⟩ : Shape).Idx → EReal) (w1 : (⟨2, ![128, 128]⟩ : Shape).Idx → EReal)
    (b1 : (⟨1, ![128]⟩ : Shape).Idx → EReal) : (⟨2, ![100000, 128]⟩ : Shape).Idx → EReal :=
  fun i => (∑ k : Fin 128, (x (ix2 (i 0) k) + agg (ix2 (i 0) k)) * w1 (ix2 k (i 1))) + b1 (ix1 (i 1))

/-- Entry (r, c) of the first layer after its activation: z1 * logistic z1, the first-layer entry times its logistic. -/
def gineA1 (x agg : (⟨2, ![100000, 128]⟩ : Shape).Idx → EReal) (w1 : (⟨2, ![128, 128]⟩ : Shape).Idx → EReal)
    (b1 : (⟨1, ![128]⟩ : Shape).Idx → EReal) : (⟨2, ![100000, 128]⟩ : Shape).Idx → EReal :=
  fun i => gineZ1 x agg w1 b1 i * Ideal.logistic (gineZ1 x agg w1 b1 i)

/-- Entry (r, c) of the result: the plain sum over the 128 hidden channels of a1 (r, k) * W2 (k, c), then the bias b2 (c). -/
def gineMlp (x agg : (⟨2, ![100000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![100000, 128]⟩ : Shape).Idx → EReal :=
  fun i => (∑ k : Fin 128, gineA1 x agg w1 b1 (ix2 (i 0) k) * w2 (ix2 k (i 1))) + b2 (ix1 (i 1))

end Cert.Spec

end
-- ==== Proof.GineMlp.lean ====
/- The node-update region read as a value. After its 25 grid points the region's output array is the whole-array function
   `Cert.Spec.gineMlp` of the six input arrays as they are when the region is entered: grid point t computes rows
   4000 t … 4000 t + 3999 of it from rows 4000 t … 4000 t + 3999 of the two node arrays and from the whole of both weight
   matrices and both biases, and the 25 row blocks tile the 100000 rows.
   In order: a matrix product at one entry of a block (a sum over 128 channels), the first layer before its activation on
   a block, the body's arithmetic at one entry, where each input block sits in its array, what one grid point writes
   back, the cover, the array. -/
import proofs.«160231_j53077205844804_1_alg».proof.Proof.Gen.KernelIdeal.Frame
import proofs.«160231_j53077205844804_1_alg».proof.Proof.SpecGineMlp
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GineMlp

open Cert.KernelIdeal Cert.KernelIdeal.Gen Cert.Spec Idealize.ShloMosaic Idealize.ShloMosaic.TcCoe Idealize.SL.Sem
open Idealize.ShloMosaic.Pipeline (Dat)
open Idealize.ShloMosaic.ValueIdx

/-! ## A matrix product at one entry of a block -/

/-- The left operand of the product is read at the output's row … -/
theorem lhs_row (j : S4000x128.Idx) (r : dot_S4000x128_S128x128_S4000x128_1_0_0_1_n_n.contr.Idx) :
    (dot_S4000x128_S128x128_S4000x128_1_0_0_1_n_n.lhsIdx j r 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and at the contracted channel; -/
theorem lhs_col (j : S4000x128.Idx) (r : dot_S4000x128_S128x128_S4000x128_1_0_0_1_n_n.contr.Idx) :
    (dot_S4000x128_S128x128_S4000x128_1_0_0_1_n_n.lhsIdx j r 1).val = (r ⟨0, by decide⟩).val :=
  dot_S4000x128_S128x128_S4000x128_1_0_0_1_n_n.lhsIdx_val_of_single rfl j r
/-- the right operand at the contracted channel … -/
theorem rhs_row (j : S4000x128.Idx) (r : dot_S4000x128_S128x128_S4000x128_1_0_0_1_n_n.contr.Idx) :
    (dot_S4000x128_S128x128_S4000x128_1_0_0_1_n_n.rhsIdx j r 0).val = (r ⟨0, by decide⟩).val :=
  dot_S4000x128_S128x128_S4000x128_1_0_0_1_n_n.rhsIdx_val_of_single rfl j r
/-- … and at the output's column. -/
theorem rhs_col (j : S4000x128.Idx) (r : dot_S4000x128_S128x128_S4000x128_1_0_0_1_n_n.contr.Idx) :
    (dot_S4000x128_S128x128_S4000x128_1_0_0_1_n_n.rhsIdx j r 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of a [4000, 128] by [128, 128] product into the zero accumulator is the sum over the 128 channels k of
    a (p, k) * b (k, q): the contraction's one axis re-indexed by its coordinate. -/
theorem matmul_entry (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun d => Fin.ext (by
    match d with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun d => Fin.ext (by
    match d with
    | ⟨0, _⟩ => exact (rhs_row _ _).trans hk
    | ⟨1, _⟩ => exact rhs_col _ _)
  rw [el, er]

/-! ## The first layer before its activation, on a block -/

/-- The first layer before its activation as the operations build it from four loaded blocks: the two node blocks added,
    multiplied into the first weight, the first bias row added to every row. -/
def z1vec (v0 v1 : Vec Ideal S4000x128 .f32) (v5 : Vec Ideal S128x128 .f32) (v8 : Vec Ideal S128 .f32) : FVec Ideal S4000x128 .f32 :=
  addf (matmul dot_S4000x128_S128x128_S4000x128_1_0_0_1_n_n none
      (truncf .bf16 (addf v0 (shapeCast S4000x128 v1 shapeCasts_S4000x128_S4000x128)) bitsLt_bf16_f32)
      (truncf .bf16 v5 bitsLt_bf16_f32) (constant S4000x128 .f32 0x00000000#32))
    (broadcastTo S4000x128 (shapeCast S1x128 v8 shapeCasts_S128_S1x128) broadcasts_S1x128_S4000x128)

/-- Its entry (p, q): the sum over the 128 input channels k of (v0 (p, k) + v1 (p, k)) * v5 (k, q), then the bias at q.
    The format changes are the identity on extended reals and the bias row is read at its one row whatever p. -/
theorem z1vec_entry (v0 v1 : Vec Ideal S4000x128 .f32) (v5 : Vec Ideal S128x128 .f32) (v8 : Vec Ideal S128 .f32)
    (p : Fin 4000) (q : Fin 128) :
    z1vec v0 v1 v5 v8 (ix2 p q) = (∑ k : Fin 128, (v0 (ix2 p k) + v1 (ix2 p k)) * v5 (ix2 k q)) + v8 (ix1 q) := by
  unfold z1vec
  rw [addf_apply, matmul_entry, broadcastTo_1b_ab_apply, shapeCast_a_1a_apply]
  simp only [truncf_apply, addf_apply, shapeCast_self]

/-! ## The body's arithmetic at one entry of a block -/

/-- What the body stores, as operations on whole blocks: the first layer times its own logistic, multiplied into the
    second weight, the second bias row added to every row. -/
theorem pay_eq (v0 v1 : Vec Ideal S4000x128 .f32) (v5 : Vec Ideal S128x128 .f32) (v8 : Vec Ideal S128 .f32)
    (v15 : Vec Ideal S128x128 .f32) (v18 : Vec Ideal S128 .f32) :
    k1_pay1 v0 v1 v5 v8 v15 v18
      = addf (matmul dot_S4000x128_S128x128_S4000x128_1_0_0_1_n_n none
          (truncf .bf16 (mulf (z1vec v0 v1 v5 v8) (logistic (z1vec v0 v1 v5 v8))) bitsLt_bf16_f32)
          (truncf .bf16 v15 bitsLt_bf16_f32) (constant S4000x128 .f32 0x00000000#32))
        (broadcastTo S4000x128 (shapeCast S1x128 v18 shapeCasts_S128_S1x128) broadcasts_S1x128_S4000x128) := rfl

/-- Entry j = (p, q) of what the body stores: the sum over the 128 hidden channels k of (z1 (p, k) * logistic (z1 (p, k)))
    * v15 (k, q), then the second bias at q. -/
theorem pay_entry (v0 v1 : Vec Ideal S4000x128 .f32) (v5 : Vec Ideal S128x128 .f32) (v8 : Vec Ideal S128 .f32)
    (v15 : Vec Ideal S128x128 .f32) (v18 : Vec Ideal S128 .f32) (j : S4000x128.Idx) :
    k1_pay1 v0 v1 v5 v8 v15 v18 j
      = (∑ k : Fin 128, (z1vec v0 v1 v5 v8 (ix2 (j 0) k) * Ideal.logistic (z1vec v0 v1 v5 v8 (ix2 (j 0) k))) * v15 (ix2 k (j 1)))
        + v18 (ix1 (j 1)) := by
  obtain ⟨p, q, rfl⟩ : ∃ (p : Fin 4000) (q : Fin 128), j = ix2 p q := ⟨j 0, j 1, eq_ix2 j⟩
  rw [pay_eq, addf_apply, matmul_entry, broadcastTo_1b_ab_apply, shapeCast_a_1a_apply]
  rfl

/-! ## Where each block sits in its array -/

theorem hz : (![0, 0] : Fin 2 → Nat) = fun _ => 0 := funext fun a => by fin_cases a <;> rfl
theorem hz1 : (![0] : Fin 1 → Nat) = fun _ => 0 := funext fun a => by fin_cases a <;> rfl

/-- The index maps over the grid: the two node windows and the output window are at row block t at point t, in the one
    column block; both weights and both biases are whole at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The first node block at point t is rows 4000 t … of the first node array. -/
theorem blk_x (c : Dev nD) (t : Fin cfg1.N) (y : S4000x128.Idx) (i : S100000x128.Idx)
    (h0 : (i 0).val = t.val * 4000 + (y 0).val) (h1 : (i 1).val = (y 1).val) :
    (iblk1 (F := Ideal) V c 0 t : Vec Ideal S4000x128 .f32) y = (V c (Pipeline.arrRef spec1 0) : S100000x128.Idx → EReal) i := by
  obtain ⟨e00, e01, e10, e11, e20, e21, e30, e40, e41, e50, e60, e61⟩ := idx_facts t
  unfold iblk1
  rw [View.read_apply]
  show V c main_arg0 _ = V c main_arg0 _
  congr 1
  funext a
  apply Fin.ext
  match a with
  | ⟨0, _⟩ => show win1_0.index t (0 : Fin 2) * 4000 + 1 * (y 0).val = (i 0).val; omega
  | ⟨1, _⟩ => show win1_0.index t (1 : Fin 2) * 128 + 1 * (y 1).val = (i 1).val; omega

/-- The second node block at point t is rows 4000 t … of the second node array. -/
theorem blk_agg (c : Dev nD) (t : Fin cfg1.N) (y : S4000x128.Idx) (i : S100000x128.Idx)
    (h0 : (i 0).val = t.val * 4000 + (y 0).val) (h1 : (i 1).val = (y 1).val) :
    (iblk1 (F := Ideal) V c 1 t : Vec Ideal S4000x128 .f32) y = (V c (Pipeline.arrRef spec1 1) : S100000x128.Idx → EReal) i := by
  obtain ⟨e00, e01, e10, e11, e20, e21, e30, e40, e41, e50, e60, e61⟩ := idx_facts t
  unfold iblk1
  rw [View.read_apply]
  show V c main_v8 _ = V c main_v8 _
  congr 1
  funext a
  apply Fin.ext
  match a with
  | ⟨0, _⟩ => show win1_1.index t (0 : Fin 2) * 4000 + 1 * (y 0).val = (i 0).val; omega
  | ⟨1, _⟩ => show win1_1.index t (1 : Fin 2) * 128 + 1 * (y 1).val = (i 1).val; omega

/-- The first weight block at every point is the whole first weight matrix. -/
theorem blk_w1 (c : Dev nD) (t : Fin cfg1.N) (y : S128x128.Idx) :
    (iblk1 (F := Ideal) V c 2 t : Vec Ideal S128x128 .f32) y = (V c (Pipeline.arrRef spec1 2) : S128x128.Idx → EReal) y := by
  obtain ⟨e00, e01, e10, e11, e20, e21, e30, e40, e41, e50, e60, e61⟩ := idx_facts t
  unfold iblk1
  rw [View.read_apply]
  show V c main_arg7 _ = V c main_arg7 _
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias block at every point is the whole first bias. -/
theorem blk_b1 (c : Dev nD) (t : Fin cfg1.N) (y : S128.Idx) :
    (iblk1 (F := Ideal) V c 3 t : Vec Ideal S128 .f32) y = (V c (Pipeline.arrRef spec1 3) : S128.Idx → EReal) y := by
  obtain ⟨e00, e01, e10, e11, e20, e21, e30, e40, e41, e50, e60, e61⟩ := idx_facts t
  unfold iblk1
  rw [View.read_apply]
  show V c main_arg8 _ = V c main_arg8 _
  congr 1
  funext a
  apply Fin.ext
  match a with
  | ⟨0, _⟩ => show win1_3.index t (0 : Fin 1) * 128 + 1 * (y 0).val = (y 0).val; omega

/-- The second weight block at every point is the whole second weight matrix. -/
theorem blk_w2 (c : Dev nD) (t : Fin cfg1.N) (y : S128x128.Idx) :
    (iblk1 (F := Ideal) V c 4 t : Vec Ideal S128x128 .f32) y = (V c (Pipeline.arrRef spec1 4) : S128x128.Idx → EReal) y := by
  obtain ⟨e00, e01, e10, e11, e20, e21, e30, e40, e41, e50, e60, e61⟩ := idx_facts t
  unfold iblk1
  rw [View.read_apply]
  show V c main_arg9 _ = V c main_arg9 _
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias block at every point is the whole second bias. -/
theorem blk_b2 (c : Dev nD) (t : Fin cfg1.N) (y : S128.Idx) :
    (iblk1 (F := Ideal) V c 5 t : Vec Ideal S128 .f32) y = (V c (Pipeline.arrRef spec1 5) : S128.Idx → EReal) y := by
  obtain ⟨e00, e01, e10, e11, e20, e21, e30, e40, e41, e50, e60, e61⟩ := idx_facts t
  unfold iblk1
  rw [View.read_apply]
  show V c main_arg10 _ = V c main_arg10 _
  congr 1
  funext a
  apply Fin.ext
  match a with
  | ⟨0, _⟩ => show win1_5.index t (0 : Fin 1) * 128 + 1 * (y 0).val = (y 0).val; omega

/-! ## What one grid point writes back -/

/-- The first layer before its activation, on point t's blocks, at block row p and channel k, is the specification's first
    layer at array row r = 4000 t + p and channel k: every factor of its sum is read at its place in its array. -/
theorem z1_at (c : Dev nD) (t : Fin cfg1.N) (p : Fin 4000) (k : Fin 128) (r : Fin 100000) (hr : r.val = t.val * 4000 + p.val) :
    z1vec (iblk1 (F := Ideal) V c 0 t) (iblk1 (F := Ideal) V c 1 t) (iblk1 (F := Ideal) V c 2 t) (iblk1 (F := Ideal) V c 3 t) (ix2 p k)
      = gineZ1 (V c (Pipeline.arrRef spec1 0)) (V c (Pipeline.arrRef spec1 1)) (V c (Pipeline.arrRef spec1 2)) (V c (Pipeline.arrRef spec1 3)) (ix2 r k) := by
  refine (z1vec_entry _ _ _ _ p k).trans ?_
  unfold gineZ1
  refine congrArg₂ (· + ·) (Finset.sum_congr rfl fun k' _ => congrArg₂ (· * ·) (congrArg₂ (· + ·) ?_ ?_) ?_) ?_
  · exact blk_x V c t (ix2 p k') (ix2 r k') hr rfl
  · exact blk_agg V c t (ix2 p k') (ix2 r k') hr rfl
  · exact blk_w1 V c t (ix2 k' k)
  · exact blk_b1 V c t (ix1 k)

/-- Point t writes back block t of the specification's result on the arrays as the region finds them: the body's one store
    covers its staging buffer with the payload of the six loaded blocks, each entry of which is the result's entry at the
    block entry's place in the array. -/
theorem flushed_eq (c : Dev nD) (t : Fin cfg1.N) :
    (dat1 (F := Ideal) V c).flushed 6 t = ((cfg1.win 6).blk t).view.read (Elt Ideal)
      (gineMlp (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S128) hz1]
  obtain ⟨e00, e01, e10, e11, e20, e21, e30, e40, e41, e50, e60, e61⟩ := idx_facts t
  funext j
  show k1_pay1 (iblk1 V c 0 t) (iblk1 V c 1 t) (iblk1 V c 2 t) (iblk1 V c 3 t) (iblk1 V c 4 t) (iblk1 V c 5 t) j
    = gineMlp (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb j)
  refine (pay_entry _ _ _ _ _ _ j).trans ?_
  have hr : ((((cfg1.win 6).blk t).view.emb j : S100000x128.Idx) 0).val = t.val * 4000 + (j 0).val := by
    show win1_6.index t (0 : Fin 2) * 4000 + 1 * (j 0).val = _; omega
  have hc : ((((cfg1.win 6).blk t).view.emb j : S100000x128.Idx) 1).val = (j 1).val := by
    show win1_6.index t (1 : Fin 2) * 128 + 1 * (j 1).val = _; omega
  unfold gineMlp
  refine congrArg₂ (· + ·) (Finset.sum_congr rfl fun k _ => congrArg₂ (· * ·) ?_ ?_) ?_
  · have hzk := z1_at V c t (j 0) k ((((cfg1.win 6).blk t).view.emb j : S100000x128.Idx) 0) hr
    exact congrArg₂ (fun a b => a * Ideal.logistic b) hzk hzk
  · exact (blk_w2 V c t (ix2 k (j 1))).trans (congrArg _ (funext fun d => Fin.ext (by
      match d with
      | ⟨0, _⟩ => rfl
      | ⟨1, _⟩ => exact hc.symm)))
  · exact (blk_b2 V c t (ix1 (j 1))).trans (congrArg _ (funext fun d => Fin.ext (by
      match d with
      | ⟨0, _⟩ => exact hc.symm)))

/-! ## The blocks tile the array -/

/-- An index of the array is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v9).slice (win1_6.rect t)).set ↔ _
  rw [View.set_slice_whole, Rect.mem_set_unit]
  exact Iff.rfl

/-- Row r of the array is in the block of point r / 4000, which writes back. -/
theorem cover (i : S100000x128.Idx) : ∃ t : Fin cfg1.N, (cfg1.win 6).flush t = true ∧ i ∈ ((cfg1.win 6).blk t).view.set := by
  have hN : cfg1.N = 25 := N_1
  have hi0 : (i 0).val < 100000 := (i 0).isLt
  have hi1 : (i 1).val < 128 := (i 1).isLt
  have ht : (i 0).val / 4000 < cfg1.N := by rw [hN]; omega
  obtain ⟨e00, e01, e10, e11, e20, e21, e30, e40, e41, e50, e60, e61⟩ := idx_facts ⟨(i 0).val / 4000, ht⟩
  refine ⟨⟨(i 0).val / 4000, ht⟩, flush1_6 _, ?_⟩
  rw [mem_blk]
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    rw [e60]
    show (i 0).val / 4000 * 4000 ≤ (i 0).val ∧ (i 0).val < (i 0).val / 4000 * 4000 + 4000
    omega
  | ⟨1, _⟩ =>
    show win1_6.index ⟨(i 0).val / 4000, ht⟩ (1 : Fin 2) * 128 ≤ (i 1).val ∧ (i 1).val < win1_6.index ⟨(i 0).val / 4000, ht⟩ (1 : Fin 2) * 128 + 128
    rw [e61]
    omega

/-! ## The array -/

/-- THE OUTPUT ARRAY after the region's grid is the specification's result on the six input arrays as the region finds
    them. -/
theorem array (c : Dev nD) :
    (dat1 (F := Ideal) V c).arrAt 6 cfg1.N
      = gineMlp (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) V c).arrAt_eq_of_cover 6 _ (fun t _ => flushed_eq V c t) cover

end Cert.KernelIdeal.GineMlp

end
-- ==== Proof.SpecCenter.lean ====
/- The centring step of a graph normalisation as whole-array functions over the extended reals:
   each node row less its graph's mean row scaled per feature, and that difference squared. -/
import Idealize.ShloMosaic.PureOps.Ideal
import Idealize.ShloMosaic.Lib.ValueIdx

noncomputable section

namespace Cert.Spec.Center

open Idealize.ShloMosaic Idealize.ShloMosaic.ValueIdx

/-- Entry (r, k) of the centred array: h[r, k] - mean_b[r, k] * scale[k]. It depends on row r of the two
    node arrays and on entry k of the scale. -/
def centered (h mb : (⟨2, ![100000, 128]⟩ : Shape).Idx → EReal) (s : (⟨1, ![128]⟩ : Shape).Idx → EReal) :
    (⟨2, ![100000, 128]⟩ : Shape).Idx → EReal :=
  fun i => h i - mb i * s (ix1 (i 1))

/-- Entry (r, k) of the squared array: the centred entry (r, k) times itself. -/
def centeredSq (h mb : (⟨2, ![100000, 128]⟩ : Shape).Idx → EReal) (s : (⟨1, ![128]⟩ : Shape).Idx → EReal) :
    (⟨2, ![100000, 128]⟩ : Shape).Idx → EReal :=
  fun i => centered h mb s i * centered h mb s i

end Cert.Spec.Center

end
-- ==== Proof.Center.lean ====
/- The centring region's two result arrays, read off the region's frame data: whatever the device's
   buffers hold when the region is entered, after its 25 grid points the first result array is the
   centred array of the three arrays the region reads and the second is its square. -/
import proofs.«160231_j53077205844804_1_alg».proof.Proof.Gen.KernelIdeal.Frame
import proofs.«160231_j53077205844804_1_alg».proof.Proof.SpecCenter
import Idealize.ShloMosaic.Lib.Pipeline.Value
import Idealize.ShloMosaic.Lib.ValueLayout

noncomputable section

namespace Cert.KernelIdeal.Center

open Cert.KernelIdeal Cert.KernelIdeal.Gen Idealize.ShloMosaic Idealize.ShloMosaic.TcCoe Idealize.SL.Sem
open Idealize.ShloMosaic.ValueIdx
open Idealize.ShloMosaic.Pipeline (Dat)
open Cert.Spec.Center

variable (V : (c : Dev nD) → (b : Ref sig .tc) → Buf (Elt Ideal) ((c : Thread nD τ).loc b))

/-! ## The body's arithmetic at one entry of a block -/

/-- Entry (p, q) of the first payload: the first block's entry less the second block's entry times
    entry q of the scale (the scale is a row laid over the block's 4000 rows). -/
theorem pay1_apply (x0 x1 : Vec Ideal S4000x128 .f32) (x2 : Vec Ideal S128 .f32) (p : Fin 4000) (q : Fin 128) :
    k2_pay1 x0 x1 x2 (ix2 p q) = x0 (ix2 p q) - x1 (ix2 p q) * x2 (ix1 q) := by
  unfold k2_pay1
  rw [subf_apply, mulf_apply, shapeCast_self, shapeCast_self, broadcastTo_1b_ab_apply, shapeCast_a_1a_apply]

/-- The first payload at block entry y is the centred array at array entry i, when the two blocks' entries y
    are the two arrays' entries i, the third block is the scale, and i and y have the same column. -/
theorem pay1_blk (x0 x1 : Vec Ideal S4000x128 .f32) (x2 : Vec Ideal S128 .f32)
    (A0 A1 : S100000x128.Idx → EReal) (A2 : S128.Idx → EReal) (y : S4000x128.Idx) (i : S100000x128.Idx)
    (hi : (i 1).val = (y 1).val) (h0 : x0 y = A0 i) (h1 : x1 y = A1 i)
    (h2 : ∀ q : Fin 128, x2 (ix1 q) = A2 (ix1 q)) :
    k2_pay1 x0 x1 x2 y = centered A0 A1 A2 i := by
  obtain ⟨p, q, rfl⟩ : ∃ (p : Fin 4000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi
  rw [pay1_apply, h0, h1, h2]
  rfl

/-- The second payload is the first times itself, entry by entry. -/
theorem pay2_blk (x0 x1 : Vec Ideal S4000x128 .f32) (x2 : Vec Ideal S128 .f32)
    (A0 A1 : S100000x128.Idx → EReal) (A2 : S128.Idx → EReal) (y : S4000x128.Idx) (i : S100000x128.Idx)
    (hi : (i 1).val = (y 1).val) (h0 : x0 y = A0 i) (h1 : x1 y = A1 i)
    (h2 : ∀ q : Fin 128, x2 (ix1 q) = A2 (ix1 q)) :
    k2_pay2 x0 x1 x2 y = centeredSq A0 A1 A2 i := by
  unfold k2_pay2
  rw [mulf_apply, pay1_blk x0 x1 x2 A0 A1 A2 y i hi h0 h1 h2]
  rfl

/-! ## The blocks of the five windows -/

theorem hz2 : (![0, 0] : Fin 2 → Nat) = fun _ => 0 := funext fun a => by fin_cases a <;> rfl
theorem hz1 : (![0] : Fin 1 → Nat) = fun _ => 0 := funext fun a => by fin_cases a <;> rfl

/-- The block indices, decided over the 25 grid points: the four node windows are at row block t and column
    block 0, the scale window at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What grid point t writes back to the first result array is block t of the centred array of the three
    arrays the region reads. -/
theorem flushed3_eq (c : Dev nD) (t : Fin cfg2.N) :
    (dat2 V c).flushed 3 t = ((cfg2.win 3).blk t).view.read (Elt Ideal)
      (centered (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S4000x128) hz2, View.ld_unit_zero (S := S128) hz1]
  obtain ⟨e00, e01, e10, e11, e20, e30, e31, -, -⟩ := idx_facts t
  funext j
  show k2_pay1 (iblk2 V c 0 t) (iblk2 V c 1 t) (iblk2 V c 2 t) j
    = centered (V c (Pipeline.arrRef spec2 0)) (V c (Pipeline.arrRef spec2 1)) (V c (Pipeline.arrRef spec2 2))
        (((cfg2.win 3).blk t).view.emb j)
  refine pay1_blk _ _ _ _ _ _ j _ ?_ ?_ ?_ ?_
  · show win2_3.index t (1 : Fin 2) * 128 + 1 * (j 1).val = (j 1).val
    rw [e31]; omega
  · show V c (Pipeline.arrRef spec2 0) (((cfg2.win 0).blk t).view.emb j)
      = V c (Pipeline.arrRef spec2 0) (((cfg2.win 3).blk t).view.emb j)
    refine congrArg _ (funext fun a => Fin.ext ?_)
    match a with
    | ⟨0, _⟩ => show win2_0.index t (0 : Fin 2) * 4000 + 1 * (j 0).val = win2_3.index t (0 : Fin 2) * 4000 + 1 * (j 0).val; rw [e00, e30]
    | ⟨1, _⟩ => show win2_0.index t (1 : Fin 2) * 128 + 1 * (j 1).val = win2_3.index t (1 : Fin 2) * 128 + 1 * (j 1).val; rw [e01, e31]
  · show V c (Pipeline.arrRef spec2 1) (((cfg2.win 1).blk t).view.emb j)
      = V c (Pipeline.arrRef spec2 1) (((cfg2.win 3).blk t).view.emb j)
    refine congrArg _ (funext fun a => Fin.ext ?_)
    match a with
    | ⟨0, _⟩ => show win2_1.index t (0 : Fin 2) * 4000 + 1 * (j 0).val = win2_3.index t (0 : Fin 2) * 4000 + 1 * (j 0).val; rw [e10, e30]
    | ⟨1, _⟩ => show win2_1.index t (1 : Fin 2) * 128 + 1 * (j 1).val = win2_3.index t (1 : Fin 2) * 128 + 1 * (j 1).val; rw [e11, e31]
  · intro q
    show V c (Pipeline.arrRef spec2 2) (((cfg2.win 2).blk t).view.emb (ix1 q)) = V c (Pipeline.arrRef spec2 2) (ix1 q)
    refine congrArg _ (funext fun a => Fin.ext ?_)
    match a with
    | ⟨0, _⟩ => show win2_2.index t (0 : Fin 1) * 128 + 1 * q.val = q.val; rw [e20]; omega

/-- What grid point t writes back to the second result array is block t of the squared array. -/
theorem flushed4_eq (c : Dev nD) (t : Fin cfg2.N) :
    (dat2 V c).flushed 4 t = ((cfg2.win 4).blk t).view.read (Elt Ideal)
      (centeredSq (V c (Pipeline.arrRef spec2 0)) (V c (Pipeline.arrRef spec2 1)) (V c (Pipeline.arrRef spec2 2))) := by
  show (cfg2.win 4).cut (grid2.coords t) ((dat2 V c).after 4 t) = _
  rw [after2_4]
  unfold out2_4
  rw [View.canon_unit_zero hz2]
  simp only [View.ld_unit_zero (S := S4000x128) hz2, View.ld_unit_zero (S := S128) hz1]
  obtain ⟨e00, e01, e10, e11, e20, -, -, e40, e41⟩ := idx_facts t
  funext j
  show k2_pay2 (iblk2 V c 0 t) (iblk2 V c 1 t) (iblk2 V c 2 t) j
    = centeredSq (V c (Pipeline.arrRef spec2 0)) (V c (Pipeline.arrRef spec2 1)) (V c (Pipeline.arrRef spec2 2))
        (((cfg2.win 4).blk t).view.emb j)
  refine pay2_blk _ _ _ _ _ _ j _ ?_ ?_ ?_ ?_
  · show win2_4.index t (1 : Fin 2) * 128 + 1 * (j 1).val = (j 1).val
    rw [e41]; omega
  · show V c (Pipeline.arrRef spec2 0) (((cfg2.win 0).blk t).view.emb j)
      = V c (Pipeline.arrRef spec2 0) (((cfg2.win 4).blk t).view.emb j)
    refine congrArg _ (funext fun a => Fin.ext ?_)
    match a with
    | ⟨0, _⟩ => show win2_0.index t (0 : Fin 2) * 4000 + 1 * (j 0).val = win2_4.index t (0 : Fin 2) * 4000 + 1 * (j 0).val; rw [e00, e40]
    | ⟨1, _⟩ => show win2_0.index t (1 : Fin 2) * 128 + 1 * (j 1).val = win2_4.index t (1 : Fin 2) * 128 + 1 * (j 1).val; rw [e01, e41]
  · show V c (Pipeline.arrRef spec2 1) (((cfg2.win 1).blk t).view.emb j)
      = V c (Pipeline.arrRef spec2 1) (((cfg2.win 4).blk t).view.emb j)
    refine congrArg _ (funext fun a => Fin.ext ?_)
    match a with
    | ⟨0, _⟩ => show win2_1.index t (0 : Fin 2) * 4000 + 1 * (j 0).val = win2_4.index t (0 : Fin 2) * 4000 + 1 * (j 0).val; rw [e10, e40]
    | ⟨1, _⟩ => show win2_1.index t (1 : Fin 2) * 128 + 1 * (j 1).val = win2_4.index t (1 : Fin 2) * 128 + 1 * (j 1).val; rw [e11, e41]
  · intro q
    show V c (Pipeline.arrRef spec2 2) (((cfg2.win 2).blk t).view.emb (ix1 q)) = V c (Pipeline.arrRef spec2 2) (ix1 q)
    refine congrArg _ (funext fun a => Fin.ext ?_)
    match a with
    | ⟨0, _⟩ => show win2_2.index t (0 : Fin 1) * 128 + 1 * q.val = q.val; rw [e20]; omega

/-! ## From blocks to the arrays -/

/-- An entry of a result array is in point t's block iff each coordinate is in the block's range on its axis. -/
theorem mem_blk3 (t : Fin cfg2.N) (i : S100000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v22_0).slice (win2_3.rect t)).set ↔ _
  rw [View.set_slice_whole, Rect.mem_set_unit]
  exact Iff.rfl

theorem mem_blk4 (t : Fin cfg2.N) (i : S100000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v22_1).slice (win2_4.rect t)).set ↔ _
  rw [View.set_slice_whole, Rect.mem_set_unit]
  exact Iff.rfl

/-- Every entry of the first result array is in the block of the point its row falls in: row r is in block
    r / 4000, and 25 blocks of 4000 rows are the 100000 rows. -/
theorem cover3 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, e30, e31, -, -⟩ := idx_facts t
  refine ⟨t, flush2_3 t, ?_⟩
  rw [mem_blk3]
  intro a
  match a with
  | ⟨0, _⟩ =>
    show win2_3.index t (0 : Fin 2) * 4000 ≤ (i 0).val ∧ (i 0).val < win2_3.index t (0 : Fin 2) * 4000 + 4000
    rw [e30]; omega
  | ⟨1, _⟩ =>
    show win2_3.index t (1 : Fin 2) * 128 ≤ (i 1).val ∧ (i 1).val < win2_3.index t (1 : Fin 2) * 128 + 128
    rw [e31]; omega

theorem cover4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, -, e40, e41⟩ := idx_facts t
  refine ⟨t, flush2_4 t, ?_⟩
  rw [mem_blk4]
  intro a
  match a with
  | ⟨0, _⟩ =>
    show win2_4.index t (0 : Fin 2) * 4000 ≤ (i 0).val ∧ (i 0).val < win2_4.index t (0 : Fin 2) * 4000 + 4000
    rw [e40]; omega
  | ⟨1, _⟩ =>
    show win2_4.index t (1 : Fin 2) * 128 ≤ (i 1).val ∧ (i 1).val < win2_4.index t (1 : Fin 2) * 128 + 128
    rw [e41]; omega

/-- THE FIRST RESULT ARRAY after the region: the centred array of the three arrays the region reads. -/
theorem array3 (c : Dev nD) :
    (dat2 (F := Ideal) V c).arrAt 3 cfg2.N
      = centered (V c (Pipeline.arrRef spec2 0)) (V c (Pipeline.arrRef spec2 1)) (V c (Pipeline.arrRef spec2 2)) :=
  (dat2 V c).arrAt_eq_of_cover 3 _ (fun t _ => flushed3_eq V c t) cover3

/-- THE SECOND RESULT ARRAY after the region: the square of the centred array. -/
theorem array4 (c : Dev nD) :
    (dat2 (F := Ideal) V c).arrAt 4 cfg2.N
      = centeredSq (V c (Pipeline.arrRef spec2 0)) (V c (Pipeline.arrRef spec2 1)) (V c (Pipeline.arrRef spec2 2)) :=
  (dat2 V c).arrAt_eq_of_cover 4 _ (fun t _ => flushed4_eq V c t) cover4

end Cert.KernelIdeal.Center

end
-- ==== Proof.SpecFinalAffine.lean ====
/- The last step of the block as a whole-array function over the extended reals: the centred array
   normalised by its graph's variance, the feature-wise affine map, the per-graph modulation, the
   sigmoid-weighted unit and the residual sum. -/
import Idealize.ShloMosaic.PureOps.Ideal
import Idealize.ShloMosaic.Lib.ValueIdx

noncomputable section

namespace Cert.Spec.FinalAffine

open Idealize.ShloMosaic Idealize.ShloMosaic.ValueIdx

/-- Entry (r, k) of the modulated array:
    gamma_b[r, k] * (gw[k] * (out[r, k] * rsqrt (var_b[r, k] + eps)) + gb[k]) + beta_b[r, k],
    eps the single-precision word 0x3727C5AC. It depends on row r of the four node arrays and on entry k
    of the two feature vectors. -/
def modulated (o v : (⟨2, ![100000, 128]⟩ : Shape).Idx → EReal) (gw gb : (⟨1, ![128]⟩ : Shape).Idx → EReal)
    (ga be : (⟨2, ![100000, 128]⟩ : Shape).Idx → EReal) : (⟨2, ![100000, 128]⟩ : Shape).Idx → EReal :=
  fun i => ga i * (gw (ix1 (i 1)) * (o i * Ideal.rsqrt (v i + Ideal.ofBits .f32 0x3727C5AC#32)) + gb (ix1 (i 1))) + be i

/-- Entry (r, k) of the result: x[r, k] + m * logistic m, m the modulated entry (r, k). -/
def result (x o v : (⟨2, ![100000, 128]⟩ : Shape).Idx → EReal) (gw gb : (⟨1, ![128]⟩ : Shape).Idx → EReal)
    (ga be : (⟨2, ![100000, 128]⟩ : Shape).Idx → EReal) : (⟨2, ![100000, 128]⟩ : Shape).Idx → EReal :=
  fun i => x i + modulated o v gw gb ga be i * Ideal.logistic (modulated o v gw gb ga be i)

end Cert.Spec.FinalAffine

end
-- ==== Proof.FinalAffine.lean ====
/- The last region's result array, read off the region's frame data: whatever the device's buffers
   hold when the region is entered, after its 25 grid points the result array is the block's last step
   applied to the seven arrays the region reads. -/
import proofs.«160231_j53077205844804_1_alg».proof.Proof.Gen.KernelIdeal.Frame
import proofs.«160231_j53077205844804_1_alg».proof.Proof.SpecFinalAffine
import Idealize.ShloMosaic.Lib.Pipeline.Value
import Idealize.ShloMosaic.Lib.ValueLayout

noncomputable section

namespace Cert.KernelIdeal.FinalAffine

open Cert.KernelIdeal Cert.KernelIdeal.Gen Idealize.ShloMosaic Idealize.ShloMosaic.TcCoe Idealize.SL.Sem
open Idealize.ShloMosaic.ValueIdx
open Idealize.ShloMosaic.Pipeline (Dat)
open Cert.Spec.FinalAffine

variable (V : (c : Dev nD) → (b : Ref sig .tc) → Buf (Elt Ideal) ((c : Thread nD τ).loc b))

/-! ## The body's arithmetic at one entry of a block -/

/-- The reciprocal square root of a block, at an entry, is the extended reals' of the entry. -/
theorem rsqrt_apply {s : Shape} (a : FVec Ideal s .f32) (i : s.Idx) : rsqrt a i = Ideal.rsqrt (a i) := rfl
/-- The logistic function of a block, at an entry, is the extended reals' of the entry. -/
theorem logistic_apply {s : Shape} (a : FVec Ideal s .f32) (i : s.Idx) : logistic a i = Ideal.logistic (a i) := rfl

/-- Entry (p, q) of the payload, the operations in the body's order: the centred entry times the reciprocal
    square root of the variance entry plus eps; times entry q of the weight, plus entry q of the bias (each a
    row laid over the block's 4000 rows); times the scale entry, plus the shift entry; that value times its
    logistic; added to the residual entry. -/
theorem pay_apply (o v : Vec Ideal S4000x128 .f32) (gw gb : Vec Ideal S128 .f32) (ga be x : Vec Ideal S4000x128 .f32)
    (p : Fin 4000) (q : Fin 128) :
    k3_pay1 o v gw gb ga be x (ix2 p q)
      = x (ix2 p q)
        + (ga (ix2 p q) * (gw (ix1 q) * (o (ix2 p q) * Ideal.rsqrt (v (ix2 p q) + Ideal.ofBits .f32 0x3727C5AC#32)) + gb (ix1 q)) + be (ix2 p q))
          * Ideal.logistic (ga (ix2 p q) * (gw (ix1 q) * (o (ix2 p q) * Ideal.rsqrt (v (ix2 p q) + Ideal.ofBits .f32 0x3727C5AC#32)) + gb (ix1 q)) + be (ix2 p q)) := by
  unfold k3_pay1
  simp only [addf_apply, mulf_apply, rsqrt_apply, logistic_apply, broadcast_apply, shapeCast_self,
    broadcastTo_1b_ab_apply, shapeCast_a_1a_apply, Ideal.ofBits_def]

/-- The payload at block entry y is the result at array entry i, when the five node blocks' entries y are the
    five node arrays' entries i, the two feature blocks are the two feature vectors, and i and y have the same
    column. The payload takes the residual block last; the result takes the residual array first. -/
theorem pay_blk (x0 x1 x2 : Vec Ideal S4000x128 .f32) (x3 x4 : Vec Ideal S128 .f32) (x5 x6 : Vec Ideal S4000x128 .f32)
    (A0 A1 A2 : S100000x128.Idx → EReal) (A3 A4 : S128.Idx → EReal) (A5 A6 : S100000x128.Idx → EReal)
    (y : S4000x128.Idx) (i : S100000x128.Idx) (hi : (i 1).val = (y 1).val)
    (h0 : x0 y = A0 i) (h1 : x1 y = A1 i) (h2 : x2 y = A2 i)
    (h3 : ∀ q : Fin 128, x3 (ix1 q) = A3 (ix1 q)) (h4 : ∀ q : Fin 128, x4 (ix1 q) = A4 (ix1 q))
    (h5 : x5 y = A5 i) (h6 : x6 y = A6 i) :
    k3_pay1 x1 x2 x3 x4 x5 x6 x0 y = result A0 A1 A2 A3 A4 A5 A6 i := by
  obtain ⟨p, q, rfl⟩ : ∃ (p : Fin 4000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi
  rw [pay_apply, h0, h1, h2, h3, h4, h5, h6]
  rfl

/-! ## The blocks of the eight windows -/

theorem hz2 : (![0, 0] : Fin 2 → Nat) = fun _ => 0 := funext fun a => by fin_cases a <;> rfl
theorem hz1 : (![0] : Fin 1 → Nat) = fun _ => 0 := funext fun a => by fin_cases a <;> rfl

/-- The block indices, decided over the 25 grid points: the six node windows are at row block t and column
    block 0, the two feature windows at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- Node window 0's block at point t sits in its array where the result window's block sits in the result array:
    block entry j is array entry (4000 t + j 0, j 1) in both. -/
theorem blk0 (c : Dev nD) (t : Fin cfg3.N) (j : S4000x128.Idx) :
    iblk3 V c 0 t j = V c (Pipeline.arrRef spec3 0) (((cfg3.win 7).blk t).view.emb j) := by
  obtain ⟨ea, eb, -, -, -, -, -, -, -, -, -, -, e70, e71⟩ := idx_facts t
  show V c (Pipeline.arrRef spec3 0) (((cfg3.win 0).blk t).view.emb j)
    = V c (Pipeline.arrRef spec3 0) (((cfg3.win 7).blk t).view.emb j)
  refine congrArg _ (funext fun a => Fin.ext ?_)
  match a with
  | ⟨0, _⟩ => show win3_0.index t (0 : Fin 2) * 4000 + 1 * (j 0).val = win3_7.index t (0 : Fin 2) * 4000 + 1 * (j 0).val; rw [ea, e70]
  | ⟨1, _⟩ => show win3_0.index t (1 : Fin 2) * 128 + 1 * (j 1).val = win3_7.index t (1 : Fin 2) * 128 + 1 * (j 1).val; rw [eb, e71]

/-- Node window 1's block at point t sits in its array where the result window's block sits in the result array:
    block entry j is array entry (4000 t + j 0, j 1) in both. -/
theorem blk1 (c : Dev nD) (t : Fin cfg3.N) (j : S4000x128.Idx) :
    iblk3 V c 1 t j = V c (Pipeline.arrRef spec3 1) (((cfg3.win 7).blk t).view.emb j) := by
  obtain ⟨-, -, ea, eb, -, -, -, -, -, -, -, -, e70, e71⟩ := idx_facts t
  show V c (Pipeline.arrRef spec3 1) (((cfg3.win 1).blk t).view.emb j)
    = V c (Pipeline.arrRef spec3 1) (((cfg3.win 7).blk t).view.emb j)
  refine congrArg _ (funext fun a => Fin.ext ?_)
  match a with
  | ⟨0, _⟩ => show win3_1.index t (0 : Fin 2) * 4000 + 1 * (j 0).val = win3_7.index t (0 : Fin 2) * 4000 + 1 * (j 0).val; rw [ea, e70]
  | ⟨1, _⟩ => show win3_1.index t (1 : Fin 2) * 128 + 1 * (j 1).val = win3_7.index t (1 : Fin 2) * 128 + 1 * (j 1).val; rw [eb, e71]

/-- Node window 2's block at point t sits in its array where the result window's block sits in the result array:
    block entry j is array entry (4000 t + j 0, j 1) in both. -/
theorem blk2 (c : Dev nD) (t : Fin cfg3.N) (j : S4000x128.Idx) :
    iblk3 V c 2 t j = V c (Pipeline.arrRef spec3 2) (((cfg3.win 7).blk t).view.emb j) := by
  obtain ⟨-, -, -, -, ea, eb, -, -, -, -, -, -, e70, e71⟩ := idx_facts t
  show V c (Pipeline.arrRef spec3 2) (((cfg3.win 2).blk t).view.emb j)
    = V c (Pipeline.arrRef spec3 2) (((cfg3.win 7).blk t).view.emb j)
  refine congrArg _ (funext fun a => Fin.ext ?_)
  match a with
  | ⟨0, _⟩ => show win3_2.index t (0 : Fin 2) * 4000 + 1 * (j 0).val = win3_7.index t (0 : Fin 2) * 4000 + 1 * (j 0).val; rw [ea, e70]
  | ⟨1, _⟩ => show win3_2.index t (1 : Fin 2) * 128 + 1 * (j 1).val = win3_7.index t (1 : Fin 2) * 128 + 1 * (j 1).val; rw [eb, e71]

/-- Feature window 3's block at every point is its whole vector. -/
theorem blk3 (c : Dev nD) (t : Fin cfg3.N) (q : Fin 128) :
    iblk3 V c 3 t (ix1 q) = V c (Pipeline.arrRef spec3 3) (ix1 q) := by
  obtain ⟨-, -, -, -, -, -, e, -, -, -, -, -, -, -⟩ := idx_facts t
  show V c (Pipeline.arrRef spec3 3) (((cfg3.win 3).blk t).view.emb (ix1 q)) = V c (Pipeline.arrRef spec3 3) (ix1 q)
  refine congrArg _ (funext fun a => Fin.ext ?_)
  match a with
  | ⟨0, _⟩ => show win3_3.index t (0 : Fin 1) * 128 + 1 * q.val = q.val; rw [e]; omega

/-- Feature window 4's block at every point is its whole vector. -/
theorem blk4 (c : Dev nD) (t : Fin cfg3.N) (q : Fin 128) :
    iblk3 V c 4 t (ix1 q) = V c (Pipeline.arrRef spec3 4) (ix1 q) := by
  obtain ⟨-, -, -, -, -, -, -, e, -, -, -, -, -, -⟩ := idx_facts t
  show V c (Pipeline.arrRef spec3 4) (((cfg3.win 4).blk t).view.emb (ix1 q)) = V c (Pipeline.arrRef spec3 4) (ix1 q)
  refine congrArg _ (funext fun a => Fin.ext ?_)
  match a with
  | ⟨0, _⟩ => show win3_4.index t (0 : Fin 1) * 128 + 1 * q.val = q.val; rw [e]; omega

/-- Node window 5's block at point t sits in its array where the result window's block sits in the result array:
    block entry j is array entry (4000 t + j 0, j 1) in both. -/
theorem blk5 (c : Dev nD) (t : Fin cfg3.N) (j : S4000x128.Idx) :
    iblk3 V c 5 t j = V c (Pipeline.arrRef spec3 5) (((cfg3.win 7).blk t).view.emb j) := by
  obtain ⟨-, -, -, -, -, -, -, -, ea, eb, -, -, e70, e71⟩ := idx_facts t
  show V c (Pipeline.arrRef spec3 5) (((cfg3.win 5).blk t).view.emb j)
    = V c (Pipeline.arrRef spec3 5) (((cfg3.win 7).blk t).view.emb j)
  refine congrArg _ (funext fun a => Fin.ext ?_)
  match a with
  | ⟨0, _⟩ => show win3_5.index t (0 : Fin 2) * 4000 + 1 * (j 0).val = win3_7.index t (0 : Fin 2) * 4000 + 1 * (j 0).val; rw [ea, e70]
  | ⟨1, _⟩ => show win3_5.index t (1 : Fin 2) * 128 + 1 * (j 1).val = win3_7.index t (1 : Fin 2) * 128 + 1 * (j 1).val; rw [eb, e71]

/-- Node window 6's block at point t sits in its array where the result window's block sits in the result array:
    block entry j is array entry (4000 t + j 0, j 1) in both. -/
theorem blk6 (c : Dev nD) (t : Fin cfg3.N) (j : S4000x128.Idx) :
    iblk3 V c 6 t j = V c (Pipeline.arrRef spec3 6) (((cfg3.win 7).blk t).view.emb j) := by
  obtain ⟨-, -, -, -, -, -, -, -, -, -, ea, eb, e70, e71⟩ := idx_facts t
  show V c (Pipeline.arrRef spec3 6) (((cfg3.win 6).blk t).view.emb j)
    = V c (Pipeline.arrRef spec3 6) (((cfg3.win 7).blk t).view.emb j)
  refine congrArg _ (funext fun a => Fin.ext ?_)
  match a with
  | ⟨0, _⟩ => show win3_6.index t (0 : Fin 2) * 4000 + 1 * (j 0).val = win3_7.index t (0 : Fin 2) * 4000 + 1 * (j 0).val; rw [ea, e70]
  | ⟨1, _⟩ => show win3_6.index t (1 : Fin 2) * 128 + 1 * (j 1).val = win3_7.index t (1 : Fin 2) * 128 + 1 * (j 1).val; rw [eb, e71]

/-- An entry of the result window's block has, in the array, the column it has in the block. -/
theorem col7 (t : Fin cfg3.N) (j : S4000x128.Idx) :
    (((((cfg3.win 7).blk t).view.emb j : S100000x128.Idx)) 1).val = (j 1).val := by
  obtain ⟨-, -, -, -, -, -, -, -, -, -, -, -, -, e71⟩ := idx_facts t
  show win3_7.index t (1 : Fin 2) * 128 + 1 * (j 1).val = (j 1).val
  rw [e71]; omega

/-- What grid point t writes back to the result array is block t of the result of the seven arrays the region
    reads. -/
theorem flushed7_eq (c : Dev nD) (t : Fin cfg3.N) :
    (dat3 V c).flushed 7 t = ((cfg3.win 7).blk t).view.read (Elt Ideal)
      (result (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  unfold out3_7
  rw [View.canon_unit_zero hz2]
  simp only [View.ld_unit_zero (S := S4000x128) hz2, View.ld_unit_zero (S := S128) hz1]
  funext j
  show k3_pay1 (iblk3 V c 1 t) (iblk3 V c 2 t) (iblk3 V c 3 t) (iblk3 V c 4 t) (iblk3 V c 5 t) (iblk3 V c 6 t) (iblk3 V c 0 t) j
    = result (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))
        (((cfg3.win 7).blk t).view.emb j)
  exact pay_blk _ _ _ _ _ _ _ _ _ _ _ _ _ _ j _ (col7 t j) (blk0 V c t j) (blk1 V c t j) (blk2 V c t j)
    (blk3 V c t) (blk4 V c t) (blk5 V c t j) (blk6 V c t j)

/-! ## From blocks to the array -/

/-- An entry of the result array is in point t's block iff each coordinate is in the block's range on its axis. -/
theorem mem_blk7 (t : Fin cfg3.N) (i : S100000x128.Idx) :
    i ∈ ((cfg3.win 7).blk t).view.set ↔ ∀ a : Fin 2, win3_7.index t a * S4000x128.size a ≤ (i a).val
      ∧ (i a).val < win3_7.index t a * S4000x128.size a + S4000x128.size a := by
  show i ∈ ((View.whole main_v41).slice (win3_7.rect t)).set ↔ _
  rw [View.set_slice_whole, Rect.mem_set_unit]
  exact Iff.rfl

/-- Every entry of the result array is in the block of the point its row falls in: row r is in block r / 4000,
    and 25 blocks of 4000 rows are the 100000 rows. -/
theorem cover7 (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, -, -, -, -, -, -, -, -, e70, e71⟩ := idx_facts t
  refine ⟨t, flush3_7 t, ?_⟩
  rw [mem_blk7]
  intro a
  match a with
  | ⟨0, _⟩ =>
    show win3_7.index t (0 : Fin 2) * 4000 ≤ (i 0).val ∧ (i 0).val < win3_7.index t (0 : Fin 2) * 4000 + 4000
    rw [e70]; omega
  | ⟨1, _⟩ =>
    show win3_7.index t (1 : Fin 2) * 128 ≤ (i 1).val ∧ (i 1).val < win3_7.index t (1 : Fin 2) * 128 + 128
    rw [e71]; omega

/-- THE RESULT ARRAY after the region: the last step applied to the seven arrays the region reads, in window
    order (residual, centred, variance, weight, bias, scale, shift). -/
theorem array7 (c : Dev nD) :
    (dat3 (F := Ideal) V c).arrAt 7 cfg3.N
      = result (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 V c).arrAt_eq_of_cover 7 _ (fun t _ => flushed7_eq V c t) cover7

end Cert.KernelIdeal.FinalAffine

end
-- ==== Proof.LibMask.lean ====
/-
  One-bit masks that are everywhere 1.  A reduction by `and` from the constant 1 over an array of ones is 1 at every
  result index (the converse of reading `jnp.all` back), a select under a mask that is everywhere 1 is its first branch,
  and a signed 32-bit row number that already lies in `[0, n)` passes jnp's fill-mode bounds test unchanged: its
  negative-index wrap `select (w < 0) (w + n) w` is `w` itself, which is `≥ 0` and `≤ n - 1`.
-/
import Idealize.ShloMosaic.Lib.ReduceAll
import Idealize.ShloMosaic.Lib.ValueIdx

namespace Cert.Lib.Mask

open Idealize.ShloMosaic

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- A `stablehlo.reduce` by `and`, from an initial value that is 1, of an array of ones is 1 at every result index. -/
theorem reduce_andi_one {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_one x _ _ (hi _) (fun n _ => hx n)

/-- A select whose mask is 1 at every index is its first branch. -/
theorem select_of_all_one {s : Shape} {α : Type} (c : IVec s 1) (a b : s.Idx → α) (hc : ∀ i, c i = 1#1) : select c a b = a :=
  funext fun i => by rw [ValueIdx.select_apply, hc i]; exact ValueIdx.select_one _ _

/-- A row number `w` with `0 ≤ w < n` (signed, `n` below 2³¹) is its own negative-index wrap, and the wrap passes the
    bounds test `0 ≤ · ≤ n - 1`. -/
theorem wrap_in_range (w : BitVec 32) (n : Nat) (hn : n < 2 ^ 31) (h0 : 0 ≤ w.toInt) (h1 : w.toInt < n) :
    IntOp.andi
      (IntOp.cmpi .sge (Scalar.select (IntOp.cmpi .slt w 0#32) (IntOp.addi w (BitVec.ofNat 32 n)) w) 0#32)
      (IntOp.cmpi .sle (Scalar.select (IntOp.cmpi .slt w 0#32) (IntOp.addi w (BitVec.ofNat 32 n)) w) (BitVec.ofNat 32 (n - 1))) = 1#1 := by
  have hlt : IntOp.cmpi .slt w 0#32 = 0#1 :=
    ValueIdx.eq_zero_of_ne_one fun h => by
      have := IntOp.cmpi_slt.1 h
      simp only [BitVec.toInt_zero] at this
      omega
  rw [hlt, ValueIdx.select_zero, IntOp.andi_eq_one]
  refine ⟨IntOp.cmpi_sge.2 (by simp only [BitVec.toInt_zero]; exact h0), IntOp.cmpi_sle.2 ?_⟩
  have hlit : (BitVec.ofNat 32 (n - 1)).toInt = ((n - 1 : Nat) : Int) := by
    rw [BitVec.toInt_eq_toNat_of_lt (by simp only [BitVec.toNat_ofNat]; omega)]
    simp only [BitVec.toNat_ofNat]
    congr 1
    exact Nat.mod_eq_of_lt (by omega)
  rw [hlit]
  omega

end Cert.Lib.Mask
-- ==== Proof.TakeInRange.lean ====
/- A row lookup whose row numbers are all in range is a plain gather. The lookup wraps a negative row number once by the
   table's height, tests the wrapped number against [0, height - 1], gathers the row and keeps it where the test holds.
   When every row number already lies in [0, height) the wrap leaves it alone and the test holds at every entry, so the
   mask is 1 everywhere and the select under it is its first branch, the gathered rows. Once for the edges' source
   numbers into the 100000 node rows, once for the nodes' graph numbers into the 512 per-graph rows. -/
import proofs.«160231_j53077205844804_1_alg».proof.Proof.HostStages
import proofs.«160231_j53077205844804_1_alg».proof.Proof.LibMask

noncomputable section

namespace Cert.KernelIdeal.TakeInRange

open Idealize.ShloMosaic Cert.KernelIdeal Cert.KernelIdeal.Gen Cert.KernelIdeal.HostStages

/-- Every entry of a broadcast is an entry of its operand, so a broadcast of an array of ones is an array of ones. -/
theorem broadcastInDim_all_one {s t : Shape} (dims : Fin s.rank → Fin t.rank) (h : s.BroadcastsInDim t dims) (x : IVec s 1)
    (hx : ∀ k, x k = 1#1) (j : t.Idx) : broadcastInDim t dims h x j = 1#1 := hx _

/-! ## The edges' source numbers into the node rows -/

/-- The bounds test of one edge: its wrapped source number is some edge's source number wrapped, which, lying in
    [0, 100000), is itself, at least 0 and at most 99999. -/
theorem word_src (src : IVec S1600000 32) (h : ∀ e : S1600000.Idx, 0 ≤ (src e).toInt ∧ (src e).toInt < 100000)
    (j : S1600000x1.Idx) :
    (andi (cmpi .sge (wrapSrc src) (broadcastInDim S1600000x1 ![] bcast_S_S1600000x1 (constantI S_ 32 0#32)))
        (cmpi .sle (wrapSrc src) (broadcastInDim S1600000x1 ![0, 1] bcast_S1x1_S1600000x1_0_1
          (broadcastInDim S1x1 ![1] bcast_S1_S1x1_1 (constantI S1 32 99999#32))))) j = 1#1 := by
  obtain ⟨k, hk⟩ : ∃ k : S1600000.Idx, wrapSrc src j
      = Scalar.select (IntOp.cmpi .slt (src k) 0#32) (IntOp.addi (src k) 100000#32) (src k) := ⟨_, rfl⟩
  show IntOp.andi (IntOp.cmpi .sge (wrapSrc src j) 0#32) (IntOp.cmpi .sle (wrapSrc src j) 99999#32) = 1#1
  rw [hk]
  exact Cert.Lib.Mask.wrap_in_range (src k) 100000 (by norm_num) (h k).1 (h k).2

/-- So the mask is 1 at every edge and feature: an "all" over ones from the initial 1, then broadcast. -/
theorem maskSrc_one (src : IVec S1600000 32) (h : ∀ e : S1600000.Idx, 0 ≤ (src e).toInt ∧ (src e).toInt < 100000)
    (i : S1600000x128.Idx) : maskSrc src i = 1#1 :=
  broadcastInDim_all_one _ _ _
    (fun k => Cert.Lib.Mask.reduce_andi_one _ _ _ _ (fun _ => rfl) (fun j => word_src src h j) k) i

variable {F : FTy → Type} [FloatOps F]

/-- THE LOOKUP of node rows by in-range source numbers is the gather of the rows at the wrapped numbers. -/
theorem takeSrc_eq (x : FVec F S100000x128 .f32) (src : IVec S1600000 32)
    (h : ∀ e : S1600000.Idx, 0 ≤ (src e).toInt ∧ (src e).toInt < 100000) :
    takeSrc x src = Host.gather gather_S100000x128_S1600000x1_S1600000x128_1_0_n_n_0_1_1128 x (wrapSrc src) :=
  Cert.Lib.Mask.select_of_all_one _ _ _ (maskSrc_one src h)

/-! ## The nodes' graph numbers into the per-graph rows -/

/-- The bounds test of one node: its wrapped graph number is some node's graph number wrapped, which, lying in [0, 512),
    is itself, at least 0 and at most 511. -/
theorem word_b (b : IVec S100000 32) (h : ∀ n : S100000.Idx, 0 ≤ (b n).toInt ∧ (b n).toInt < 512)
    (j : S100000x1.Idx) :
    (andi (cmpi .sge (wrapB b) (broadcastInDim S100000x1 ![] bcast_S_S100000x1 (constantI S_ 32 0#32)))
        (cmpi .sle (wrapB b) (broadcastInDim S100000x1 ![0, 1] bcast_S1x1_S100000x1_0_1
          (broadcastInDim S1x1 ![1] bcast_S1_S1x1_1 (constantI S1 32 511#32))))) j = 1#1 := by
  obtain ⟨k, hk⟩ : ∃ k : S100000.Idx, wrapB b j
      = Scalar.select (IntOp.cmpi .slt (b k) 0#32) (IntOp.addi (b k) 512#32) (b k) := ⟨_, rfl⟩
  show IntOp.andi (IntOp.cmpi .sge (wrapB b j) 0#32) (IntOp.cmpi .sle (wrapB b j) 511#32) = 1#1
  rw [hk]
  exact Cert.Lib.Mask.wrap_in_range (b k) 512 (by norm_num) (h k).1 (h k).2

/-- So the mask is 1 at every node and feature. -/
theorem maskB_one (b : IVec S100000 32) (h : ∀ n : S100000.Idx, 0 ≤ (b n).toInt ∧ (b n).toInt < 512)
    (i : S100000x128.Idx) : maskB b i = 1#1 :=
  broadcastInDim_all_one _ _ _
    (fun k => Cert.Lib.Mask.reduce_andi_one _ _ _ _ (fun _ => rfl) (fun j => word_b b h j) k) i

/-- THE LOOKUP of per-graph rows by in-range graph numbers is the gather of the rows at the wrapped numbers. -/
theorem takeB_eq (t : FVec F S512x128 .f32) (b : IVec S100000 32)
    (h : ∀ n : S100000.Idx, 0 ≤ (b n).toInt ∧ (b n).toInt < 512) :
    takeB t b = Host.gather gather_S512x128_S100000x1_S100000x128_1_0_n_n_0_1_1128 t (wrapB b) :=
  Cert.Lib.Mask.select_of_all_one _ _ _ (maskB_one b h)

end Cert.KernelIdeal.TakeInRange

end
-- ==== Proof.Composed.lean ====
/-
  The whole block as ONE function of the eighteen argument arrays, twice.  `kRes` is what the kernel computes: every row
  lookup is the bounds-tested `take` (HostStages).  `rRes` is the same composition with every lookup a plain clamped
  gather, which is what the reference computes.  Stage by stage: the edge messages (`…Msg`), the node update after the
  two-layer perceptron (`…H`), the per-graph mean looked up per node (`…MeanB`), the centred rows and their squares
  (`…Out`, `…OutSq`), the per-graph variance looked up per node (`…VarB`), and the result.  The two differ only in the
  lookups, so they agree as soon as every row number is in range (`kRes_eq_rRes`).
-/
import proofs.«160231_j53077205844804_1_alg».proof.Proof.HostStages
import proofs.«160231_j53077205844804_1_alg».proof.Proof.TakeInRange
import proofs.«160231_j53077205844804_1_alg».proof.Proof.SpecEdgeMessage
import proofs.«160231_j53077205844804_1_alg».proof.Proof.SpecGineMlp
import proofs.«160231_j53077205844804_1_alg».proof.Proof.SpecCenter
import proofs.«160231_j53077205844804_1_alg».proof.Proof.SpecFinalAffine
import Idealize.ShloMosaic.PureOps.Ideal

noncomputable section

namespace Cert.KernelIdeal.Composed

open Idealize.ShloMosaic Cert.KernelIdeal Cert.KernelIdeal.Gen Cert.KernelIdeal.HostStages Cert.Spec

variable (x : FVec Ideal S100000x128 .f32) (ei : IVec S2x1600000 32) (ea : FVec Ideal S1600000x32 .f32)
  (b : IVec S100000 32) (te : FVec Ideal S512x256 .f32) (We : FVec Ideal S32x128 .f32) (be : FVec Ideal S128 .f32)
  (W1 : FVec Ideal S128x128 .f32) (b1 : FVec Ideal S128 .f32) (W2 : FVec Ideal S128x128 .f32) (b2 : FVec Ideal S128 .f32)
  (gw gb gs : FVec Ideal S128 .f32) (Wg : FVec Ideal S256x128 .f32) (bg : FVec Ideal S128 .f32)
  (Wb : FVec Ideal S256x128 .f32) (bb : FVec Ideal S128 .f32)

/-! ## The kernel's composition: lookups by the bounds-tested `take` -/

def kMsg : FVec Ideal S1600000x128 .f32 := edgeMessage (takeSrc x (rowOf0 ei)) ea We be
def kH : FVec Ideal S100000x128 .f32 := gineMlp x (aggOf (rowOf1 ei) (kMsg x ei ea We be)) W1 b1 W2 b2
def kMeanB : FVec Ideal S100000x128 .f32 := takeB (segMean b (kH x ei ea We be W1 b1 W2 b2)) b
def kOut : FVec Ideal S100000x128 .f32 := Center.centered (kH x ei ea We be W1 b1 W2 b2) (kMeanB x ei ea b We be W1 b1 W2 b2) gs
def kOutSq : FVec Ideal S100000x128 .f32 := Center.centeredSq (kH x ei ea We be W1 b1 W2 b2) (kMeanB x ei ea b We be W1 b1 W2 b2) gs
def kVarB : FVec Ideal S100000x128 .f32 := takeB (segDiv b (kOutSq x ei ea b We be W1 b1 W2 b2 gs) (cntOf b)) b
def kRes : FVec Ideal S100000x128 .f32 :=
  FinalAffine.result x (kOut x ei ea b We be W1 b1 W2 b2 gs) (kVarB x ei ea b We be W1 b1 W2 b2 gs) gw gb
    (takeB (film1 te Wg bg) b) (takeB (film0 te Wb bb) b)

/-! ## The reference's composition: lookups by the clamped gather -/

def rMsg : FVec Ideal S1600000x128 .f32 :=
  edgeMessage (Host.gather gather_S100000x128_S1600000x1_S1600000x128_1_0_n_n_0_1_1128 x (wrapSrc (rowOf0 ei))) ea We be
def rH : FVec Ideal S100000x128 .f32 := gineMlp x (aggOf (rowOf1 ei) (rMsg x ei ea We be)) W1 b1 W2 b2
def rMeanB : FVec Ideal S100000x128 .f32 :=
  Host.gather gather_S512x128_S100000x1_S100000x128_1_0_n_n_0_1_1128 (segMean b (rH x ei ea We be W1 b1 W2 b2)) (wrapB b)
def rOut : FVec Ideal S100000x128 .f32 := Center.centered (rH x ei ea We be W1 b1 W2 b2) (rMeanB x ei ea b We be W1 b1 W2 b2) gs
def rOutSq : FVec Ideal S100000x128 .f32 := Center.centeredSq (rH x ei ea We be W1 b1 W2 b2) (rMeanB x ei ea b We be W1 b1 W2 b2) gs
def rVarB : FVec Ideal S100000x128 .f32 :=
  Host.gather gather_S512x128_S100000x1_S100000x128_1_0_n_n_0_1_1128 (segDiv b (rOutSq x ei ea b We be W1 b1 W2 b2 gs) (cntOf b)) (wrapB b)
def rRes : FVec Ideal S100000x128 .f32 :=
  FinalAffine.result x (rOut x ei ea b We be W1 b1 W2 b2 gs) (rVarB x ei ea b We be W1 b1 W2 b2 gs) gw gb
    (Host.gather gather_S512x128_S100000x1_S100000x128_1_0_n_n_0_1_1128 (film1 te Wg bg) (wrapB b))
    (Host.gather gather_S512x128_S100000x1_S100000x128_1_0_n_n_0_1_1128 (film0 te Wb bb) (wrapB b))

/-! ## With every row number in range the two compositions are one -/

variable (hsrc : ∀ e : S1600000.Idx, 0 ≤ (rowOf0 ei e).toInt ∧ (rowOf0 ei e).toInt < 100000)
  (hb : ∀ n : S100000.Idx, 0 ≤ (b n).toInt ∧ (b n).toInt < 512)

include hsrc in
theorem kMsg_eq : kMsg x ei ea We be = rMsg x ei ea We be := by
  unfold kMsg rMsg; rw [TakeInRange.takeSrc_eq x (rowOf0 ei) hsrc]
include hsrc in
theorem kH_eq : kH x ei ea We be W1 b1 W2 b2 = rH x ei ea We be W1 b1 W2 b2 := by
  unfold kH rH; rw [kMsg_eq x ei ea We be hsrc]
include hsrc hb in
theorem kMeanB_eq : kMeanB x ei ea b We be W1 b1 W2 b2 = rMeanB x ei ea b We be W1 b1 W2 b2 := by
  unfold kMeanB rMeanB; rw [kH_eq x ei ea We be W1 b1 W2 b2 hsrc, TakeInRange.takeB_eq _ b hb]
include hsrc hb in
theorem kOut_eq : kOut x ei ea b We be W1 b1 W2 b2 gs = rOut x ei ea b We be W1 b1 W2 b2 gs := by
  unfold kOut rOut; rw [kH_eq x ei ea We be W1 b1 W2 b2 hsrc, kMeanB_eq x ei ea b We be W1 b1 W2 b2 hsrc hb]
include hsrc hb in
theorem kOutSq_eq : kOutSq x ei ea b We be W1 b1 W2 b2 gs = rOutSq x ei ea b We be W1 b1 W2 b2 gs := by
  unfold kOutSq rOutSq; rw [kH_eq x ei ea We be W1 b1 W2 b2 hsrc, kMeanB_eq x ei ea b We be W1 b1 W2 b2 hsrc hb]
include hsrc hb in
theorem kVarB_eq : kVarB x ei ea b We be W1 b1 W2 b2 gs = rVarB x ei ea b We be W1 b1 W2 b2 gs := by
  unfold kVarB rVarB; rw [kOutSq_eq x ei ea b We be W1 b1 W2 b2 gs hsrc hb, TakeInRange.takeB_eq _ b hb]
include hsrc hb in
/-- The kernel's and the reference's compositions agree when every source number and every graph number is in range. -/
theorem kRes_eq_rRes :
    kRes x ei ea b te We be W1 b1 W2 b2 gw gb gs Wg bg Wb bb = rRes x ei ea b te We be W1 b1 W2 b2 gw gb gs Wg bg Wb bb := by
  unfold kRes rRes
  rw [kOut_eq x ei ea b We be W1 b1 W2 b2 gs hsrc hb, kVarB_eq x ei ea b We be W1 b1 W2 b2 gs hsrc hb,
    TakeInRange.takeB_eq (film1 te Wg bg) b hb, TakeInRange.takeB_eq (film0 te Wb bb) b hb]

end Cert.KernelIdeal.Composed

end
-- ==== Proof.KernelValue.lean ====
/-
  The kernel's value.  The buffer contents at each of @main's fourteen segment boundaries are a fold from the launch
  memory; this module walks that fold from the launch to the return and names, at each boundary, what the buffers the
  later stages read hold, as closed functions of the eighteen argument arrays: a host stretch contributes its stage
  function (HostStretches), a region contributes the whole-array function its blocks assemble to (EdgeMessage, GineMlp,
  Center, FinalAffine), and every other buffer is carried over unchanged — no host operation and no region writes an
  argument, and an intermediate array is written once.  The last lemma says the result buffer ends at the kernel's
  composition `Composed.kRes` of the arguments as launched.
-/
import proofs.«160231_j53077205844804_1_alg».proof.Proof.Gen.KernelIdeal.Frame
import proofs.«160231_j53077205844804_1_alg».proof.Proof.HostStages
import proofs.«160231_j53077205844804_1_alg».proof.Proof.HostStretches
import proofs.«160231_j53077205844804_1_alg».proof.Proof.HostKeeps
import proofs.«160231_j53077205844804_1_alg».proof.Proof.EdgeMessage
import proofs.«160231_j53077205844804_1_alg».proof.Proof.GineMlp
import proofs.«160231_j53077205844804_1_alg».proof.Proof.Center
import proofs.«160231_j53077205844804_1_alg».proof.Proof.FinalAffine
import proofs.«160231_j53077205844804_1_alg».proof.Proof.Composed
import Idealize.ShloMosaic.Lib.StableHlo.Run
import Idealize.ShloMosaic.PureOps.Ideal

set_option maxRecDepth 16384

noncomputable section

namespace Cert.KernelIdeal.KernelValue

open Idealize.ShloMosaic Idealize.ShloMosaic.TcCoe Idealize.ShloMosaic.StableHlo Idealize.SL.Sem
open Cert.KernelIdeal Cert.KernelIdeal.Gen Cert.KernelIdeal.HostStages Cert.KernelIdeal.HostStretches Cert.KernelIdeal.HostKeeps
open Cert.Spec Cert.KernelIdeal.Composed

variable (m : (ℓ : Loc nD τ sig) → Buf (Elt Ideal) ℓ) (ρ : Dev nD → PrngReg) (c : Dev nD)

/-! ## The argument arrays as launched -/
set_option quotPrecheck false
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)
local notation "A14" => m ((c : Thread nD τ).loc main_arg14)
local notation "A15" => m ((c : Thread nD τ).loc main_arg15)
local notation "A16" => m ((c : Thread nD τ).loc main_arg16)
local notation "A17" => m ((c : Thread nD τ).loc main_arg17)

/-! ## The argument buffers at every boundary: no host operation and no region writes one -/

theorem B1_0 : W1 m ρ c (Proc.devRef .tc main_arg0) = A0 := hostOps0_keep_main_arg0 (W0 m ρ c)
theorem B2_0 : W2 m ρ c (Proc.devRef .tc main_arg0) = A0 := (hostOps0_1_keep_main_arg0 (W1 m ρ c)).trans (B1_0 m ρ c)
theorem B3_0 : W3 m ρ c (Proc.devRef .tc main_arg0) = A0 := (W3_of_ne m ρ c main_arg0 (by decide)).trans (B2_0 m ρ c)
theorem B4_0 : W4 m ρ c (Proc.devRef .tc main_arg0) = A0 := (hostOps1_keep_main_arg0 (W3 m ρ c)).trans (B3_0 m ρ c)
theorem B5_0 : W5 m ρ c (Proc.devRef .tc main_arg0) = A0 :=
  ((W5_arr m ρ c 0).trans (((dat1 (V4 m ρ) c).arrAt_in 0 rfl _).trans (A_eq1 (V4 m ρ) c 0))).trans (B4_0 m ρ c)
theorem B6_0 : W6 m ρ c (Proc.devRef .tc main_arg0) = A0 := (hostOps2_keep_main_arg0 (W5 m ρ c)).trans (B5_0 m ρ c)
theorem B7_0 : W7 m ρ c (Proc.devRef .tc main_arg0) = A0 := (hostOps2_1_keep_main_arg0 (W6 m ρ c)).trans (B6_0 m ρ c)
theorem B8_0 : W8 m ρ c (Proc.devRef .tc main_arg0) = A0 := (W8_of_ne m ρ c main_arg0 (by decide)).trans (B7_0 m ρ c)
theorem B9_0 : W9 m ρ c (Proc.devRef .tc main_arg0) = A0 := (hostOps3_keep_main_arg0 (W8 m ρ c)).trans (B8_0 m ρ c)
theorem B10_0 : W10 m ρ c (Proc.devRef .tc main_arg0) = A0 := (hostOps3_1_keep_main_arg0 (W9 m ρ c)).trans (B9_0 m ρ c)
theorem B11_0 : W11 m ρ c (Proc.devRef .tc main_arg0) = A0 := (hostOps3_2_keep_main_arg0 (W10 m ρ c)).trans (B10_0 m ρ c)
theorem B12_0 : W12 m ρ c (Proc.devRef .tc main_arg0) = A0 := (hostOps3_3_keep_main_arg0 (W11 m ρ c)).trans (B11_0 m ρ c)
theorem B13_0 : W13 m ρ c (Proc.devRef .tc main_arg0) = A0 := (hostOps3_4_keep_main_arg0 (W12 m ρ c)).trans (B12_0 m ρ c)
theorem B1_2 : W1 m ρ c (Proc.devRef .tc main_arg2) = A2 := hostOps0_keep_main_arg2 (W0 m ρ c)
theorem B2_2 : W2 m ρ c (Proc.devRef .tc main_arg2) = A2 := (hostOps0_1_keep_main_arg2 (W1 m ρ c)).trans (B1_2 m ρ c)
theorem B1_3 : W1 m ρ c (Proc.devRef .tc main_arg3) = A3 := hostOps0_keep_main_arg3 (W0 m ρ c)
theorem B2_3 : W2 m ρ c (Proc.devRef .tc main_arg3) = A3 := (hostOps0_1_keep_main_arg3 (W1 m ρ c)).trans (B1_3 m ρ c)
theorem B3_3 : W3 m ρ c (Proc.devRef .tc main_arg3) = A3 := (W3_of_ne m ρ c main_arg3 (by decide)).trans (B2_3 m ρ c)
theorem B4_3 : W4 m ρ c (Proc.devRef .tc main_arg3) = A3 := (hostOps1_keep_main_arg3 (W3 m ρ c)).trans (B3_3 m ρ c)
theorem B5_3 : W5 m ρ c (Proc.devRef .tc main_arg3) = A3 := (W5_of_ne m ρ c main_arg3 (by decide)).trans (B4_3 m ρ c)
theorem B6_3 : W6 m ρ c (Proc.devRef .tc main_arg3) = A3 := (hostOps2_keep_main_arg3 (W5 m ρ c)).trans (B5_3 m ρ c)
theorem B7_3 : W7 m ρ c (Proc.devRef .tc main_arg3) = A3 := (hostOps2_1_keep_main_arg3 (W6 m ρ c)).trans (B6_3 m ρ c)
theorem B8_3 : W8 m ρ c (Proc.devRef .tc main_arg3) = A3 := (W8_of_ne m ρ c main_arg3 (by decide)).trans (B7_3 m ρ c)
theorem B9_3 : W9 m ρ c (Proc.devRef .tc main_arg3) = A3 := (hostOps3_keep_main_arg3 (W8 m ρ c)).trans (B8_3 m ρ c)
theorem B10_3 : W10 m ρ c (Proc.devRef .tc main_arg3) = A3 := (hostOps3_1_keep_main_arg3 (W9 m ρ c)).trans (B9_3 m ρ c)
theorem B11_3 : W11 m ρ c (Proc.devRef .tc main_arg3) = A3 := (hostOps3_2_keep_main_arg3 (W10 m ρ c)).trans (B10_3 m ρ c)
theorem B12_3 : W12 m ρ c (Proc.devRef .tc main_arg3) = A3 := (hostOps3_3_keep_main_arg3 (W11 m ρ c)).trans (B11_3 m ρ c)
theorem B1_4 : W1 m ρ c (Proc.devRef .tc main_arg4) = A4 := hostOps0_keep_main_arg4 (W0 m ρ c)
theorem B2_4 : W2 m ρ c (Proc.devRef .tc main_arg4) = A4 := (hostOps0_1_keep_main_arg4 (W1 m ρ c)).trans (B1_4 m ρ c)
theorem B3_4 : W3 m ρ c (Proc.devRef .tc main_arg4) = A4 := (W3_of_ne m ρ c main_arg4 (by decide)).trans (B2_4 m ρ c)
theorem B4_4 : W4 m ρ c (Proc.devRef .tc main_arg4) = A4 := (hostOps1_keep_main_arg4 (W3 m ρ c)).trans (B3_4 m ρ c)
theorem B5_4 : W5 m ρ c (Proc.devRef .tc main_arg4) = A4 := (W5_of_ne m ρ c main_arg4 (by decide)).trans (B4_4 m ρ c)
theorem B6_4 : W6 m ρ c (Proc.devRef .tc main_arg4) = A4 := (hostOps2_keep_main_arg4 (W5 m ρ c)).trans (B5_4 m ρ c)
theorem B7_4 : W7 m ρ c (Proc.devRef .tc main_arg4) = A4 := (hostOps2_1_keep_main_arg4 (W6 m ρ c)).trans (B6_4 m ρ c)
theorem B8_4 : W8 m ρ c (Proc.devRef .tc main_arg4) = A4 := (W8_of_ne m ρ c main_arg4 (by decide)).trans (B7_4 m ρ c)
theorem B9_4 : W9 m ρ c (Proc.devRef .tc main_arg4) = A4 := (hostOps3_keep_main_arg4 (W8 m ρ c)).trans (B8_4 m ρ c)
theorem B10_4 : W10 m ρ c (Proc.devRef .tc main_arg4) = A4 := (hostOps3_1_keep_main_arg4 (W9 m ρ c)).trans (B9_4 m ρ c)
theorem B1_5 : W1 m ρ c (Proc.devRef .tc main_arg5) = A5 := hostOps0_keep_main_arg5 (W0 m ρ c)
theorem B2_5 : W2 m ρ c (Proc.devRef .tc main_arg5) = A5 := (hostOps0_1_keep_main_arg5 (W1 m ρ c)).trans (B1_5 m ρ c)
theorem B1_6 : W1 m ρ c (Proc.devRef .tc main_arg6) = A6 := hostOps0_keep_main_arg6 (W0 m ρ c)
theorem B2_6 : W2 m ρ c (Proc.devRef .tc main_arg6) = A6 := (hostOps0_1_keep_main_arg6 (W1 m ρ c)).trans (B1_6 m ρ c)
theorem B1_7 : W1 m ρ c (Proc.devRef .tc main_arg7) = A7 := hostOps0_keep_main_arg7 (W0 m ρ c)
theorem B2_7 : W2 m ρ c (Proc.devRef .tc main_arg7) = A7 := (hostOps0_1_keep_main_arg7 (W1 m ρ c)).trans (B1_7 m ρ c)
theorem B3_7 : W3 m ρ c (Proc.devRef .tc main_arg7) = A7 := (W3_of_ne m ρ c main_arg7 (by decide)).trans (B2_7 m ρ c)
theorem B4_7 : W4 m ρ c (Proc.devRef .tc main_arg7) = A7 := (hostOps1_keep_main_arg7 (W3 m ρ c)).trans (B3_7 m ρ c)
theorem B1_8 : W1 m ρ c (Proc.devRef .tc main_arg8) = A8 := hostOps0_keep_main_arg8 (W0 m ρ c)
theorem B2_8 : W2 m ρ c (Proc.devRef .tc main_arg8) = A8 := (hostOps0_1_keep_main_arg8 (W1 m ρ c)).trans (B1_8 m ρ c)
theorem B3_8 : W3 m ρ c (Proc.devRef .tc main_arg8) = A8 := (W3_of_ne m ρ c main_arg8 (by decide)).trans (B2_8 m ρ c)
theorem B4_8 : W4 m ρ c (Proc.devRef .tc main_arg8) = A8 := (hostOps1_keep_main_arg8 (W3 m ρ c)).trans (B3_8 m ρ c)
theorem B1_9 : W1 m ρ c (Proc.devRef .tc main_arg9) = A9 := hostOps0_keep_main_arg9 (W0 m ρ c)
theorem B2_9 : W2 m ρ c (Proc.devRef .tc main_arg9) = A9 := (hostOps0_1_keep_main_arg9 (W1 m ρ c)).trans (B1_9 m ρ c)
theorem B3_9 : W3 m ρ c (Proc.devRef .tc main_arg9) = A9 := (W3_of_ne m ρ c main_arg9 (by decide)).trans (B2_9 m ρ c)
theorem B4_9 : W4 m ρ c (Proc.devRef .tc main_arg9) = A9 := (hostOps1_keep_main_arg9 (W3 m ρ c)).trans (B3_9 m ρ c)
theorem B1_10 : W1 m ρ c (Proc.devRef .tc main_arg10) = A10 := hostOps0_keep_main_arg10 (W0 m ρ c)
theorem B2_10 : W2 m ρ c (Proc.devRef .tc main_arg10) = A10 := (hostOps0_1_keep_main_arg10 (W1 m ρ c)).trans (B1_10 m ρ c)
theorem B3_10 : W3 m ρ c (Proc.devRef .tc main_arg10) = A10 := (W3_of_ne m ρ c main_arg10 (by decide)).trans (B2_10 m ρ c)
theorem B4_10 : W4 m ρ c (Proc.devRef .tc main_arg10) = A10 := (hostOps1_keep_main_arg10 (W3 m ρ c)).trans (B3_10 m ρ c)
theorem B1_11 : W1 m ρ c (Proc.devRef .tc main_arg11) = A11 := hostOps0_keep_main_arg11 (W0 m ρ c)
theorem B2_11 : W2 m ρ c (Proc.devRef .tc main_arg11) = A11 := (hostOps0_1_keep_main_arg11 (W1 m ρ c)).trans (B1_11 m ρ c)
theorem B3_11 : W3 m ρ c (Proc.devRef .tc main_arg11) = A11 := (W3_of_ne m ρ c main_arg11 (by decide)).trans (B2_11 m ρ c)
theorem B4_11 : W4 m ρ c (Proc.devRef .tc main_arg11) = A11 := (hostOps1_keep_main_arg11 (W3 m ρ c)).trans (B3_11 m ρ c)
theorem B5_11 : W5 m ρ c (Proc.devRef .tc main_arg11) = A11 := (W5_of_ne m ρ c main_arg11 (by decide)).trans (B4_11 m ρ c)
theorem B6_11 : W6 m ρ c (Proc.devRef .tc main_arg11) = A11 := (hostOps2_keep_main_arg11 (W5 m ρ c)).trans (B5_11 m ρ c)
theorem B7_11 : W7 m ρ c (Proc.devRef .tc main_arg11) = A11 := (hostOps2_1_keep_main_arg11 (W6 m ρ c)).trans (B6_11 m ρ c)
theorem B8_11 : W8 m ρ c (Proc.devRef .tc main_arg11) = A11 := (W8_of_ne m ρ c main_arg11 (by decide)).trans (B7_11 m ρ c)
theorem B9_11 : W9 m ρ c (Proc.devRef .tc main_arg11) = A11 := (hostOps3_keep_main_arg11 (W8 m ρ c)).trans (B8_11 m ρ c)
theorem B10_11 : W10 m ρ c (Proc.devRef .tc main_arg11) = A11 := (hostOps3_1_keep_main_arg11 (W9 m ρ c)).trans (B9_11 m ρ c)
theorem B11_11 : W11 m ρ c (Proc.devRef .tc main_arg11) = A11 := (hostOps3_2_keep_main_arg11 (W10 m ρ c)).trans (B10_11 m ρ c)
theorem B12_11 : W12 m ρ c (Proc.devRef .tc main_arg11) = A11 := (hostOps3_3_keep_main_arg11 (W11 m ρ c)).trans (B11_11 m ρ c)
theorem B13_11 : W13 m ρ c (Proc.devRef .tc main_arg11) = A11 := (hostOps3_4_keep_main_arg11 (W12 m ρ c)).trans (B12_11 m ρ c)
theorem B1_12 : W1 m ρ c (Proc.devRef .tc main_arg12) = A12 := hostOps0_keep_main_arg12 (W0 m ρ c)
theorem B2_12 : W2 m ρ c (Proc.devRef .tc main_arg12) = A12 := (hostOps0_1_keep_main_arg12 (W1 m ρ c)).trans (B1_12 m ρ c)
theorem B3_12 : W3 m ρ c (Proc.devRef .tc main_arg12) = A12 := (W3_of_ne m ρ c main_arg12 (by decide)).trans (B2_12 m ρ c)
theorem B4_12 : W4 m ρ c (Proc.devRef .tc main_arg12) = A12 := (hostOps1_keep_main_arg12 (W3 m ρ c)).trans (B3_12 m ρ c)
theorem B5_12 : W5 m ρ c (Proc.devRef .tc main_arg12) = A12 := (W5_of_ne m ρ c main_arg12 (by decide)).trans (B4_12 m ρ c)
theorem B6_12 : W6 m ρ c (Proc.devRef .tc main_arg12) = A12 := (hostOps2_keep_main_arg12 (W5 m ρ c)).trans (B5_12 m ρ c)
theorem B7_12 : W7 m ρ c (Proc.devRef .tc main_arg12) = A12 := (hostOps2_1_keep_main_arg12 (W6 m ρ c)).trans (B6_12 m ρ c)
theorem B8_12 : W8 m ρ c (Proc.devRef .tc main_arg12) = A12 := (W8_of_ne m ρ c main_arg12 (by decide)).trans (B7_12 m ρ c)
theorem B9_12 : W9 m ρ c (Proc.devRef .tc main_arg12) = A12 := (hostOps3_keep_main_arg12 (W8 m ρ c)).trans (B8_12 m ρ c)
theorem B10_12 : W10 m ρ c (Proc.devRef .tc main_arg12) = A12 := (hostOps3_1_keep_main_arg12 (W9 m ρ c)).trans (B9_12 m ρ c)
theorem B11_12 : W11 m ρ c (Proc.devRef .tc main_arg12) = A12 := (hostOps3_2_keep_main_arg12 (W10 m ρ c)).trans (B10_12 m ρ c)
theorem B12_12 : W12 m ρ c (Proc.devRef .tc main_arg12) = A12 := (hostOps3_3_keep_main_arg12 (W11 m ρ c)).trans (B11_12 m ρ c)
theorem B13_12 : W13 m ρ c (Proc.devRef .tc main_arg12) = A12 := (hostOps3_4_keep_main_arg12 (W12 m ρ c)).trans (B12_12 m ρ c)
theorem B1_13 : W1 m ρ c (Proc.devRef .tc main_arg13) = A13 := hostOps0_keep_main_arg13 (W0 m ρ c)
theorem B2_13 : W2 m ρ c (Proc.devRef .tc main_arg13) = A13 := (hostOps0_1_keep_main_arg13 (W1 m ρ c)).trans (B1_13 m ρ c)
theorem B3_13 : W3 m ρ c (Proc.devRef .tc main_arg13) = A13 := (W3_of_ne m ρ c main_arg13 (by decide)).trans (B2_13 m ρ c)
theorem B4_13 : W4 m ρ c (Proc.devRef .tc main_arg13) = A13 := (hostOps1_keep_main_arg13 (W3 m ρ c)).trans (B3_13 m ρ c)
theorem B5_13 : W5 m ρ c (Proc.devRef .tc main_arg13) = A13 := (W5_of_ne m ρ c main_arg13 (by decide)).trans (B4_13 m ρ c)
theorem B6_13 : W6 m ρ c (Proc.devRef .tc main_arg13) = A13 := (hostOps2_keep_main_arg13 (W5 m ρ c)).trans (B5_13 m ρ c)
theorem B7_13 : W7 m ρ c (Proc.devRef .tc main_arg13) = A13 := (hostOps2_1_keep_main_arg13 (W6 m ρ c)).trans (B6_13 m ρ c)
theorem B1_14 : W1 m ρ c (Proc.devRef .tc main_arg14) = A14 := hostOps0_keep_main_arg14 (W0 m ρ c)
theorem B2_14 : W2 m ρ c (Proc.devRef .tc main_arg14) = A14 := (hostOps0_1_keep_main_arg14 (W1 m ρ c)).trans (B1_14 m ρ c)
theorem B3_14 : W3 m ρ c (Proc.devRef .tc main_arg14) = A14 := (W3_of_ne m ρ c main_arg14 (by decide)).trans (B2_14 m ρ c)
theorem B4_14 : W4 m ρ c (Proc.devRef .tc main_arg14) = A14 := (hostOps1_keep_main_arg14 (W3 m ρ c)).trans (B3_14 m ρ c)
theorem B5_14 : W5 m ρ c (Proc.devRef .tc main_arg14) = A14 := (W5_of_ne m ρ c main_arg14 (by decide)).trans (B4_14 m ρ c)
theorem B6_14 : W6 m ρ c (Proc.devRef .tc main_arg14) = A14 := (hostOps2_keep_main_arg14 (W5 m ρ c)).trans (B5_14 m ρ c)
theorem B7_14 : W7 m ρ c (Proc.devRef .tc main_arg14) = A14 := (hostOps2_1_keep_main_arg14 (W6 m ρ c)).trans (B6_14 m ρ c)
theorem B8_14 : W8 m ρ c (Proc.devRef .tc main_arg14) = A14 := (W8_of_ne m ρ c main_arg14 (by decide)).trans (B7_14 m ρ c)
theorem B9_14 : W9 m ρ c (Proc.devRef .tc main_arg14) = A14 := (hostOps3_keep_main_arg14 (W8 m ρ c)).trans (B8_14 m ρ c)
theorem B10_14 : W10 m ρ c (Proc.devRef .tc main_arg14) = A14 := (hostOps3_1_keep_main_arg14 (W9 m ρ c)).trans (B9_14 m ρ c)
theorem B1_15 : W1 m ρ c (Proc.devRef .tc main_arg15) = A15 := hostOps0_keep_main_arg15 (W0 m ρ c)
theorem B2_15 : W2 m ρ c (Proc.devRef .tc main_arg15) = A15 := (hostOps0_1_keep_main_arg15 (W1 m ρ c)).trans (B1_15 m ρ c)
theorem B3_15 : W3 m ρ c (Proc.devRef .tc main_arg15) = A15 := (W3_of_ne m ρ c main_arg15 (by decide)).trans (B2_15 m ρ c)
theorem B4_15 : W4 m ρ c (Proc.devRef .tc main_arg15) = A15 := (hostOps1_keep_main_arg15 (W3 m ρ c)).trans (B3_15 m ρ c)
theorem B5_15 : W5 m ρ c (Proc.devRef .tc main_arg15) = A15 := (W5_of_ne m ρ c main_arg15 (by decide)).trans (B4_15 m ρ c)
theorem B6_15 : W6 m ρ c (Proc.devRef .tc main_arg15) = A15 := (hostOps2_keep_main_arg15 (W5 m ρ c)).trans (B5_15 m ρ c)
theorem B7_15 : W7 m ρ c (Proc.devRef .tc main_arg15) = A15 := (hostOps2_1_keep_main_arg15 (W6 m ρ c)).trans (B6_15 m ρ c)
theorem B8_15 : W8 m ρ c (Proc.devRef .tc main_arg15) = A15 := (W8_of_ne m ρ c main_arg15 (by decide)).trans (B7_15 m ρ c)
theorem B9_15 : W9 m ρ c (Proc.devRef .tc main_arg15) = A15 := (hostOps3_keep_main_arg15 (W8 m ρ c)).trans (B8_15 m ρ c)
theorem B10_15 : W10 m ρ c (Proc.devRef .tc main_arg15) = A15 := (hostOps3_1_keep_main_arg15 (W9 m ρ c)).trans (B9_15 m ρ c)
theorem B1_16 : W1 m ρ c (Proc.devRef .tc main_arg16) = A16 := hostOps0_keep_main_arg16 (W0 m ρ c)
theorem B2_16 : W2 m ρ c (Proc.devRef .tc main_arg16) = A16 := (hostOps0_1_keep_main_arg16 (W1 m ρ c)).trans (B1_16 m ρ c)
theorem B3_16 : W3 m ρ c (Proc.devRef .tc main_arg16) = A16 := (W3_of_ne m ρ c main_arg16 (by decide)).trans (B2_16 m ρ c)
theorem B4_16 : W4 m ρ c (Proc.devRef .tc main_arg16) = A16 := (hostOps1_keep_main_arg16 (W3 m ρ c)).trans (B3_16 m ρ c)
theorem B5_16 : W5 m ρ c (Proc.devRef .tc main_arg16) = A16 := (W5_of_ne m ρ c main_arg16 (by decide)).trans (B4_16 m ρ c)
theorem B6_16 : W6 m ρ c (Proc.devRef .tc main_arg16) = A16 := (hostOps2_keep_main_arg16 (W5 m ρ c)).trans (B5_16 m ρ c)
theorem B7_16 : W7 m ρ c (Proc.devRef .tc main_arg16) = A16 := (hostOps2_1_keep_main_arg16 (W6 m ρ c)).trans (B6_16 m ρ c)
theorem B8_16 : W8 m ρ c (Proc.devRef .tc main_arg16) = A16 := (W8_of_ne m ρ c main_arg16 (by decide)).trans (B7_16 m ρ c)
theorem B9_16 : W9 m ρ c (Proc.devRef .tc main_arg16) = A16 := (hostOps3_keep_main_arg16 (W8 m ρ c)).trans (B8_16 m ρ c)
theorem B10_16 : W10 m ρ c (Proc.devRef .tc main_arg16) = A16 := (hostOps3_1_keep_main_arg16 (W9 m ρ c)).trans (B9_16 m ρ c)
theorem B1_17 : W1 m ρ c (Proc.devRef .tc main_arg17) = A17 := hostOps0_keep_main_arg17 (W0 m ρ c)
theorem B2_17 : W2 m ρ c (Proc.devRef .tc main_arg17) = A17 := (hostOps0_1_keep_main_arg17 (W1 m ρ c)).trans (B1_17 m ρ c)
theorem B3_17 : W3 m ρ c (Proc.devRef .tc main_arg17) = A17 := (W3_of_ne m ρ c main_arg17 (by decide)).trans (B2_17 m ρ c)
theorem B4_17 : W4 m ρ c (Proc.devRef .tc main_arg17) = A17 := (hostOps1_keep_main_arg17 (W3 m ρ c)).trans (B3_17 m ρ c)
theorem B5_17 : W5 m ρ c (Proc.devRef .tc main_arg17) = A17 := (W5_of_ne m ρ c main_arg17 (by decide)).trans (B4_17 m ρ c)
theorem B6_17 : W6 m ρ c (Proc.devRef .tc main_arg17) = A17 := (hostOps2_keep_main_arg17 (W5 m ρ c)).trans (B5_17 m ρ c)
theorem B7_17 : W7 m ρ c (Proc.devRef .tc main_arg17) = A17 := (hostOps2_1_keep_main_arg17 (W6 m ρ c)).trans (B6_17 m ρ c)
theorem B8_17 : W8 m ρ c (Proc.devRef .tc main_arg17) = A17 := (W8_of_ne m ρ c main_arg17 (by decide)).trans (B7_17 m ρ c)
theorem B9_17 : W9 m ρ c (Proc.devRef .tc main_arg17) = A17 := (hostOps3_keep_main_arg17 (W8 m ρ c)).trans (B8_17 m ρ c)
theorem B10_17 : W10 m ρ c (Proc.devRef .tc main_arg17) = A17 := (hostOps3_1_keep_main_arg17 (W9 m ρ c)).trans (B9_17 m ρ c)

/-! ## Up to region 0: the edges' source and target numbers, the looked-up source rows -/

theorem W1_v1 : W1 m ρ c (Proc.devRef .tc main_v1) = rowOf0 A1 := hostOps0_v1 (W0 m ρ c)
theorem W1_v3 : W1 m ρ c (Proc.devRef .tc main_v3) = rowOf1 A1 := hostOps0_v3 (W0 m ρ c)
theorem W2_v4 : W2 m ρ c (Proc.devRef .tc main_v4) = takeSrc (F := Ideal) A0 (rowOf0 A1) :=
  (hostOps0_1_v4 (W1 m ρ c)).trans (by rw [B1_0, W1_v1])
theorem W2_v3 : W2 m ρ c (Proc.devRef .tc main_v3) = rowOf1 A1 := (hostOps0_1_keep_main_v3 (W1 m ρ c)).trans (W1_v3 m ρ c)

/-! ## Region 0 (the edge messages), the sum into the target nodes, region 1 (the node update) -/

theorem W3_v5 : W3 m ρ c (Proc.devRef .tc main_v5) = kMsg A0 A1 A2 A5 A6 := by
  refine (W3_arr m ρ c 4).trans ((EdgeMessage.array (V2 m ρ) c).trans ?_)
  unfold kMsg
  rw [show V2 m ρ c (Pipeline.arrRef spec0 0) = takeSrc (F := Ideal) A0 (rowOf0 A1) from W2_v4 m ρ c,
    show V2 m ρ c (Pipeline.arrRef spec0 1) = A2 from B2_2 m ρ c,
    show V2 m ρ c (Pipeline.arrRef spec0 2) = A5 from B2_5 m ρ c,
    show V2 m ρ c (Pipeline.arrRef spec0 3) = A6 from B2_6 m ρ c]
theorem W3_v3 : W3 m ρ c (Proc.devRef .tc main_v3) = rowOf1 A1 := (W3_of_ne m ρ c main_v3 (by decide)).trans (W2_v3 m ρ c)
theorem W4_v8 : W4 m ρ c (Proc.devRef .tc main_v8) = aggOf (F := Ideal) (rowOf1 A1) (kMsg A0 A1 A2 A5 A6) :=
  (hostOps1_v8 (W3 m ρ c)).trans (by rw [W3_v3, W3_v5])
theorem W5_v9 : W5 m ρ c (Proc.devRef .tc main_v9) = kH A0 A1 A2 A5 A6 A7 A8 A9 A10 := by
  refine (W5_arr m ρ c 6).trans ((GineMlp.array (V4 m ρ) c).trans ?_)
  unfold kH
  rw [show V4 m ρ c (Pipeline.arrRef spec1 0) = A0 from B4_0 m ρ c,
    show V4 m ρ c (Pipeline.arrRef spec1 1) = aggOf (F := Ideal) (rowOf1 A1) (kMsg A0 A1 A2 A5 A6) from W4_v8 m ρ c,
    show V4 m ρ c (Pipeline.arrRef spec1 2) = A7 from B4_7 m ρ c,
    show V4 m ρ c (Pipeline.arrRef spec1 3) = A8 from B4_8 m ρ c,
    show V4 m ρ c (Pipeline.arrRef spec1 4) = A9 from B4_9 m ρ c,
    show V4 m ρ c (Pipeline.arrRef spec1 5) = A10 from B4_10 m ρ c]

/-! ## The per-graph means, region 2 (centring), the per-graph variances -/

theorem W6_v15 : W6 m ρ c (Proc.devRef .tc main_v15) = cntOf (F := Ideal) A3 :=
  (hostOps2_v15 (W5 m ρ c)).trans (by rw [B5_3])
theorem W6_v20 : W6 m ρ c (Proc.devRef .tc main_v20) = segMean (F := Ideal) A3 (kH A0 A1 A2 A5 A6 A7 A8 A9 A10) :=
  (hostOps2_v20 (W5 m ρ c)).trans (by rw [B5_3, W5_v9])
theorem W6_v9 : W6 m ρ c (Proc.devRef .tc main_v9) = kH A0 A1 A2 A5 A6 A7 A8 A9 A10 := (hostOps2_keep_main_v9 (W5 m ρ c)).trans (W5_v9 m ρ c)
theorem W7_v21 : W7 m ρ c (Proc.devRef .tc main_v21) = kMeanB A0 A1 A2 A3 A5 A6 A7 A8 A9 A10 :=
  (hostOps2_1_v21 (W6 m ρ c)).trans (by rw [W6_v20, B6_3]; rfl)
theorem W7_v9 : W7 m ρ c (Proc.devRef .tc main_v9) = kH A0 A1 A2 A5 A6 A7 A8 A9 A10 := (hostOps2_1_keep_main_v9 (W6 m ρ c)).trans (W6_v9 m ρ c)
theorem W7_v15 : W7 m ρ c (Proc.devRef .tc main_v15) = cntOf (F := Ideal) A3 := (hostOps2_1_keep_main_v15 (W6 m ρ c)).trans (W6_v15 m ρ c)
theorem W8_v22_0 : W8 m ρ c (Proc.devRef .tc main_v22_0) = kOut A0 A1 A2 A3 A5 A6 A7 A8 A9 A10 A13 := by
  refine (W8_arr m ρ c 3).trans ((Center.array3 (V7 m ρ) c).trans ?_)
  unfold kOut
  rw [show V7 m ρ c (Pipeline.arrRef spec2 0) = kH A0 A1 A2 A5 A6 A7 A8 A9 A10 from W7_v9 m ρ c,
    show V7 m ρ c (Pipeline.arrRef spec2 1) = kMeanB A0 A1 A2 A3 A5 A6 A7 A8 A9 A10 from W7_v21 m ρ c,
    show V7 m ρ c (Pipeline.arrRef spec2 2) = A13 from B7_13 m ρ c]
theorem W8_v22_1 : W8 m ρ c (Proc.devRef .tc main_v22_1) = kOutSq A0 A1 A2 A3 A5 A6 A7 A8 A9 A10 A13 := by
  refine (W8_arr m ρ c 4).trans ((Center.array4 (V7 m ρ) c).trans ?_)
  unfold kOutSq
  rw [show V7 m ρ c (Pipeline.arrRef spec2 0) = kH A0 A1 A2 A5 A6 A7 A8 A9 A10 from W7_v9 m ρ c,
    show V7 m ρ c (Pipeline.arrRef spec2 1) = kMeanB A0 A1 A2 A3 A5 A6 A7 A8 A9 A10 from W7_v21 m ρ c,
    show V7 m ρ c (Pipeline.arrRef spec2 2) = A13 from B7_13 m ρ c]
theorem W8_v15 : W8 m ρ c (Proc.devRef .tc main_v15) = cntOf (F := Ideal) A3 := (W8_of_ne m ρ c main_v15 (by decide)).trans (W7_v15 m ρ c)
theorem W9_v27 : W9 m ρ c (Proc.devRef .tc main_v27) = segDiv (F := Ideal) A3 (kOutSq A0 A1 A2 A3 A5 A6 A7 A8 A9 A10 A13) (cntOf A3) :=
  (hostOps3_v27 (W8 m ρ c)).trans (by rw [B8_3, W8_v22_1, W8_v15])
theorem W9_v22_0 : W9 m ρ c (Proc.devRef .tc main_v22_0) = kOut A0 A1 A2 A3 A5 A6 A7 A8 A9 A10 A13 := (hostOps3_keep_main_v22_0 (W8 m ρ c)).trans (W8_v22_0 m ρ c)
theorem W10_v28 : W10 m ρ c (Proc.devRef .tc main_v28) = kVarB A0 A1 A2 A3 A5 A6 A7 A8 A9 A10 A13 :=
  (hostOps3_1_v28 (W9 m ρ c)).trans (by rw [W9_v27, B9_3]; rfl)
theorem W10_v22_0 : W10 m ρ c (Proc.devRef .tc main_v22_0) = kOut A0 A1 A2 A3 A5 A6 A7 A8 A9 A10 A13 := (hostOps3_1_keep_main_v22_0 (W9 m ρ c)).trans (W9_v22_0 m ρ c)

/-! ## The two per-graph affine tables looked up per node, region 3 (the result) -/

theorem W11_v34 : W11 m ρ c (Proc.devRef .tc main_v34) = film1 (F := Ideal) A4 A14 A15 :=
  (hostOps3_2_v34 (W10 m ρ c)).trans (by rw [B10_4, B10_14, B10_15])
theorem W11_v38 : W11 m ρ c (Proc.devRef .tc main_v38) = film0 (F := Ideal) A4 A16 A17 :=
  (hostOps3_2_v38 (W10 m ρ c)).trans (by rw [B10_4, B10_16, B10_17])
theorem W11_v28 : W11 m ρ c (Proc.devRef .tc main_v28) = kVarB A0 A1 A2 A3 A5 A6 A7 A8 A9 A10 A13 := (hostOps3_2_keep_main_v28 (W10 m ρ c)).trans (W10_v28 m ρ c)
theorem W11_v22_0 : W11 m ρ c (Proc.devRef .tc main_v22_0) = kOut A0 A1 A2 A3 A5 A6 A7 A8 A9 A10 A13 := (hostOps3_2_keep_main_v22_0 (W10 m ρ c)).trans (W10_v22_0 m ρ c)
theorem W12_v39 : W12 m ρ c (Proc.devRef .tc main_v39) = takeB (F := Ideal) (film1 A4 A14 A15) A3 :=
  (hostOps3_3_v39 (W11 m ρ c)).trans (by rw [W11_v34, B11_3])
theorem W12_v38 : W12 m ρ c (Proc.devRef .tc main_v38) = film0 (F := Ideal) A4 A16 A17 := (hostOps3_3_keep_main_v38 (W11 m ρ c)).trans (W11_v38 m ρ c)
theorem W12_v28 : W12 m ρ c (Proc.devRef .tc main_v28) = kVarB A0 A1 A2 A3 A5 A6 A7 A8 A9 A10 A13 := (hostOps3_3_keep_main_v28 (W11 m ρ c)).trans (W11_v28 m ρ c)
theorem W12_v22_0 : W12 m ρ c (Proc.devRef .tc main_v22_0) = kOut A0 A1 A2 A3 A5 A6 A7 A8 A9 A10 A13 := (hostOps3_3_keep_main_v22_0 (W11 m ρ c)).trans (W11_v22_0 m ρ c)
theorem W13_v40 : W13 m ρ c (Proc.devRef .tc main_v40) = takeB (F := Ideal) (film0 A4 A16 A17) A3 :=
  (hostOps3_4_v40 (W12 m ρ c)).trans (by rw [W12_v38, B12_3])
theorem W13_v39 : W13 m ρ c (Proc.devRef .tc main_v39) = takeB (F := Ideal) (film1 A4 A14 A15) A3 := (hostOps3_4_keep_main_v39 (W12 m ρ c)).trans (W12_v39 m ρ c)
theorem W13_v28 : W13 m ρ c (Proc.devRef .tc main_v28) = kVarB A0 A1 A2 A3 A5 A6 A7 A8 A9 A10 A13 := (hostOps3_4_keep_main_v28 (W12 m ρ c)).trans (W12_v28 m ρ c)
theorem W13_v22_0 : W13 m ρ c (Proc.devRef .tc main_v22_0) = kOut A0 A1 A2 A3 A5 A6 A7 A8 A9 A10 A13 := (hostOps3_4_keep_main_v22_0 (W12 m ρ c)).trans (W12_v22_0 m ρ c)

set_option maxHeartbeats 4000000 in
/-- THE KERNEL'S RESULT: at the last segment boundary the result buffer holds the kernel's composition of the argument
    arrays as launched. -/
theorem W14_v41 : W14 m ρ c (Proc.devRef .tc main_v41) = kRes A0 A1 A2 A3 A4 A5 A6 A7 A8 A9 A10 A11 A12 A13 A14 A15 A16 A17 := by
  refine (W14_arr m ρ c 7).trans ((FinalAffine.array7 (V13 m ρ) c).trans ?_)
  unfold kRes
  rw [show V13 m ρ c (Pipeline.arrRef spec3 0) = A0 from B13_0 m ρ c,
    show V13 m ρ c (Pipeline.arrRef spec3 1) = kOut A0 A1 A2 A3 A5 A6 A7 A8 A9 A10 A13 from W13_v22_0 m ρ c,
    show V13 m ρ c (Pipeline.arrRef spec3 2) = kVarB A0 A1 A2 A3 A5 A6 A7 A8 A9 A10 A13 from W13_v28 m ρ c,
    show V13 m ρ c (Pipeline.arrRef spec3 3) = A11 from B13_11 m ρ c,
    show V13 m ρ c (Pipeline.arrRef spec3 4) = A12 from B13_12 m ρ c,
    show V13 m ρ c (Pipeline.arrRef spec3 5) = takeB (F := Ideal) (film1 A4 A14 A15) A3 from W13_v39 m ρ c,
    show V13 m ρ c (Pipeline.arrRef spec3 6) = takeB (F := Ideal) (film0 A4 A16 A17) A3 from W13_v40 m ρ c]

end Cert.KernelIdeal.KernelValue

end
-- ==== Proof.RefStages.lean ====
/- The reference program's stages as the whole-array functions of the specification, at the extended reals: the edge
   message, the node update, the centred array and its square, and the final result. Each equation reads the stage index
   by index from its operands — a product as a sum over the contracted channel, a broadcast bias at its column — and meets
   the specification's entry. The gathers and the accumulating scatters stay as they are, as operands. The one place the
   orders differ: the reference takes the reciprocal square root of the variance plus epsilon on the per-graph table and
   gathers it by graph afterwards; gathering first and applying the map per node gives the same entries, a gather being a
   re-indexing. -/
import proofs.«160231_j53077205844804_1_alg».proof.Proof.Gen.ReferenceIdeal.Read
import proofs.«160231_j53077205844804_1_alg».proof.Proof.SpecEdgeMessage
import proofs.«160231_j53077205844804_1_alg».proof.Proof.SpecGineMlp
import proofs.«160231_j53077205844804_1_alg».proof.Proof.SpecCenter
import proofs.«160231_j53077205844804_1_alg».proof.Proof.SpecFinalAffine
import Idealize.ShloMosaic.Lib.ValueIdx
import Idealize.ShloMosaic.Lib.IdealHost
import Idealize.ShloMosaic.PureOps.Ideal.Laws

noncomputable section

open scoped BigOperators

namespace Cert.ReferenceIdeal.RefStages

open Cert.ReferenceIdeal Cert.ReferenceIdeal.Gen Cert.ReferenceIdeal.Read Cert.Spec
open Idealize.ShloMosaic Idealize.ShloMosaic.TcCoe Idealize.SL.Sem Idealize.ShloMosaic.StableHlo
open Idealize.ShloMosaic.ValueIdx

/-! ## The composed index maps, by coordinates -/

theorem lidx11 (i : S1600000x128.Idx) (k : Fin 32) : lidx_main_v11 i k = ix2 (i 0) k :=
  funext fun a => Fin.ext (by match a with | ⟨0, _⟩ => rfl | ⟨1, _⟩ => rfl)
theorem ridx11 (i : S1600000x128.Idx) (k : Fin 32) : ridx_main_v11 i k = ix2 k (i 1) :=
  funext fun a => Fin.ext (by match a with | ⟨0, _⟩ => rfl | ⟨1, _⟩ => rfl)
theorem idx13_14 (i : S1600000x128.Idx) : idx_main_v13 (idx_main_v14 i) = ix1 (i 1) :=
  funext fun a => Fin.ext (by match a with | ⟨0, _⟩ => rfl)
theorem lidx21 (i : S100000x128.Idx) (k : Fin 128) : lidx_main_v21 i k = ix2 (i 0) k :=
  funext fun a => Fin.ext (by match a with | ⟨0, _⟩ => rfl | ⟨1, _⟩ => rfl)
theorem ridx21 (i : S100000x128.Idx) (k : Fin 128) : ridx_main_v21 i k = ix2 k (i 1) :=
  funext fun a => Fin.ext (by match a with | ⟨0, _⟩ => rfl | ⟨1, _⟩ => rfl)
theorem idx22_23 (i : S100000x128.Idx) : idx_main_v22 (idx_main_v23 i) = ix1 (i 1) :=
  funext fun a => Fin.ext (by match a with | ⟨0, _⟩ => rfl)
theorem lidx26 (i : S100000x128.Idx) (k : Fin 128) : lidx_main_v26 i k = ix2 (i 0) k :=
  funext fun a => Fin.ext (by match a with | ⟨0, _⟩ => rfl | ⟨1, _⟩ => rfl)
theorem ridx26 (i : S100000x128.Idx) (k : Fin 128) : ridx_main_v26 i k = ix2 k (i 1) :=
  funext fun a => Fin.ext (by match a with | ⟨0, _⟩ => rfl | ⟨1, _⟩ => rfl)
theorem idx27_28 (i : S100000x128.Idx) : idx_main_v27 (idx_main_v28 i) = ix1 (i 1) :=
  funext fun a => Fin.ext (by match a with | ⟨0, _⟩ => rfl)
theorem idx48_49 (i : S100000x128.Idx) : idx_main_v48 (idx_main_v49 i) = ix1 (i 1) :=
  funext fun a => Fin.ext (by match a with | ⟨0, _⟩ => rfl)
theorem idx69_70 (i : S100000x128.Idx) : idx_main_v69 (idx_main_v70 i) = ix1 (i 1) :=
  funext fun a => Fin.ext (by match a with | ⟨0, _⟩ => rfl)
theorem idx72_73 (i : S100000x128.Idx) : idx_main_v72 (idx_main_v73 i) = ix1 (i 1) :=
  funext fun a => Fin.ext (by match a with | ⟨0, _⟩ => rfl)

/-! ## A gather commutes with a map applied entry by entry -/

/-- A gather reads its operand at an index computed from the start indices alone, so mapping the operand's entries first
    or the gathered entries afterwards gives the same array. -/
theorem gather_map {α β : Type} {s si t : Shape} {w : Nat} (d : GatherDims s si t) (f : α → β) (x : s.Idx → α) (idx : IVec si w) :
    Host.gather d (fun j => f (x j)) idx = fun i => f (Host.gather d x idx i) := rfl

/-! ## The logistic as the reference spells it -/

/-- One over one plus the exponential of the negation, with both ones the single-precision word of 1, is the logistic. -/
theorem logistic_spelt (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = Ideal.logistic z := by
  simp only [Ideal.ofBits_def, Ideal.ofBits_one_f32]
  rfl

variable (x0 : (⟨S100000x128, .f32⟩ : BufTy).Contents (Elt Ideal)) (x1 : (⟨S2x1600000, .i32⟩ : BufTy).Contents (Elt Ideal)) (x2 : (⟨S1600000x32, .f32⟩ : BufTy).Contents (Elt Ideal))
  (x3 : (⟨S100000, .i32⟩ : BufTy).Contents (Elt Ideal)) (x4 : (⟨S512x256, .f32⟩ : BufTy).Contents (Elt Ideal)) (x5 : (⟨S32x128, .f32⟩ : BufTy).Contents (Elt Ideal))
  (x6 : (⟨S128, .f32⟩ : BufTy).Contents (Elt Ideal)) (x7 : (⟨S128x128, .f32⟩ : BufTy).Contents (Elt Ideal)) (x8 : (⟨S128, .f32⟩ : BufTy).Contents (Elt Ideal))
  (x9 : (⟨S128x128, .f32⟩ : BufTy).Contents (Elt Ideal)) (x10 x11 x12 x13 : (⟨S128, .f32⟩ : BufTy).Contents (Elt Ideal)) (x14 : (⟨S256x128, .f32⟩ : BufTy).Contents (Elt Ideal))
  (x15 : (⟨S128, .f32⟩ : BufTy).Contents (Elt Ideal)) (x16 : (⟨S256x128, .f32⟩ : BufTy).Contents (Elt Ideal)) (x17 : (⟨S128, .f32⟩ : BufTy).Contents (Elt Ideal))

/-! ## The edge message -/

/-- The reference's edge stage is the edge message of the gathered source rows, the edge attributes, the weight and the
    bias: the gathered rows plus the product, plus the bias, clamped below at zero. -/
theorem v16_eq : val_main_v16 (F := Ideal) x0 x1 x2 x5 x6 = edgeMessage (val_main_v10 (F := Ideal) x0 x1) x2 x5 x6 := by
  funext i
  rw [val_main_v16_apply, val_main_v15_apply, val_main_v12_apply, val_main_v11_apply, val_main_v14_apply, val_main_v13_apply,
    val_main_call0_v0_apply, val_main_call0_cst_apply]
  simp only [lidx11, ridx11, idx13_14, Ideal.maximumf_def, Ideal.addf_def, Ideal.ofBits_def, Ideal.ofBits_zero_f32]
  rfl

/-! ## The node update -/

/-- The first layer before its activation: the node array plus the scattered messages, times the first weight, plus the
    first bias. -/
theorem v24_eq : val_main_v24 (F := Ideal) x0 x1 x2 x5 x6 x7 x8 = gineZ1 x0 (val_main_v19 (F := Ideal) x0 x1 x2 x5 x6) x7 x8 := by
  funext i
  rw [val_main_v24_apply, val_main_v21_apply, val_main_v23_apply, val_main_v22_apply]
  simp only [val_main_v20_apply, lidx21, ridx21, idx22_23, Ideal.addf_def]
  rfl

/-- The first layer after its activation: each entry times its logistic. -/
theorem v25_eq : val_main_v25 (F := Ideal) x0 x1 x2 x5 x6 x7 x8 = gineA1 x0 (val_main_v19 (F := Ideal) x0 x1 x2 x5 x6) x7 x8 := by
  funext i
  rw [val_main_v25_apply, val_main_call1_v5_apply, val_main_call1_v4_apply, val_main_call1_cst_0_apply, val_main_call1_v3_apply,
    val_main_call1_v2_apply, val_main_call1_cst_apply, val_main_call1_v1_apply, val_main_call1_v0_apply, logistic_spelt, v24_eq]
  rfl

/-- The reference's node-update stage is the two-layer map of the node array, the scattered messages, both weights and
    both biases. -/
theorem v29_eq : val_main_v29 (F := Ideal) x0 x1 x2 x5 x6 x7 x8 x9 x10 = gineMlp x0 (val_main_v19 (F := Ideal) x0 x1 x2 x5 x6) x7 x8 x9 x10 := by
  funext i
  rw [val_main_v29_apply, val_main_v26_apply, val_main_v28_apply, val_main_v27_apply, v25_eq]
  simp only [lidx26, ridx26, idx27_28, Ideal.addf_def]
  rfl

/-! ## The centred array and its square -/

/-- The reference's centring stage: the node update less the gathered graph mean scaled per feature. -/
theorem v51_eq : val_main_v51 (F := Ideal) x0 x1 x2 x3 x5 x6 x7 x8 x9 x10 x13
    = Center.centered (val_main_v29 (F := Ideal) x0 x1 x2 x5 x6 x7 x8 x9 x10) (val_main_v47 (F := Ideal) x0 x1 x2 x3 x5 x6 x7 x8 x9 x10) x13 := by
  funext i
  rw [val_main_v51_apply, val_main_v50_apply, val_main_v49_apply, val_main_v48_apply]
  simp only [idx48_49, Ideal.subf_def, Ideal.mulf_def]
  rfl

/-- Its square, entry by entry. -/
theorem v52_eq : val_main_v52 (F := Ideal) x0 x1 x2 x3 x5 x6 x7 x8 x9 x10 x13
    = Center.centeredSq (val_main_v29 (F := Ideal) x0 x1 x2 x5 x6 x7 x8 x9 x10) (val_main_v47 (F := Ideal) x0 x1 x2 x3 x5 x6 x7 x8 x9 x10) x13 := by
  funext i
  rw [val_main_v52_apply, v51_eq]
  rfl

/-! ## The final result -/

/-- The reciprocal square root taken on the per-graph table and gathered by graph is, entry by entry, the reciprocal
    square root of the gathered variance plus epsilon: a gather re-indexes its operand, so it commutes with a map applied
    entry by entry. -/
theorem v67_eq : val_main_v67 (F := Ideal) x0 x1 x2 x3 x5 x6 x7 x8 x9 x10 x13
    = fun i => Ideal.rsqrt (Host.gather gather_S512x128_S100000x1_S100000x128_1_0_n_n_0_1_1128 (val_main_v57 (F := Ideal) x0 x1 x2 x3 x5 x6 x7 x8 x9 x10 x13) (val_main_v66 (F := Ideal) x3) i
        + Ideal.ofBits .f32 0x3727C5AC#32) := by
  have h60 : val_main_v60 (F := Ideal) x0 x1 x2 x3 x5 x6 x7 x8 x9 x10 x13
      = fun j => Ideal.rsqrt (val_main_v57 (F := Ideal) x0 x1 x2 x3 x5 x6 x7 x8 x9 x10 x13 j + Ideal.ofBits .f32 0x3727C5AC#32) := by
    funext j
    rw [val_main_v60_apply, val_main_v59_apply, val_main_v58_apply, val_main_cst_8_apply, Ideal.hostUnary_rsqrt_def,
      Ideal.addf_def, Ideal.ofBits_def]
  unfold val_main_v67
  rw [h60]
  exact gather_map gather_S512x128_S100000x1_S100000x128_1_0_n_n_0_1_1128 (fun t => Ideal.rsqrt (t + Ideal.ofBits .f32 0x3727C5AC#32)) _ _

/-- The modulated array: the centred array normalised, mapped feature-wise, modulated per graph. -/
theorem v100_eq : val_main_v100 (F := Ideal) x0 x1 x2 x3 x4 x5 x6 x7 x8 x9 x10 x11 x12 x13 x14 x15 x16 x17
    = FinalAffine.modulated (val_main_v51 (F := Ideal) x0 x1 x2 x3 x5 x6 x7 x8 x9 x10 x13)
        (Host.gather gather_S512x128_S100000x1_S100000x128_1_0_n_n_0_1_1128 (val_main_v57 (F := Ideal) x0 x1 x2 x3 x5 x6 x7 x8 x9 x10 x13) (val_main_v66 (F := Ideal) x3))
        x11 x12 (val_main_v91 (F := Ideal) x3 x4 x14 x15) (val_main_v99 (F := Ideal) x3 x4 x16 x17) := by
  funext i
  rw [val_main_v100_apply, val_main_v92_apply, val_main_v74_apply, val_main_v71_apply, val_main_v70_apply, val_main_v69_apply,
    val_main_v68_apply, val_main_v73_apply, val_main_v72_apply, v67_eq]
  simp only [idx69_70, idx72_73, Ideal.addf_def, Ideal.mulf_def]
  rfl

/-- The reference's result is the specification's result of the node array, the centred array, the gathered variance,
    the two feature vectors and the two gathered modulation arrays. -/
theorem v102_eq : val_main_v102 (F := Ideal) x0 x1 x2 x3 x4 x5 x6 x7 x8 x9 x10 x11 x12 x13 x14 x15 x16 x17
    = FinalAffine.result x0 (val_main_v51 (F := Ideal) x0 x1 x2 x3 x5 x6 x7 x8 x9 x10 x13)
        (Host.gather gather_S512x128_S100000x1_S100000x128_1_0_n_n_0_1_1128 (val_main_v57 (F := Ideal) x0 x1 x2 x3 x5 x6 x7 x8 x9 x10 x13) (val_main_v66 (F := Ideal) x3))
        x11 x12 (val_main_v91 (F := Ideal) x3 x4 x14 x15) (val_main_v99 (F := Ideal) x3 x4 x16 x17) := by
  funext i
  rw [val_main_v102_apply, val_main_v101_apply, val_main_call2_v5_apply, val_main_call2_v4_apply, val_main_call2_cst_0_apply,
    val_main_call2_v3_apply, val_main_call2_v2_apply, val_main_call2_cst_apply, val_main_call2_v1_apply, val_main_call2_v0_apply,
    logistic_spelt, v100_eq]
  rfl

/-! ## The run's result is the last stage -/

/-- What the reference's run leaves in its result buffer is the last stage at the arguments as launched. -/
theorem result_eq (m : (ℓ : Loc nD τ sig) → Buf (Elt Ideal) ℓ) (c : Dev nD) :
    Cert.ReferenceIdeal.Value.res_out0 (F := Ideal) m c
      = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  val_main_v102_eq m c

end Cert.ReferenceIdeal.RefStages

end
-- ==== Proof.RefBridge.lean ====
/- The reference's last stage is the whole composition written with the kernel side's names. The five arithmetic
   stages are the specification's functions of their operands; what is left is that each host stage between them — a row
   lookup's wrapped row numbers, the sum of the edge messages into their target nodes, the node count of each graph, a
   per-graph sum divided by the count, the two per-graph affine tables — is, one level opened, the same operations on the
   same operands under the other program's names for the same shapes and dimension numbers. One small equation per host
   stage, then the stages chained. -/
import proofs.«160231_j53077205844804_1_alg».proof.Proof.RefStages
import proofs.«160231_j53077205844804_1_alg».proof.Proof.Composed

noncomputable section

namespace Cert.ReferenceIdeal.RefBridge

open Cert.ReferenceIdeal Cert.ReferenceIdeal.Gen Cert.ReferenceIdeal.Read Cert.ReferenceIdeal.RefStages Cert.Spec
open Idealize.ShloMosaic Idealize.ShloMosaic.TcCoe Idealize.SL.Sem Idealize.ShloMosaic.StableHlo
open Cert.KernelIdeal.HostStages Cert.KernelIdeal.Composed

variable (x0 : (⟨S100000x128, .f32⟩ : BufTy).Contents (Elt Ideal)) (x1 : (⟨S2x1600000, .i32⟩ : BufTy).Contents (Elt Ideal)) (x2 : (⟨S1600000x32, .f32⟩ : BufTy).Contents (Elt Ideal))
  (x3 : (⟨S100000, .i32⟩ : BufTy).Contents (Elt Ideal)) (x4 : (⟨S512x256, .f32⟩ : BufTy).Contents (Elt Ideal)) (x5 : (⟨S32x128, .f32⟩ : BufTy).Contents (Elt Ideal))
  (x6 : (⟨S128, .f32⟩ : BufTy).Contents (Elt Ideal)) (x7 : (⟨S128x128, .f32⟩ : BufTy).Contents (Elt Ideal)) (x8 : (⟨S128, .f32⟩ : BufTy).Contents (Elt Ideal))
  (x9 : (⟨S128x128, .f32⟩ : BufTy).Contents (Elt Ideal)) (x10 x11 x12 x13 : (⟨S128, .f32⟩ : BufTy).Contents (Elt Ideal)) (x14 : (⟨S256x128, .f32⟩ : BufTy).Contents (Elt Ideal))
  (x15 : (⟨S128, .f32⟩ : BufTy).Contents (Elt Ideal)) (x16 : (⟨S256x128, .f32⟩ : BufTy).Contents (Elt Ideal)) (x17 : (⟨S128, .f32⟩ : BufTy).Contents (Elt Ideal))

/-! ## The wrapped row numbers -/

/-- The edges' source numbers, wrapped, as a column. -/
theorem wrap9 : val_main_v9 (F := Ideal) x1 = wrapSrc (rowOf0 x1) := by
  unfold val_main_v9 val_main_v8 val_main_v5 val_main_v7 val_main_v4 val_main_v6 val_main_c val_main_c_0 val_main_v1 val_main_v0
  rfl

/-- The nodes' graph numbers, wrapped, as a column: the reference computes this column four times. -/
theorem wrap46 : val_main_v46 (F := Ideal) x3 = wrapB x3 := by
  unfold val_main_v46 val_main_v45 val_main_v42 val_main_v44 val_main_v41 val_main_v43 val_main_c_5 val_main_c_6
  rfl
theorem wrap66 : val_main_v66 (F := Ideal) x3 = wrapB x3 := by
  unfold val_main_v66 val_main_v65 val_main_v62 val_main_v64 val_main_v61 val_main_v63 val_main_c_9 val_main_c_10
  rfl
theorem wrap90 : val_main_v90 (F := Ideal) x3 = wrapB x3 := by
  unfold val_main_v90 val_main_v89 val_main_v86 val_main_v88 val_main_v85 val_main_v87 val_main_c_12 val_main_c_13
  rfl
theorem wrap98 : val_main_v98 (F := Ideal) x3 = wrapB x3 := by
  unfold val_main_v98 val_main_v97 val_main_v94 val_main_v96 val_main_v93 val_main_v95 val_main_c_14 val_main_c_15
  rfl

/-! ## The host stages, one level opened -/

/-- The source rows looked up: the gather of the node rows at the wrapped source numbers. -/
theorem h10 : val_main_v10 (F := Ideal) x0 x1 = Host.gather Cert.KernelIdeal.gather_S100000x128_S1600000x1_S1600000x128_1_0_n_n_0_1_1128 x0 (wrapSrc (rowOf0 x1)) := by
  unfold val_main_v10
  rw [wrap9]
  rfl

/-- The edge messages summed into their target nodes. -/
theorem h19 : val_main_v19 (F := Ideal) x0 x1 x2 x5 x6 = aggOf (F := Ideal) (rowOf1 x1) (val_main_v16 (F := Ideal) x0 x1 x2 x5 x6) := by
  unfold val_main_v19 val_main_v17 val_main_cst val_main_v18 val_main_v3 val_main_v2
  rfl

/-- The number of nodes of each graph, at least 1. -/
theorem cnt35 : val_main_v35 (F := Ideal) x3 = cntOf (F := Ideal) x3 := by
  unfold val_main_v35 val_main_v33 val_main_v31 val_main_cst_2 val_main_v32 val_main_v30 val_main_cst_1 val_main_v34 val_main_cst_3
  rfl

/-- The per-graph mean of the node-update rows. -/
theorem h40 : val_main_v40 (F := Ideal) x0 x1 x2 x3 x5 x6 x7 x8 x9 x10 = segMean (F := Ideal) x3 (val_main_v29 (F := Ideal) x0 x1 x2 x5 x6 x7 x8 x9 x10) := by
  unfold val_main_v40 val_main_v38 val_main_v36 val_main_cst_4 val_main_v37 val_main_v39
  rw [cnt35]
  rfl

/-- The per-graph mean looked up per node. -/
theorem h47 : val_main_v47 (F := Ideal) x0 x1 x2 x3 x5 x6 x7 x8 x9 x10 = Host.gather Cert.KernelIdeal.gather_S512x128_S100000x1_S100000x128_1_0_n_n_0_1_1128 (segMean (F := Ideal) x3 (val_main_v29 (F := Ideal) x0 x1 x2 x5 x6 x7 x8 x9 x10)) (wrapB x3) := by
  unfold val_main_v47
  rw [h40, wrap46]
  rfl

/-- The per-graph sum of the squared centred rows divided by the node count. -/
theorem h57 : val_main_v57 (F := Ideal) x0 x1 x2 x3 x5 x6 x7 x8 x9 x10 x13 = segDiv (F := Ideal) x3 (val_main_v52 (F := Ideal) x0 x1 x2 x3 x5 x6 x7 x8 x9 x10 x13) (cntOf (F := Ideal) x3) := by
  unfold val_main_v57 val_main_v55 val_main_v53 val_main_cst_7 val_main_v54 val_main_v56
  rw [cnt35]
  rfl

/-- The per-graph scale table looked up per node. -/
theorem h91 : val_main_v91 (F := Ideal) x3 x4 x14 x15 = Host.gather Cert.KernelIdeal.gather_S512x128_S100000x1_S100000x128_1_0_n_n_0_1_1128 (film1 (F := Ideal) x4 x14 x15) (wrapB x3) := by
  unfold val_main_v91
  rw [wrap90]
  unfold val_main_v80 val_main_v78 val_main_v75 val_main_v77 val_main_v76 val_main_v79 val_main_cst_11
  rfl

/-- The per-graph shift table looked up per node. -/
theorem h99 : val_main_v99 (F := Ideal) x3 x4 x16 x17 = Host.gather Cert.KernelIdeal.gather_S512x128_S100000x1_S100000x128_1_0_n_n_0_1_1128 (film0 (F := Ideal) x4 x16 x17) (wrapB x3) := by
  unfold val_main_v99
  rw [wrap98]
  unfold val_main_v84 val_main_v81 val_main_v83 val_main_v82
  rfl

/-! ## The stages chained -/

theorem hMsg : val_main_v16 (F := Ideal) x0 x1 x2 x5 x6 = rMsg x0 x1 x2 x5 x6 := by
  rw [v16_eq, h10]
  rfl

theorem hH : val_main_v29 (F := Ideal) x0 x1 x2 x5 x6 x7 x8 x9 x10 = rH x0 x1 x2 x5 x6 x7 x8 x9 x10 := by
  rw [v29_eq, h19, hMsg]
  rfl

theorem hMeanB : val_main_v47 (F := Ideal) x0 x1 x2 x3 x5 x6 x7 x8 x9 x10 = rMeanB x0 x1 x2 x3 x5 x6 x7 x8 x9 x10 := by
  rw [h47, hH]
  rfl

theorem hOut : val_main_v51 (F := Ideal) x0 x1 x2 x3 x5 x6 x7 x8 x9 x10 x13 = rOut x0 x1 x2 x3 x5 x6 x7 x8 x9 x10 x13 := by
  rw [v51_eq, hH, hMeanB]
  rfl

theorem hOutSq : val_main_v52 (F := Ideal) x0 x1 x2 x3 x5 x6 x7 x8 x9 x10 x13 = rOutSq x0 x1 x2 x3 x5 x6 x7 x8 x9 x10 x13 := by
  rw [v52_eq, hH, hMeanB]
  rfl

theorem hVarB : Host.gather gather_S512x128_S100000x1_S100000x128_1_0_n_n_0_1_1128 (val_main_v57 (F := Ideal) x0 x1 x2 x3 x5 x6 x7 x8 x9 x10 x13) (val_main_v66 (F := Ideal) x3) = rVarB x0 x1 x2 x3 x5 x6 x7 x8 x9 x10 x13 := by
  rw [h57, wrap66, hOutSq]
  rfl

/-- THE REFERENCE'S LAST STAGE is the composition with every lookup a plain gather, of the eighteen arguments in order. -/
theorem ref_eq_rRes : val_main_v102 (F := Ideal) x0 x1 x2 x3 x4 x5 x6 x7 x8 x9 x10 x11 x12 x13 x14 x15 x16 x17 = rRes x0 x1 x2 x3 x4 x5 x6 x7 x8 x9 x10 x11 x12 x13 x14 x15 x16 x17 := by
  rw [v102_eq, hOut, hVarB, h91, h99]
  rfl

end Cert.ReferenceIdeal.RefBridge

end
-- ==== Proof.PreDecode.lean ====
/- The two integer ranges the precondition states, read back from its printed form: every source node number of the
   edge list is in [0, 100000), and every graph number of the node list is in [0, 512). The precondition is a chain of
   conjunctions of "all entries satisfy" tests that evaluates to the bit 1; its last two conjuncts are the two range
   tests, each the conjunction of a signed "at least 0" and a signed "less than the bound" comparison at every entry. -/
import proofs.«160231_j53077205844804_1_alg».proof.Pre_finite_inputs
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Cert.Pre_finite_inputs Cert.Pre_finite_inputs.Facts

/-- The scalar shape has one index. -/
instance : Subsingleton S_.Idx := ⟨fun a b => funext fun d => d.elim0⟩

variable {F : FTy → Type} [FloatOps F] [Cert.Pre_finite_inputs.Facts]

/-- The last part of the chain, when it is 1: the conjunction it adds to what came before holds at every entry — the
    carried "at least 0" test and the "less than the bound" comparison at every edge, and both comparisons of the graph
    number at every node. A conjunction of bits is 1 iff both are, and an "all" that is 1 saw 1 at every entry. -/
theorem part5_one (main_arg3 : IVec S100000 32) (v78 : IVec S_ 1) (v82 : IVec S1600000 1) (v84 v85 : IVec S1600000 32)
    (h : fn_part5 (F := F) main_arg3 v78 v82 v84 v85 ix0 = 1#1) :
    (∀ e : S1600000.Idx, v82 e = 1#1 ∧ IntOp.cmpi .slt (v84 e) (v85 e) = 1#1)
      ∧ ∀ n : S100000.Idx, IntOp.cmpi .sge (main_arg3 n) 0#32 = 1#1 ∧ IntOp.cmpi .slt (main_arg3 n) 512#32 = 1#1 := by
  unfold fn_part5 at h
  obtain ⟨h89, h95⟩ := IntOp.andi_eq_one.1 h
  obtain ⟨-, h88⟩ := IntOp.andi_eq_one.1 h89
  refine ⟨fun e => ?_, fun n => ?_⟩
  · exact IntOp.andi_eq_one.1 (Host.reduce_andi_all _ _ _ _ ix0 h88 e)
  · exact IntOp.andi_eq_one.1 (Host.reduce_andi_all _ _ _ _ ix0 h95 n)

theorem toInt_zero : (0#32 : BitVec 32).toInt = 0 := by decide
theorem toInt_nodes : (100000#32 : BitVec 32).toInt = 100000 := by decide
theorem toInt_graphs : (512#32 : BitVec 32).toInt = 512 := by decide

/-- Both ranges at once, from the precondition evaluating to 1. -/
theorem ranges (a0 : FVec F S100000x128 .f32) (a1 : IVec S2x1600000 32) (a2 : FVec F S1600000x32 .f32) (a3 : IVec S100000 32)
    (a4 : FVec F S512x256 .f32) (a5 : FVec F S32x128 .f32) (a6 : FVec F S128 .f32) (a7 : FVec F S128x128 .f32) (a8 : FVec F S128 .f32)
    (a9 : FVec F S128x128 .f32) (a10 a11 a12 a13 : FVec F S128 .f32) (a14 : FVec F S256x128 .f32) (a15 : FVec F S128 .f32)
    (a16 : FVec F S256x128 .f32) (a17 : FVec F S128 .f32)
    (h : Cert.Pre_finite_inputs.fn (F := F) a0 a1 a2 a3 a4 a5 a6 a7 a8 a9 a10 a11 a12 a13 a14 a15 a16 a17 = (fun _ => 1#1)) :
    (∀ e : S1600000.Idx, 0 ≤ ((shapeCast S1600000 (extractStridedSlice S1x1600000 ![0, 0] a1 slices_S2x1600000_S1x1600000_0_0) shapeCasts_S1x1600000_S1600000) e).toInt ∧ ((shapeCast S1600000 (extractStridedSlice S1x1600000 ![0, 0] a1 slices_S2x1600000_S1x1600000_0_0) shapeCasts_S1x1600000_S1600000) e).toInt < 100000)
      ∧ ∀ n : S100000.Idx, 0 ≤ (a3 n).toInt ∧ (a3 n).toInt < 512 := by
  have h0 : fn_part5 (F := F) a3 _ _ _ _ ix0 = 1#1 := congrFun h ix0
  obtain ⟨hs, hb⟩ := part5_one (F := F) _ _ _ _ _ h0
  refine ⟨fun e => ?_, fun n => ?_⟩
  · obtain ⟨h1, h2⟩ := hs e
    have g1 : (0#32 : BitVec 32).toInt ≤ ((shapeCast S1600000 (extractStridedSlice S1x1600000 ![0, 0] a1 slices_S2x1600000_S1x1600000_0_0) shapeCasts_S1x1600000_S1600000) e).toInt := IntOp.cmpi_sge.1 h1
    have g2 : ((shapeCast S1600000 (extractStridedSlice S1x1600000 ![0, 0] a1 slices_S2x1600000_S1x1600000_0_0) shapeCasts_S1x1600000_S1600000) e).toInt < (100000#32 : BitVec 32).toInt := IntOp.cmpi_slt.1 h2
    rw [toInt_zero] at g1
    rw [toInt_nodes] at g2
    exact ⟨g1, g2⟩
  · obtain ⟨h1, h2⟩ := hb n
    have g1 : (0#32 : BitVec 32).toInt ≤ (a3 n).toInt := IntOp.cmpi_sge.1 h1
    have g2 : (a3 n).toInt < (512#32 : BitVec 32).toInt := IntOp.cmpi_slt.1 h2
    rw [toInt_zero] at g1
    rw [toInt_graphs] at g2
    exact ⟨g1, g2⟩

/-- Every source node number of the edge list is in [0, 100000). -/
theorem src_range (a0 : FVec F S100000x128 .f32) (a1 : IVec S2x1600000 32) (a2 : FVec F S1600000x32 .f32) (a3 : IVec S100000 32)
    (a4 : FVec F S512x256 .f32) (a5 : FVec F S32x128 .f32) (a6 : FVec F S128 .f32) (a7 : FVec F S128x128 .f32) (a8 : FVec F S128 .f32)
    (a9 : FVec F S128x128 .f32) (a10 a11 a12 a13 : FVec F S128 .f32) (a14 : FVec F S256x128 .f32) (a15 : FVec F S128 .f32)
    (a16 : FVec F S256x128 .f32) (a17 : FVec F S128 .f32)
    (h : Cert.Pre_finite_inputs.fn (F := F) a0 a1 a2 a3 a4 a5 a6 a7 a8 a9 a10 a11 a12 a13 a14 a15 a16 a17 = (fun _ => 1#1)) :
    ∀ e : S1600000.Idx, 0 ≤ ((shapeCast S1600000 (extractStridedSlice S1x1600000 ![0, 0] a1 slices_S2x1600000_S1x1600000_0_0) shapeCasts_S1x1600000_S1600000) e).toInt ∧ ((shapeCast S1600000 (extractStridedSlice S1x1600000 ![0, 0] a1 slices_S2x1600000_S1x1600000_0_0) shapeCasts_S1x1600000_S1600000) e).toInt < 100000 :=
  (ranges a0 a1 a2 a3 a4 a5 a6 a7 a8 a9 a10 a11 a12 a13 a14 a15 a16 a17 h).1

/-- Every graph number of the node list is in [0, 512). -/
theorem batch_range (a0 : FVec F S100000x128 .f32) (a1 : IVec S2x1600000 32) (a2 : FVec F S1600000x32 .f32) (a3 : IVec S100000 32)
    (a4 : FVec F S512x256 .f32) (a5 : FVec F S32x128 .f32) (a6 : FVec F S128 .f32) (a7 : FVec F S128x128 .f32) (a8 : FVec F S128 .f32)
    (a9 : FVec F S128x128 .f32) (a10 a11 a12 a13 : FVec F S128 .f32) (a14 : FVec F S256x128 .f32) (a15 : FVec F S128 .f32)
    (a16 : FVec F S256x128 .f32) (a17 : FVec F S128 .f32)
    (h : Cert.Pre_finite_inputs.fn (F := F) a0 a1 a2 a3 a4 a5 a6 a7 a8 a9 a10 a11 a12 a13 a14 a15 a16 a17 = (fun _ => 1#1)) :
    ∀ n : S100000.Idx, 0 ≤ (a3 n).toInt ∧ (a3 n).toInt < 512 :=
  (ranges a0 a1 a2 a3 a4 a5 a6 a7 a8 a9 a10 a11 a12 a13 a14 a15 a16 a17 h).2

end Cert.PreDecode

end
-- ==== Proof.lean ====
/-
  A graph-network block — edge messages, a two-layer node update, per-graph normalisation, a per-graph affine
  modulation and a residual — computed by four pipelined kernels with gathers and segment sums between them, against
  the same block written with whole-array operations.  Over the extended reals the two programs apply the same
  operations in the same order, entry by entry; they differ in two places only.  (1) The kernel's row lookups test the
  row number against the table's height and write a NaN word where the test fails, the reference's lookups clamp; under
  the stated domain — every edge's source number in [0, 100000), every node's graph number in [0, 512) — the test always
  holds and both read the same row.  (2) The reference takes the reciprocal square root on the 512-row variance table
  and then looks it up per node, the kernel looks the variance up and then takes the reciprocal square root per node; a
  lookup commutes with an entrywise function.  No law of arithmetic is used: no sum is regrouped and no product
  distributed, so finiteness of the float inputs is never opened.
  The kernel's run: @main is fourteen segments, and every buffer no kernel scopes ends at the last boundary's contents
  (KernelRun); the result buffer's contents there are the composition `kRes` of the arguments (KernelValue).  The
  reference's run and its composed term are the generated ones; the term is the composition `rRes` (RefBridge, over
  RefStages), and `kRes = rRes` on the domain (Composed, TakeInRange, PreDecode).
-/
import proofs.«160231_j53077205844804_1_alg».proof.Defs
import proofs.«160231_j53077205844804_1_alg».proof.Proof.Gen.Kernel
import proofs.«160231_j53077205844804_1_alg».proof.Proof.Gen.Kernel.Skeleton
import proofs.«160231_j53077205844804_1_alg».proof.Proof.Gen.Kernel.Launch
import proofs.«160231_j53077205844804_1_alg».proof.Proof.Gen.Kernel.Points
import proofs.«160231_j53077205844804_1_alg».proof.Proof.Gen.Kernel.Frame
import proofs.«160231_j53077205844804_1_alg».proof.Proof.Gen.KernelIdeal
import proofs.«160231_j53077205844804_1_alg».proof.Proof.Gen.KernelIdeal.Skeleton
import proofs.«160231_j53077205844804_1_alg».proof.Proof.Gen.KernelIdeal.Launch
import proofs.«160231_j53077205844804_1_alg».proof.Proof.Gen.KernelIdeal.Points
import proofs.«160231_j53077205844804_1_alg».proof.Proof.Gen.KernelIdeal.Frame
import proofs.«160231_j53077205844804_1_alg».proof.Proof.Gen.ReferenceIdeal
import proofs.«160231_j53077205844804_1_alg».proof.Proof.Gen.Pre_finite_inputs
import proofs.«160231_j53077205844804_1_alg».proof.Proof.Gen.ReferenceIdeal.Run
import proofs.«160231_j53077205844804_1_alg».proof.Proof.Gen.ReferenceIdeal.Read
import proofs.«160231_j53077205844804_1_alg».proof.Proof.KernelRun
import proofs.«160231_j53077205844804_1_alg».proof.Proof.KernelValue
import proofs.«160231_j53077205844804_1_alg».proof.Proof.Composed
import proofs.«160231_j53077205844804_1_alg».proof.Proof.RefStages
import proofs.«160231_j53077205844804_1_alg».proof.Proof.RefBridge
import proofs.«160231_j53077205844804_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the eighteen arguments, on the stated domain, both programs run and both result
    buffers end at the kernel's composition `kRes` of the arguments: the kernel's by its run and its value, the
    reference's because its composed term is `rRes` of the same arguments, which is `kRes` once every source number
    and every graph number is in range. -/
theorem algebraic : Cert.algebraic_KernelIdeal_ReferenceIdeal := by
  intro m ρ m' ρ' hpre hagree
  refine ⟨fun c => Cert.KernelIdeal.Composed.kRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.KernelRun.run_final (F := Ideal) m ρ)
    exact ⟨(h c _ Cert.KernelIdeal.KernelRun.result_mem).trans (Cert.KernelIdeal.KernelValue.W14_v41 m ρ c),
      (h c _ (Cert.KernelIdeal.Gen.mem_uc Cert.KernelIdeal.main_arg0 (by decide))).trans (Cert.KernelIdeal.Gen.W14_main_arg0 m ρ c),
      (h c _ (Cert.KernelIdeal.Gen.mem_uc Cert.KernelIdeal.main_arg1 (by decide))).trans (Cert.KernelIdeal.Gen.W14_main_arg1 m ρ c),
      (h c _ (Cert.KernelIdeal.Gen.mem_uc Cert.KernelIdeal.main_arg2 (by decide))).trans (Cert.KernelIdeal.Gen.W14_main_arg2 m ρ c),
      (h c _ (Cert.KernelIdeal.Gen.mem_uc Cert.KernelIdeal.main_arg3 (by decide))).trans (Cert.KernelIdeal.Gen.W14_main_arg3 m ρ c),
      (h c _ (Cert.KernelIdeal.Gen.mem_uc Cert.KernelIdeal.main_arg4 (by decide))).trans (Cert.KernelIdeal.Gen.W14_main_arg4 m ρ c),
      (h c _ (Cert.KernelIdeal.Gen.mem_uc Cert.KernelIdeal.main_arg5 (by decide))).trans (Cert.KernelIdeal.Gen.W14_main_arg5 m ρ c),
      (h c _ (Cert.KernelIdeal.Gen.mem_uc Cert.KernelIdeal.main_arg6 (by decide))).trans (Cert.KernelIdeal.Gen.W14_main_arg6 m ρ c),
      (h c _ (Cert.KernelIdeal.Gen.mem_uc Cert.KernelIdeal.main_arg7 (by decide))).trans (Cert.KernelIdeal.Gen.W14_main_arg7 m ρ c),
      (h c _ (Cert.KernelIdeal.Gen.mem_uc Cert.KernelIdeal.main_arg8 (by decide))).trans (Cert.KernelIdeal.Gen.W14_main_arg8 m ρ c),
      (h c _ (Cert.KernelIdeal.Gen.mem_uc Cert.KernelIdeal.main_arg9 (by decide))).trans (Cert.KernelIdeal.Gen.W14_main_arg9 m ρ c),
      (h c _ (Cert.KernelIdeal.Gen.mem_uc Cert.KernelIdeal.main_arg10 (by decide))).trans (Cert.KernelIdeal.Gen.W14_main_arg10 m ρ c),
      (h c _ (Cert.KernelIdeal.Gen.mem_uc Cert.KernelIdeal.main_arg11 (by decide))).trans (Cert.KernelIdeal.Gen.W14_main_arg11 m ρ c),
      (h c _ (Cert.KernelIdeal.Gen.mem_uc Cert.KernelIdeal.main_arg12 (by decide))).trans (Cert.KernelIdeal.Gen.W14_main_arg12 m ρ c),
      (h c _ (Cert.KernelIdeal.Gen.mem_uc Cert.KernelIdeal.main_arg13 (by decide))).trans (Cert.KernelIdeal.Gen.W14_main_arg13 m ρ c),
      (h c _ (Cert.KernelIdeal.Gen.mem_uc Cert.KernelIdeal.main_arg14 (by decide))).trans (Cert.KernelIdeal.Gen.W14_main_arg14 m ρ c),
      (h c _ (Cert.KernelIdeal.Gen.mem_uc Cert.KernelIdeal.main_arg15 (by decide))).trans (Cert.KernelIdeal.Gen.W14_main_arg15 m ρ c),
      (h c _ (Cert.KernelIdeal.Gen.mem_uc Cert.KernelIdeal.main_arg16 (by decide))).trans (Cert.KernelIdeal.Gen.W14_main_arg16 m ρ c),
      (h c _ (Cert.KernelIdeal.Gen.mem_uc Cert.KernelIdeal.main_arg17 (by decide))).trans (Cert.KernelIdeal.Gen.W14_main_arg17 m ρ c)⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    refine (Cert.ReferenceIdeal.RefStages.result_eq m' c).trans ?_
    rw [h0, h1, h2, h3, h4, h5, h6, h7, h8, h9, h10, h11, h12, h13, h14, h15, h16, h17]
    refine (Cert.ReferenceIdeal.RefBridge.ref_eq_rRes _ _ _ _ _ _ _ _ _ _ _ _ _ _ _ _ _ _).trans ?_
    exact (Cert.KernelIdeal.Composed.kRes_eq_rRes _ _ _ _ _ _ _ _ _ _ _ _ _ _ _ _ _ _
      (Cert.PreDecode.src_range _ _ _ _ _ _ _ _ _ _ _ _ _ _ _ _ _ _ (hpre c))
      (Cert.PreDecode.batch_range _ _ _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
